-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x64x128 : Shape := ⟨4, ![16, 128, 64, 128]⟩
abbrev S16x128x64 : Shape := ⟨3, ![16, 128, 64]⟩
abbrev S3x128x128 : Shape := ⟨3, ![3, 128, 128]⟩
abbrev S3x128 : Shape := ⟨2, ![3, 128]⟩
abbrev S3x256x128 : Shape := ⟨3, ![3, 256, 128]⟩
abbrev S_ : Shape := ⟨0, ![]⟩

class Facts : Prop where
  bcast_S_S16x128x64x128 : S_.BroadcastsInDim S16x128x64x128 (![] : Fin 0 → Fin S16x128x64x128.rank)
  reducesTo_S16x128x64x128_S_d0_1_2_3 : S16x128x64x128.ReducesTo [0, 1, 2, 3] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x256x128 : S_.BroadcastsInDim S3x256x128 (![] : Fin 0 → Fin S3x256x128.rank)
  reducesTo_S3x256x128_S_d0_1_2 : S3x256x128.ReducesTo [0, 1, 2] S_

variable [Facts]

def fn_part1 {F : FTy → Type} [FloatOps F] (main_arg5 : FVec F S3x128 .f32) (main_arg6 : FVec F S3x256x128 .f32) (main_arg7 : FVec F S3x128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x256x128 .f32 := Host.absf main_arg6
  let main_cst_8 : FVec F S_ .f32 := constant S_ .f32 0x7F800000#32
  let main_v25 : FVec F S3x256x128 .f32 := broadcastInDim S3x256x128 ![] bcast_S_S3x256x128 main_cst_8
  let main_v26 : IVec S3x256x128 1 := cmpf .olt main_v24 main_v25
  let main_c_9 : IVec S_ 1 := constantI S_ 1 1#1
  let main_v27 : IVec S_ 1 := (fun x v => Host.reduce IntOp.andi x v reducesTo_S3x256x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S16x128x64x128 .f32) (main_arg1 : IVec S16x128x64 1) (main_arg2 : FVec F S3x128x128 .f32) (main_arg3 : FVec F S3x128 .f32) (main_arg4 : FVec F S3x128 .f32) (main_arg5 : FVec F S3x128 .f32) (main_arg6 : FVec F S3x256x128 .f32) (main_arg7 : FVec F S3x128 .f32) : IVec S_ 1 :=
  let main_v0 : FVec F S16x128x64x128 .f32 := Host.absf main_arg0
  let main_cst : FVec F S_ .f32 := constant S_ .f32 0x7F800000#32
  let main_v1 : FVec F S16x128x64x128 .f32 := broadcastInDim S16x128x64x128 ![] bcast_S_S16x128x64x128 main_cst
  let main_v2 : IVec S16x128x64x128 1 := cmpf .olt main_v0 main_v1
  let main_c : IVec S_ 1 := constantI S_ 1 1#1
  let main_v3 : IVec S_ 1 := (fun x v => Host.reduce IntOp.andi x v reducesTo_S16x128x64x128_S_d0_1_2_3 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_v13 main_v16
-- ==== Kernel.lean ====
abbrev S16x128x64x128 : Shape := ⟨4, ![16, 128, 64, 128]⟩
abbrev S16x128x64 : Shape := ⟨3, ![16, 128, 64]⟩
abbrev S3x128x128 : Shape := ⟨3, ![3, 128, 128]⟩
abbrev S3x128 : Shape := ⟨2, ![3, 128]⟩
abbrev S3x256x128 : Shape := ⟨3, ![3, 256, 128]⟩
abbrev S2048x64x128 : Shape := ⟨3, ![2048, 64, 128]⟩
abbrev S2048x64 : Shape := ⟨2, ![2048, 64]⟩
abbrev S2048x128 : Shape := ⟨2, ![2048, 128]⟩
abbrev S64x64x128 : Shape := ⟨3, ![64, 64, 128]⟩
abbrev S64x64 : Shape := ⟨2, ![64, 64]⟩
abbrev S64x128 : Shape := ⟨2, ![64, 128]⟩
abbrev S64 : Shape := ⟨1, ![64]⟩
abbrev S64x1 : Shape := ⟨2, ![64, 1]⟩
abbrev S64x64x1 : Shape := ⟨3, ![64, 64, 1]⟩
abbrev S64x1x1 : Shape := ⟨3, ![64, 1, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x256x128 : Shape := ⟨3, ![1, 256, 128]⟩
abbrev S256x128 : Shape := ⟨2, ![256, 128]⟩
abbrev S4096x128 : Shape := ⟨2, ![4096, 128]⟩
abbrev S1x1x128 : Shape := ⟨3, ![1, 1, 128]⟩
abbrev S64x1x128 : Shape := ⟨3, ![64, 1, 128]⟩
abbrev S64x64x256 : Shape := ⟨3, ![64, 64, 256]⟩
abbrev S4096x256 : Shape := ⟨2, ![4096, 256]⟩
abbrev S16x128x128 : Shape := ⟨3, ![16, 128, 128]⟩

abbrev nBuf : Space → Nat
  | .hbm => 13
  | .vmem => 12
  | .smem => 0
  | _ => 0

abbrev bufTy : (tb : Table) → Fin (tcTables nBuf tb) → BufTy
  | .hbm, ⟨0, _⟩ => ⟨S16x128x64x128, .f32⟩
  | .hbm, ⟨1, _⟩ => ⟨S16x128x64, .i1⟩
  | .hbm, ⟨2, _⟩ => ⟨S3x128x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x256x128, .f32⟩
  | .hbm, ⟨7, _⟩ => ⟨S3x128, .f32⟩
  | .hbm, ⟨8, _⟩ => ⟨S2048x64x128, .f32⟩
  | .hbm, ⟨9, _⟩ => ⟨S2048x64, .i1⟩
  | .hbm, ⟨10, _⟩ => ⟨S2048x64, .i32⟩
  | .hbm, ⟨11, _⟩ => ⟨S2048x128, .f32⟩
  | .hbm, ⟨12, _⟩ => ⟨S16x128x128, .f32⟩
  | .local _ .vmem, ⟨0, _⟩ => ⟨S64x64x128, .f32⟩
  | .local _ .vmem, ⟨1, _⟩ => ⟨S64x64x128, .f32⟩
  | .local _ .vmem, ⟨2, _⟩ => ⟨S64x64, .i32⟩
  | .local _ .vmem, ⟨3, _⟩ => ⟨S64x64, .i32⟩
  | .local _ .vmem, ⟨4, _⟩ => ⟨S3x128x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S3x256x128, .f32⟩
  | .local _ .vmem, ⟨9, _⟩ => ⟨S3x128, .f32⟩
  | .local _ .vmem, ⟨10, _⟩ => ⟨S64x128, .f32⟩
  | .local _ .vmem, ⟨11, _⟩ => ⟨S64x128, .f32⟩
  | _, _ => ⟨S16x128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S16x128x64x128_S2048x64x128 : S16x128x64x128.ShapeCasts S2048x64x128
  shapeCasts_S16x128x64_S2048x64 : S16x128x64.ShapeCasts S2048x64
  natLt_1_32 : 1 < 32
  inb_S64x64x128_S64x64x128_0_0_0 : ∀ a, (![0, 0, 0] : Fin 3 → Nat) a + S64x64x128.size a ≤ S64x64x128.size a
  h_S64x64x128 : 0 < S64x64x128.numel
  shapeCasts_S64x64x128_S64x64x128 : S64x64x128.ShapeCasts S64x64x128
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S64x64_S64 : S64x64.Reduces [1] S64
  shapeCasts_S64_S64x1 : S64.ShapeCasts S64x1
  broadcasts_S64x1_S64x64 : S64x1.Broadcasts S64x64
  shapeCasts_S64x64_S64x64x1 : S64x64.ShapeCasts S64x64x1
  shapeCasts_S64x1_S64x1x1 : S64x1.ShapeCasts S64x1x1
  broadcasts_S64x1x1_S64x64x128 : S64x1x1.Broadcasts S64x64x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  bitsLt_bf16_f32 : FTy.bits .bf16 < FTy.bits .f32
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x256x128_S1x256x128_0_0_0 : ∀ a, (![0, 0, 0] : Fin 3 → Nat) a + S1x256x128.size a ≤ S3x256x128.size a
  h_S1x256x128 : 0 < S1x256x128.numel
  shapeCasts_S1x256x128_S256x128 : S1x256x128.ShapeCasts S256x128
  shapeCasts_S64x64x128_S4096x128 : S64x64x128.ShapeCasts S4096x128
  shapeCasts_S4096x128_S64x64x128 : S4096x128.ShapeCasts S64x64x128
  shapeCasts_S128_S1x1x128 : S128.ShapeCasts S1x1x128
  broadcasts_S1x1x128_S64x64x128 : S1x1x128.Broadcasts S64x64x128
  reduces_S64x64x128_S64x64 : S64x64x128.Reduces [2] S64x64
  broadcasts_S64x64x1_S64x64x128 : S64x64x1.Broadcasts S64x64x128
  reduces_S64x64x128_S64x128 : S64x64x128.Reduces [1] S64x128
  shapeCasts_S64x128_S64x1x128 : S64x128.ShapeCasts S64x1x128
  shapeCasts_S64x1x128_S64x1x128 : S64x1x128.ShapeCasts S64x1x128
  broadcasts_S64x1x128_S64x64x128 : S64x1x128.Broadcasts S64x64x128
  concatenates_S64x64x128_S64x64x128_S64x64x256_d2 : Shape.Concatenates [S64x64x128, S64x64x128] S64x64x256 2
  shapeCasts_S64x64x256_S4096x256 : S64x64x256.ShapeCasts S4096x256
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S3x256x128_S1x256x128_1_0_0 : ∀ a, (![1, 0, 0] : Fin 3 → Nat) a + S1x256x128.size a ≤ S3x256x128.size a
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S3x256x128_S1x256x128_2_0_0 : ∀ a, (![2, 0, 0] : Fin 3 → Nat) a + S1x256x128.size a ≤ S3x256x128.size a
  broadcasts_S64x1_S64x128 : S64x1.Broadcasts S64x128
  inb_S64x128_S64x128_0_0 : ∀ a, (![0, 0] : Fin 2 → Nat) a + S64x128.size a ≤ S64x128.size a
  h_S64x128 : 0 < S64x128.numel
  shapeCasts_S2048x128_S16x128x128 : S2048x128.ShapeCasts S16x128x128
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S2048x64x128.size a
  hwx0_0 : ∀ i : grid0.Coords, EltTy.bits .f32 = 32 ∨ (Rect.block (s := S2048x64x128) S64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S2048x64.size a
  hwx0_1 : ∀ i : grid0.Coords, EltTy.bits .i32 = 32 ∨ (Rect.block (s := S2048x64) S64x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x128.size a ≤ S3x128x128.size a
  hwx0_2 : ∀ i : grid0.Coords, EltTy.bits .f32 = 32 ∨ (Rect.block (s := S3x128x128) S3x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128.size a ≤ S3x128.size a
  hwx0_4 : ∀ i : grid0.Coords, EltTy.bits .f32 = 32 ∨ (Rect.block (s := S3x128) S3x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x256x128.size a ≤ S3x256x128.size a
  hwx0_6 : ∀ i : grid0.Coords, EltTy.bits .f32 = 32 ∨ (Rect.block (s := S3x256x128) S3x256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128.size a ≤ S3x128.size a
  hwx0_7 : ∀ i : grid0.Coords, EltTy.bits .f32 = 32 ∨ (Rect.block (s := S3x128) S3x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S2048x128.size a
  hwx0_8 : ∀ i : grid0.Coords, EltTy.bits .f32 = 32 ∨ (Rect.block (s := S2048x128) S64x128.size (cc0_transform_8 i) (hinb0_8 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S3x256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S3x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S64x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x128x64x128 : Shape := ⟨4, ![16, 128, 64, 128]⟩
abbrev S16x128x64 : Shape := ⟨3, ![16, 128, 64]⟩
abbrev S3x128x128 : Shape := ⟨3, ![3, 128, 128]⟩
abbrev S3x128 : Shape := ⟨2, ![3, 128]⟩
abbrev S3x256x128 : Shape := ⟨3, ![3, 256, 128]⟩
abbrev S_ : Shape := ⟨0, ![]⟩
abbrev S16x128 : Shape := ⟨2, ![16, 128]⟩
abbrev S16x128x1 : Shape := ⟨3, ![16, 128, 1]⟩
abbrev S16x128x1x1 : Shape := ⟨4, ![16, 128, 1, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x1x1x128 : Shape := ⟨4, ![1, 1, 1, 128]⟩
abbrev S16x128x64x1 : Shape := ⟨4, ![16, 128, 64, 1]⟩
abbrev S16x128x128 : Shape := ⟨3, ![16, 128, 128]⟩
abbrev S16x128x1x128 : Shape := ⟨4, ![16, 128, 1, 128]⟩
abbrev S16x128x64x256 : Shape := ⟨4, ![16, 128, 64, 256]⟩
abbrev S1x256x128 : Shape := ⟨3, ![1, 256, 128]⟩
abbrev S256x128 : Shape := ⟨2, ![256, 128]⟩

abbrev nBuf : Space → Nat
  | .hbm => 226
  | .vmem => 0
  | .smem => 0
  | _ => 0

abbrev hbmTy0_0 (i : Nat) : BufTy := match i % 128 with
  | 0 => ⟨S16x128x64x128, .f32⟩
  | 1 => ⟨S16x128x64, .i1⟩
  | 2 => ⟨S3x128x128, .f32⟩
  | 3 => ⟨S3x128, .f32⟩
  | 4 => ⟨S3x128, .f32⟩
  | 5 => ⟨S3x128, .f32⟩
  | 6 => ⟨S3x256x128, .f32⟩
  | 7 => ⟨S3x128, .f32⟩
  | 8 => ⟨S16x128x64, .i1⟩
  | 9 => ⟨S_, .i1⟩
  | 10 => ⟨S16x128, .i1⟩
  | 11 => ⟨S16x128, .i1⟩
  | 12 => ⟨S16x128x1, .i1⟩
  | 13 => ⟨S_, .i1⟩
  | 14 => ⟨S16x128x64, .i1⟩
  | 15 => ⟨S16x128x64, .i1⟩
  | 16 => ⟨S16x128x64, .i1⟩
  | 17 => ⟨S16x128x1x1, .i1⟩
  | 18 => ⟨S_, .f32⟩
  | 19 => ⟨S_, .f32⟩
  | 20 => ⟨S16x128x64x128, .i1⟩
  | 21 => ⟨S16x128x64x128, .f32⟩
  | 22 => ⟨S16x128x64x128, .f32⟩
  | 23 => ⟨S1x128x128, .f32⟩
  | 24 => ⟨S128x128, .f32⟩
  | 25 => ⟨S16x128x64x128, .f32⟩
  | 26 => ⟨S1x128, .f32⟩
  | 27 => ⟨S128, .f32⟩
  | 28 => ⟨S1x1x1x128, .f32⟩
  | 29 => ⟨S16x128x64x128, .f32⟩
  | 30 => ⟨S16x128x64x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S16x128x64, .f32⟩
  | 37 => ⟨S16x128x64x1, .f32⟩
  | 38 => ⟨S_, .f32⟩
  | 39 => ⟨S16x128x64x1, .f32⟩
  | 40 => ⟨S16x128x64x1, .f32⟩
  | 41 => ⟨S16x128x64x128, .f32⟩
  | 42 => ⟨S16x128x64x128, .f32⟩
  | 43 => ⟨S16x128x64x128, .f32⟩
  | 44 => ⟨S_, .f32⟩
  | 45 => ⟨S16x128x64, .f32⟩
  | 46 => ⟨S16x128x64x1, .f32⟩
  | 47 => ⟨S_, .f32⟩
  | 48 => ⟨S16x128x64x1, .f32⟩
  | 49 => ⟨S16x128x64x1, .f32⟩
  | 50 => ⟨S16x128x64x128, .f32⟩
  | 51 => ⟨S16x128x64x128, .f32⟩
  | 52 => ⟨S_, .f32⟩
  | 53 => ⟨S16x128x64x1, .f32⟩
  | 54 => ⟨S16x128x64x1, .f32⟩
  | 55 => ⟨S16x128x64x1, .f32⟩
  | 56 => ⟨S16x128x64x128, .f32⟩
  | 57 => ⟨S16x128x64x128, .f32⟩
  | 58 => ⟨S1x1x1x128, .f32⟩
  | 59 => ⟨S16x128x64x128, .f32⟩
  | 60 => ⟨S16x128x64x128, .f32⟩
  | 61 => ⟨S1x1x1x128, .f32⟩
  | 62 => ⟨S16x128x64x128, .f32⟩
  | 63 => ⟨S16x128x64x128, .f32⟩
  | 64 => ⟨S_, .f32⟩
  | 65 => ⟨S16x128x64x128, .f32⟩
  | 66 => ⟨S16x128x64x128, .f32⟩
  | 67 => ⟨S16x128x64x1, .i1⟩
  | 68 => ⟨S_, .f32⟩
  | 69 => ⟨S_, .f32⟩
  | 70 => ⟨S16x128x64x128, .i1⟩
  | 71 => ⟨S16x128x64x128, .f32⟩
  | 72 => ⟨S16x128x64x128, .f32⟩
  | 73 => ⟨S_, .f32⟩
  | 74 => ⟨S16x128x128, .f32⟩
  | 75 => ⟨S16x128x1x128, .f32⟩
  | 76 => ⟨S16x128x64x128, .f32⟩
  | 77 => ⟨S16x128x64x256, .f32⟩
  | 78 => ⟨S1x256x128, .f32⟩
  | 79 => ⟨S256x128, .f32⟩
  | 80 => ⟨S16x128x64x128, .f32⟩
  | 81 => ⟨S1x128, .f32⟩
  | 82 => ⟨S128, .f32⟩
  | 83 => ⟨S1x1x1x128, .f32⟩
  | 84 => ⟨S16x128x64x128, .f32⟩
  | 85 => ⟨S16x128x64x128, .f32⟩
  | 86 => ⟨S1x128x128, .f32⟩
  | 87 => ⟨S128x128, .f32⟩
  | 88 => ⟨S16x128x64x128, .f32⟩
  | 89 => ⟨S1x128, .f32⟩
  | 90 => ⟨S128, .f32⟩
  | 91 => ⟨S1x1x1x128, .f32⟩
  | 92 => ⟨S16x128x64x128, .f32⟩
  | 93 => ⟨S16x128x64x128, .f32⟩
  | 94 => ⟨S1x128, .f32⟩
  | 95 => ⟨S128, .f32⟩
  | 96 => ⟨S1x128, .f32⟩
  | 97 => ⟨S128, .f32⟩
  | 98 => ⟨S_, .f32⟩
  | 99 => ⟨S16x128x64, .f32⟩
  | 100 => ⟨S16x128x64x1, .f32⟩
  | 101 => ⟨S_, .f32⟩
  | 102 => ⟨S16x128x64x1, .f32⟩
  | 103 => ⟨S16x128x64x1, .f32⟩
  | 104 => ⟨S16x128x64x128, .f32⟩
  | 105 => ⟨S16x128x64x128, .f32⟩
  | 106 => ⟨S16x128x64x128, .f32⟩
  | 107 => ⟨S_, .f32⟩
  | 108 => ⟨S16x128x64, .f32⟩
  | 109 => ⟨S16x128x64x1, .f32⟩
  | 110 => ⟨S_, .f32⟩
  | 111 => ⟨S16x128x64x1, .f32⟩
  | 112 => ⟨S16x128x64x1, .f32⟩
  | 113 => ⟨S16x128x64x128, .f32⟩
  | 114 => ⟨S16x128x64x128, .f32⟩
  | 115 => ⟨S_, .f32⟩
  | 116 => ⟨S16x128x64x1, .f32⟩
  | 117 => ⟨S16x128x64x1, .f32⟩
  | 118 => ⟨S16x128x64x1, .f32⟩
  | 119 => ⟨S16x128x64x128, .f32⟩
  | 120 => ⟨S16x128x64x128, .f32⟩
  | 121 => ⟨S1x1x1x128, .f32⟩
  | 122 => ⟨S16x128x64x128, .f32⟩
  | 123 => ⟨S16x128x64x128, .f32⟩
  | 124 => ⟨S1x1x1x128, .f32⟩
  | 125 => ⟨S16x128x64x128, .f32⟩
  | 126 => ⟨S16x128x64x128, .f32⟩
  | 127 => ⟨S_, .f32⟩
  | _ => ⟨S16x128x64x128, .f32⟩

abbrev hbmTy0_1 (i : Nat) : BufTy := match i % 128 with
  | 0 => ⟨S16x128x64x128, .f32⟩
  | 1 => ⟨S16x128x64x128, .f32⟩
  | 2 => ⟨S16x128x64x1, .i1⟩
  | 3 => ⟨S_, .f32⟩
  | 4 => ⟨S_, .f32⟩
  | 5 => ⟨S16x128x64x128, .i1⟩
  | 6 => ⟨S16x128x64x128, .f32⟩
  | 7 => ⟨S16x128x64x128, .f32⟩
  | 8 => ⟨S_, .f32⟩
  | 9 => ⟨S16x128x128, .f32⟩
  | 10 => ⟨S16x128x1x128, .f32⟩
  | 11 => ⟨S16x128x64x128, .f32⟩
  | 12 => ⟨S16x128x64x256, .f32⟩
  | 13 => ⟨S1x256x128, .f32⟩
  | 14 => ⟨S256x128, .f32⟩
  | 15 => ⟨S16x128x64x128, .f32⟩
  | 16 => ⟨S1x128, .f32⟩
  | 17 => ⟨S128, .f32⟩
  | 18 => ⟨S1x1x1x128, .f32⟩
  | 19 => ⟨S16x128x64x128, .f32⟩
  | 20 => ⟨S16x128x64x128, .f32⟩
  | 21 => ⟨S1x128x128, .f32⟩
  | 22 => ⟨S128x128, .f32⟩
  | 23 => ⟨S16x128x64x128, .f32⟩
  | 24 => ⟨S1x128, .f32⟩
  | 25 => ⟨S128, .f32⟩
  | 26 => ⟨S1x1x1x128, .f32⟩
  | 27 => ⟨S16x128x64x128, .f32⟩
  | 28 => ⟨S16x128x64x128, .f32⟩
  | 29 => ⟨S1x128, .f32⟩
  | 30 => ⟨S128, .f32⟩
  | 31 => ⟨S1x128, .f32⟩
  | 32 => ⟨S128, .f32⟩
  | 33 => ⟨S_, .f32⟩
  | 34 => ⟨S16x128x64, .f32⟩
  | 35 => ⟨S16x128x64x1, .f32⟩
  | 36 => ⟨S_, .f32⟩
  | 37 => ⟨S16x128x64x1, .f32⟩
  | 38 => ⟨S16x128x64x1, .f32⟩
  | 39 => ⟨S16x128x64x128, .f32⟩
  | 40 => ⟨S16x128x64x128, .f32⟩
  | 41 => ⟨S16x128x64x128, .f32⟩
  | 42 => ⟨S_, .f32⟩
  | 43 => ⟨S16x128x64, .f32⟩
  | 44 => ⟨S16x128x64x1, .f32⟩
  | 45 => ⟨S_, .f32⟩
  | 46 => ⟨S16x128x64x1, .f32⟩
  | 47 => ⟨S16x128x64x1, .f32⟩
  | 48 => ⟨S16x128x64x128, .f32⟩
  | 49 => ⟨S16x128x64x128, .f32⟩
  | 50 => ⟨S_, .f32⟩
  | 51 => ⟨S16x128x64x1, .f32⟩
  | 52 => ⟨S16x128x64x1, .f32⟩
  | 53 => ⟨S16x128x64x1, .f32⟩
  | 54 => ⟨S16x128x64x128, .f32⟩
  | 55 => ⟨S16x128x64x128, .f32⟩
  | 56 => ⟨S1x1x1x128, .f32⟩
  | 57 => ⟨S16x128x64x128, .f32⟩
  | 58 => ⟨S16x128x64x128, .f32⟩
  | 59 => ⟨S1x1x1x128, .f32⟩
  | 60 => ⟨S16x128x64x128, .f32⟩
  | 61 => ⟨S16x128x64x128, .f32⟩
  | 62 => ⟨S_, .f32⟩
  | 63 => ⟨S16x128x64x128, .f32⟩
  | 64 => ⟨S16x128x64x128, .f32⟩
  | 65 => ⟨S16x128x64x1, .i1⟩
  | 66 => ⟨S_, .f32⟩
  | 67 => ⟨S_, .f32⟩
  | 68 => ⟨S16x128x64x128, .i1⟩
  | 69 => ⟨S16x128x64x128, .f32⟩
  | 70 => ⟨S16x128x64x128, .f32⟩
  | 71 => ⟨S_, .f32⟩
  | 72 => ⟨S16x128x128, .f32⟩
  | 73 => ⟨S16x128x1x128, .f32⟩
  | 74 => ⟨S16x128x64x128, .f32⟩
  | 75 => ⟨S16x128x64x256, .f32⟩
  | 76 => ⟨S1x256x128, .f32⟩
  | 77 => ⟨S256x128, .f32⟩
  | 78 => ⟨S16x128x64x128, .f32⟩
  | 79 => ⟨S1x128, .f32⟩
  | 80 => ⟨S128, .f32⟩
  | 81 => ⟨S1x1x1x128, .f32⟩
  | 82 => ⟨S16x128x64x128, .f32⟩
  | 83 => ⟨S16x128x64x128, .f32⟩
  | 84 => ⟨S16x128x64x1, .i1⟩
  | 85 => ⟨S_, .f32⟩
  | 86 => ⟨S_, .f32⟩
  | 87 => ⟨S16x128x64x128, .i1⟩
  | 88 => ⟨S16x128x64x128, .f32⟩
  | 89 => ⟨S16x128x64x128, .f32⟩
  | 90 => ⟨S_, .f32⟩
  | 91 => ⟨S16x128x128, .f32⟩
  | 92 => ⟨S16x128x1, .i1⟩
  | 93 => ⟨S_, .f32⟩
  | 94 => ⟨S_, .f32⟩
  | 95 => ⟨S16x128x128, .i1⟩
  | 96 => ⟨S16x128x128, .f32⟩
  | 97 => ⟨S16x128x128, .f32⟩
  | _ => ⟨S16x128x64x128, .f32⟩

abbrev hbmTy (i : Nat) : BufTy := match i / 128 with
  | 0 => hbmTy0_0 i
  | 1 => hbmTy0_1 i
  | _ => ⟨S16x128x64x128, .f32⟩

abbrev bufTy : (tb : Table) → Fin (tcTables nBuf tb) → BufTy
  | .hbm, ⟨i, _⟩ => hbmTy i
  | _, _ => ⟨S16x128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call2_cst : Ref sig .tc := ⟨.hbm, 64, rfl⟩
abbrev main_call2_v0 : Ref sig .tc := ⟨.hbm, 65, rfl⟩
abbrev main_v43 : Ref sig .tc := ⟨.hbm, 66, rfl⟩
abbrev main_v44 : Ref sig .tc := ⟨.hbm, 67, rfl⟩
abbrev main_cst_6 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_8 : Ref sig .tc := ⟨.hbm, 98, rfl⟩
abbrev main_v70 : Ref sig .tc := ⟨.hbm, 99, rfl⟩
abbrev main_v71 : Ref sig .tc := ⟨.hbm, 100, rfl⟩
abbrev main_cst_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_12 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call4_cst : Ref sig .tc := ⟨.hbm, 127, rfl⟩
abbrev main_call4_v0 : Ref sig .tc := ⟨.hbm, 128, rfl⟩
abbrev main_v94 : Ref sig .tc := ⟨.hbm, 129, rfl⟩
abbrev main_v95 : Ref sig .tc := ⟨.hbm, 130, rfl⟩
abbrev main_cst_13 : Ref sig .tc := ⟨.hbm, 131, rfl⟩
abbrev main_call5_v0 : Ref sig .tc := ⟨.hbm, 132, rfl⟩
abbrev main_call5_v1 : Ref sig .tc := ⟨.hbm, 133, rfl⟩
abbrev main_call5_v2 : Ref sig .tc := ⟨.hbm, 134, rfl⟩
abbrev main_v96 : Ref sig .tc := ⟨.hbm, 135, rfl⟩
abbrev main_cst_14 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_15 : Ref sig .tc := ⟨.hbm, 161, rfl⟩
abbrev main_v121 : Ref sig .tc := ⟨.hbm, 162, rfl⟩
abbrev main_v122 : Ref sig .tc := ⟨.hbm, 163, rfl⟩
abbrev main_cst_16 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_17 : Ref sig .tc := ⟨.hbm, 170, rfl⟩
abbrev main_v128 : Ref sig .tc := ⟨.hbm, 171, rfl⟩
abbrev main_v129 : Ref sig .tc := ⟨.hbm, 172, rfl⟩
abbrev main_cst_18 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_19 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_call6_cst : Ref sig .tc := ⟨.hbm, 190, rfl⟩
abbrev main_call6_v0 : Ref sig .tc := ⟨.hbm, 191, rfl⟩
abbrev main_v145 : Ref sig .tc := ⟨.hbm, 192, rfl⟩
abbrev main_v146 : Ref sig .tc := ⟨.hbm, 193, rfl⟩
abbrev main_cst_20 : Ref sig .tc := ⟨.hbm, 194, rfl⟩
abbrev main_call7_v0 : Ref sig .tc := ⟨.hbm, 195, rfl⟩
abbrev main_call7_v1 : Ref sig .tc := ⟨.hbm, 196, rfl⟩
abbrev main_call7_v2 : Ref sig .tc := ⟨.hbm, 197, rfl⟩
abbrev main_v147 : Ref sig .tc := ⟨.hbm, 198, rfl⟩
abbrev main_cst_21 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_22 : Ref sig .tc := ⟨.hbm, 213, rfl⟩
abbrev main_call8_v0 : Ref sig .tc := ⟨.hbm, 214, rfl⟩
abbrev main_call8_v1 : Ref sig .tc := ⟨.hbm, 215, rfl⟩
abbrev main_call8_v2 : Ref sig .tc := ⟨.hbm, 216, rfl⟩
abbrev main_v161 : Ref sig .tc := ⟨.hbm, 217, rfl⟩
abbrev main_cst_23 : Ref sig .tc := ⟨.hbm, 218, rfl⟩
abbrev main_v162 : Ref sig .tc := ⟨.hbm, 219, rfl⟩
abbrev main_v163 : Ref sig .tc := ⟨.hbm, 220, rfl⟩
abbrev main_cst_24 : Ref sig .tc := ⟨.hbm, 221, rfl⟩
abbrev main_call9_v0 : Ref sig .tc := ⟨.hbm, 222, rfl⟩
abbrev main_call9_v1 : Ref sig .tc := ⟨.hbm, 223, rfl⟩
abbrev main_call9_v2 : Ref sig .tc := ⟨.hbm, 224, rfl⟩
abbrev main_v164 : Ref sig .tc := ⟨.hbm, 225, rfl⟩

abbrev nD : Nat := 1
abbrev τ : Topo := Topo.v7x

variable {F : FTy → Type} [FloatOps F]

class Facts₀ : Prop where
  reducesTo_S16x128x64_S16x128_d2 : S16x128x64.ReducesTo [2] S16x128
  h_S_ : 0 < S_.numel
  bcast_S16x128_S16x128x1_0_1 : S16x128.BroadcastsInDim S16x128x1 (![0, 1] : Fin 2 → Fin S16x128x1.rank)
  bcast_S16x128x1_S16x128x64_0_1_2 : S16x128x1.BroadcastsInDim S16x128x64 (![0, 1, 2] : Fin 3 → Fin S16x128x64.rank)
  bcast_S_S16x128x64 : S_.BroadcastsInDim S16x128x64 (![] : Fin 0 → Fin S16x128x64.rank)
  bcast_S16x128_S16x128x1x1_0_1 : S16x128.BroadcastsInDim S16x128x1x1 (![0, 1] : Fin 2 → Fin S16x128x1x1.rank)
  bcast_S16x128x1x1_S16x128x64x128_0_1_2_3 : S16x128x1x1.BroadcastsInDim S16x128x64x128 (![0, 1, 2, 3] : Fin 4 → Fin S16x128x64x128.rank)
  bcast_S_S16x128x64x128 : S_.BroadcastsInDim S16x128x64x128 (![] : Fin 0 → Fin S16x128x64x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x1x1x128_3 : S128.BroadcastsInDim S1x1x1x128 (![3] : Fin 1 → Fin S1x1x1x128.rank)
  bcast_S1x1x1x128_S16x128x64x128_0_1_2_3 : S1x1x1x128.BroadcastsInDim S16x128x64x128 (![0, 1, 2, 3] : Fin 4 → Fin S16x128x64x128.rank)
  reducesTo_S16x128x64x128_S16x128x64_d3 : S16x128x64x128.ReducesTo [3] S16x128x64
  bcast_S16x128x64_S16x128x64x1_0_1_2 : S16x128x64.BroadcastsInDim S16x128x64x1 (![0, 1, 2] : Fin 3 → Fin S16x128x64x1.rank)
  bcast_S_S16x128x64x1 : S_.BroadcastsInDim S16x128x64x1 (![] : Fin 0 → Fin S16x128x64x1.rank)
  bcast_S16x128x64x1_S16x128x64x128_0_1_2_3 : S16x128x64x1.BroadcastsInDim S16x128x64x128 (![0, 1, 2, 3] : Fin 4 → Fin S16x128x64x128.rank)
  reducesTo_S16x128x64x128_S16x128x128_d2 : S16x128x64x128.ReducesTo [2] S16x128x128
  bcast_S16x128x128_S16x128x1x128_0_1_3 : S16x128x128.BroadcastsInDim S16x128x1x128 (![0, 1, 3] : Fin 3 → Fin S16x128x1x128.rank)
  bcast_S16x128x1x128_S16x128x64x128_0_1_2_3 : S16x128x1x128.BroadcastsInDim S16x128x64x128 (![0, 1, 2, 3] : Fin 4 → Fin S16x128x64x128.rank)
  concatenates_S16x128x64x128_S16x128x64x128_S16x128x64x256_d3 : Shape.Concatenates [S16x128x64x128, S16x128x64x128] S16x128x64x256 3
  slices_S3x256x128_S1x256x128_0_0_0 : S3x256x128.Slices ![0, 0, 0] S1x256x128
  shapeCasts_S1x256x128_S256x128 : S1x256x128.ShapeCasts S256x128
  slices_S3x128x128_S1x128x128_1_0_0 : S3x128x128.Slices ![1, 0, 0] S1x128x128
  slices_S3x128_S1x128_1_0 : S3x128.Slices ![1, 0] S1x128
  slices_S3x256x128_S1x256x128_1_0_0 : S3x256x128.Slices ![1, 0, 0] S1x256x128
  slices_S3x128x128_S1x128x128_2_0_0 : S3x128x128.Slices ![2, 0, 0] S1x128x128
  slices_S3x128_S1x128_2_0 : S3x128.Slices ![2, 0] S1x128
  slices_S3x256x128_S1x256x128_2_0_0 : S3x256x128.Slices ![2, 0, 0] S1x256x128
  bcast_S16x128x1_S16x128x128_0_1_2 : S16x128x1.BroadcastsInDim S16x128x128 (![0, 1, 2] : Fin 3 → Fin S16x128x128.rank)
  bcast_S_S16x128x128 : S_.BroadcastsInDim S16x128x128 (![] : Fin 0 → Fin S16x128x128.rank)
  dot_S16x128x64x128_S128x128_S16x128x64x128_3_0_012_1_n_n_wf : DotDims.WF S16x128x64x128 S128x128 S16x128x64x128 [3] [0] [0, 1, 2] [1] [] []
  dot_S16x128x64x256_S256x128_S16x128x64x128_3_0_012_1_n_n_wf : DotDims.WF S16x128x64x256 S256x128 S16x128x64x128 [3] [0] [0, 1, 2] [1] [] []

variable [Facts₀]

def dot_S16x128x64x128_S128x128_S16x128x64x128_3_0_012_1_n_n : DotDims S16x128x64x128 S128x128 S16x128x64x128 where
  lhsContracting := [3]
  rhsContracting := [0]
  lhsNonContracting := [0, 1, 2]
  rhsNonContracting := [1]
  lhsBatch := []
  rhsBatch := []
  wf := dot_S16x128x64x128_S128x128_S16x128x64x128_3_0_012_1_n_n_wf
def dot_S16x128x64x256_S256x128_S16x128x64x128_3_0_012_1_n_n : DotDims S16x128x64x256 S256x128 S16x128x64x128 where
  lhsContracting := [3]
  rhsContracting := [0]
  lhsNonContracting := [0, 1, 2]
  rhsNonContracting := [1]
  lhsBatch := []
  rhsBatch := []
  wf := dot_S16x128x64x256_S256x128_S16x128x64x128_3_0_012_1_n_n_wf

class Facts : Prop extends Facts₀ where

variable [Facts]
-- ==== Proof.KBlocks.lean ====
/-
  The pieces of one layer as the kernel computes them on a block of 64 polylines (arrays of shape 64 × 64 × 128):
  the first affine map through the matrix unit, the row normalisation, gain / offset / ramp, the masked maximum over
  the points joined to every row and the second affine map, and the final masked maximum. Each is the composition of
  the vector operations in the order the kernel applies them; the kernel's body is a composition of these pieces.
-/
import proofs.«143936_j68195490726566_2_alg».proof.Proof.Gen.KernelIdeal
import Idealize.ShloMosaic.Lib.ValueIdx

noncomputable section

open Idealize.ShloMosaic Idealize.SL.Sem

namespace Cert.KernelIdeal.KB

open Cert.KernelIdeal Cert.KernelIdeal.Gen

variable {F : FTy → Type} [FloatOps F]

/-- A vector of 128 entries laid along the last axis of a 64 × 64 × 128 array. -/
def row (g : FVec F S128 .f32) : FVec F S64x64x128 .f32 :=
  broadcastTo S64x64x128 (shapeCast S1x1x128 g shapeCasts_S128_S1x1x128) broadcasts_S1x1x128_S64x64x128

/-- The first affine map: the 4096 rows times the 128 × 128 matrix, plus the offset row. -/
def lin1 (h : FVec F S64x64x128 .f32) (W : FVec F S128x128 .bf16) (b : FVec F S128 .f32) : FVec F S64x64x128 .f32 :=
  addf (shapeCast S64x64x128 (matmul dot_S4096x128_S128x128_S4096x128_1_0_0_1_n_n none
      (truncf .bf16 (shapeCast S4096x128 h shapeCasts_S64x64x128_S4096x128) bitsLt_bf16_f32) W
      (constant S4096x128 .f32 0x00000000#32)) shapeCasts_S4096x128_S64x64x128) (row b)

/-- The row normalisation: subtract the row's mean, multiply by the inverse square root of its offset variance. -/
def nrm (y : FVec F S64x64x128 .f32) : FVec F S64x64x128 .f32 :=
  have s : FVec F S64x64 .f32 := multiReduction .add [2] S64x64 y 0x00000000#32 reduces_S64x64x128_S64x64 (.inl rfl) rfl
  have mu : FVec F S64x64x1 .f32 := divf (shapeCast S64x64x1 s shapeCasts_S64x64_S64x64x1) (broadcast S64x64x1 (Scalar.ofBits .f32 0x43000000#32))
  have c : FVec F S64x64x128 .f32 := subf y (broadcastTo S64x64x128 mu broadcasts_S64x64x1_S64x64x128)
  have q : FVec F S64x64 .f32 := multiReduction .add [2] S64x64 (mulf c c) 0x00000000#32 reduces_S64x64x128_S64x64 (.inl rfl) rfl
  have v : FVec F S64x64x1 .f32 := divf (shapeCast S64x64x1 q shapeCasts_S64x64_S64x64x1) (broadcast S64x64x1 (Scalar.ofBits .f32 0x43000000#32))
  have c' : FVec F S64x64x128 .f32 := subf y (broadcastTo S64x64x128 mu broadcasts_S64x64x1_S64x64x128)
  have r : FVec F S64x64x1 .f32 := rsqrt (addf v (broadcast S64x64x1 (Scalar.ofBits .f32 0x3727C5AC#32)))
  mulf c' (broadcastTo S64x64x128 r broadcasts_S64x64x1_S64x64x128)

/-- Gain (already laid along the rows), offset and ramp. -/
def actv (z gb : FVec F S64x64x128 .f32) (b : FVec F S128 .f32) : FVec F S64x64x128 .f32 :=
  maximumf (addf (mulf z gb) (row b)) (broadcast S64x64x128 (Scalar.ofBits .f32 0x00000000#32))

/-- The masked maximum over the points joined to every row, then the second affine map. -/
def lin2 (r : FVec F S64x64x128 .f32) (neg3 : FVec F S64x64x1 .f32) (W2 : FVec F S256x128 .bf16) (b2 : FVec F S128 .f32) :
    FVec F S64x64x128 .f32 :=
  have a : FVec F S64x128 .f32 := multiReduction .maximumf [1] S64x128
    (addf r (broadcastTo S64x64x128 neg3 broadcasts_S64x64x1_S64x64x128)) 0xFF800000#32 reduces_S64x64x128_S64x128 (.inl rfl) rfl
  have ab : FVec F S64x64x128 .f32 := broadcastTo S64x64x128
    (shapeCast S64x1x128 (shapeCast S64x1x128 a shapeCasts_S64x128_S64x1x128) shapeCasts_S64x1x128_S64x1x128) broadcasts_S64x1x128_S64x64x128
  have ct : FVec F S64x64x256 .f32 := concatenate S64x64x256 2 [⟨S64x64x128, r⟩, ⟨S64x64x128, ab⟩] concatenates_S64x64x128_S64x64x128_S64x64x256_d2
  addf (shapeCast S64x64x128 (matmul dot_S4096x256_S256x128_S4096x128_1_0_0_1_n_n none
      (truncf .bf16 (shapeCast S4096x256 ct shapeCasts_S64x64x256_S4096x256) bitsLt_bf16_f32) W2
      (constant S4096x128 .f32 0x00000000#32)) shapeCasts_S4096x128_S64x64x128) (row b2)

/-- The final masked maximum over the points, times the polyline's validity. -/
def fin (h : FVec F S64x64x128 .f32) (neg3 : FVec F S64x64x1 .f32) (pv : FVec F S64x1 .f32) : FVec F S64x128 .f32 :=
  mulf (multiReduction .maximumf [1] S64x128 (addf h (broadcastTo S64x64x128 neg3 broadcasts_S64x64x1_S64x64x128))
      0xFF800000#32 reduces_S64x64x128_S64x128 (.inl rfl) rfl) (broadcastTo S64x128 pv broadcasts_S64x1_S64x128)

end Cert.KernelIdeal.KB

end
-- ==== Proof.KCompose.lean ====
/-
  The value the kernel stores for one block of 64 polylines, as a composition of the layer pieces: the masked
  input, three layers (each: first affine map, row normalisation, gain / offset / ramp, masked maximum joined to
  the rows, second affine map), and the final masked maximum. Layer `l` reads slice `l` of each parameter array.
-/
import proofs.«143936_j68195490726566_2_alg».proof.Proof.KBlocks
import proofs.«143936_j68195490726566_2_alg».proof.Proof.Gen.KernelIdeal.Frame

set_option maxRecDepth 16384

noncomputable section

open Idealize.ShloMosaic Idealize.SL.Sem

namespace Cert.KernelIdeal.KB

open Cert.KernelIdeal Cert.KernelIdeal.Gen

variable {F : FTy → Type} [FloatOps F]

/-- One layer on a block. -/
def layer (neg3 : FVec F S64x64x1 .f32) (W1 : FVec F S128x128 .bf16) (b1 g bb : FVec F S128 .f32)
    (W2 : FVec F S256x128 .bf16) (b2 : FVec F S128 .f32) (h : FVec F S64x64x128 .f32) : FVec F S64x64x128 .f32 :=
  lin2 (actv (nrm (lin1 h W1 b1)) (row g) bb) neg3 W2 b2

/-- A 128 × 128 parameter matrix from its loaded slice. -/
def wmat1 (raw : Vec F S1x128x128 .f32) : FVec F S128x128 .bf16 :=
  truncf .bf16 (shapeCast S128x128 raw shapeCasts_S1x128x128_S128x128) bitsLt_bf16_f32
/-- A 256 × 128 parameter matrix from its loaded slice. -/
def wmat2 (raw : Vec F S1x256x128 .f32) : FVec F S256x128 .bf16 :=
  truncf .bf16 (shapeCast S256x128 raw shapeCasts_S1x256x128_S256x128) bitsLt_bf16_f32
/-- A parameter row from its loaded slice. -/
def wrow (raw : Vec F S1x128 .f32) : FVec F S128 .f32 := shapeCast S128 raw shapeCasts_S1x128_S128

/-- The block's result from the blocks of the eight operands. -/
def blockOut (x0 : Vec F S64x64x128 .f32) (x1 : Vec F S64x64 .i32) (x2 : Vec F S3x128x128 .f32) (x3 x4 x5 : Vec F S3x128 .f32)
    (x6 : Vec F S3x256x128 .f32) (x7 : Vec F S3x128 .f32) : FVec F S64x128 .f32 :=
  fin (layer (k0_pay3 (View.ld x1 r0_1)) (wmat1 (View.ld x2 r0_8)) (wrow (View.ld x3 r0_9)) (wrow (View.ld x4 r0_9)) (wrow (View.ld x5 r0_9)) (wmat2 (View.ld x6 r0_10)) (wrow (View.ld x7 r0_9))
        (layer (k0_pay3 (View.ld x1 r0_1)) (wmat1 (View.ld x2 r0_5)) (wrow (View.ld x3 r0_6)) (wrow (View.ld x4 r0_6)) (wrow (View.ld x5 r0_6)) (wmat2 (View.ld x6 r0_7)) (wrow (View.ld x7 r0_6))
          (layer (k0_pay3 (View.ld x1 r0_1)) (wmat1 (View.ld x2 r0_2)) (wrow (View.ld x3 r0_3)) (wrow (View.ld x4 r0_3)) (wrow (View.ld x5 r0_3)) (wmat2 (View.ld x6 r0_4)) (wrow (View.ld x7 r0_3))
            (k0_pay4 (View.ld x0 r0_0) (View.ld x1 r0_1)))))
    (k0_pay3 (View.ld x1 r0_1)) (k0_pay2 (View.ld x1 r0_1))

/-- The buffer the body leaves is the one store of that value. -/
theorem out0_8_eq (x0 : Vec F S64x64x128 .f32) (x1 : Vec F S64x64 .i32) (x2 : Vec F S3x128x128 .f32) (x3 x4 x5 : Vec F S3x128 .f32)
    (x6 : Vec F S3x256x128 .f32) (x7 : Vec F S3x128 .f32) :
    out0_8 x0 x1 x2 x3 x4 x5 x6 x7 = View.canon [⟨r0_11, blockOut x0 x1 x2 x3 x4 x5 x6 x7⟩] := rfl

end Cert.KernelIdeal.KB

end
-- ==== Proof.KWeights.lean ====
/-
  The parameter slices a layer reads. Layer `l` loads slice `l` of each parameter array (a rectangle of extent one on
  the layer axis starting at `l`) and drops the unit axis: entry `(k, e)` of the matrix is entry `(l, k, e)` of the
  array, entry `e` of a row is entry `(l, e)`. A change of float format is the identity on extended reals.
-/
import proofs.«143936_j68195490726566_2_alg».proof.Proof.KCompose
import Idealize.ShloMosaic.Lib.ValueIdx
import Idealize.ShloMosaic.Lib.ValueLayout
import Idealize.ShloMosaic.Lib.Pipeline.Value

set_option maxRecDepth 16384

noncomputable section

open Idealize.ShloMosaic Idealize.SL.Sem Idealize.ShloMosaic.ValueIdx

namespace Cert.KernelIdeal.KB

open Cert.KernelIdeal Cert.KernelIdeal.Gen

/-- A 128 × 128 matrix loaded from layer `l` of a 3 × 128 × 128 array. -/
theorem wmat1_apply (X : Vec Ideal S3x128x128 .f32) (off : Fin 3 → Nat)
    (inb : ∀ a, off a + S1x128x128.size a ≤ S3x128x128.size a) (l : Fin 3) (k e : Fin 128)
    (h0 : off 0 = l.val) (h1 : off 1 = 0) (h2 : off 2 = 0) :
    wmat1 (F := Ideal) (View.ld X (Rect.unit (s := S3x128x128) off S1x128x128.size inb)) (ix2 k e) = X (ix3 l k e) := by
  unfold wmat1
  show shapeCast S128x128 (View.ld X (Rect.unit (s := S3x128x128) off S1x128x128.size inb)) shapeCasts_S1x128x128_S128x128 (ix2 k e) = _
  rw [shapeCast_1ab_ab_apply]
  show X _ = X _
  congr 1; funext a; apply Fin.ext
  match a with
  | ⟨0, _⟩ => show off 0 + 1 * 0 = l.val; omega
  | ⟨1, _⟩ => show off 1 + 1 * k.val = k.val; omega
  | ⟨2, _⟩ => show off 2 + 1 * e.val = e.val; omega

/-- A 256 × 128 matrix loaded from layer `l` of a 3 × 256 × 128 array. -/
theorem wmat2_apply (X : Vec Ideal S3x256x128 .f32) (off : Fin 3 → Nat)
    (inb : ∀ a, off a + S1x256x128.size a ≤ S3x256x128.size a) (l : Fin 3) (k : Fin 256) (e : Fin 128)
    (h0 : off 0 = l.val) (h1 : off 1 = 0) (h2 : off 2 = 0) :
    wmat2 (F := Ideal) (View.ld X (Rect.unit (s := S3x256x128) off S1x256x128.size inb)) (ix2 k e) = X (ix3 l k e) := by
  unfold wmat2
  show shapeCast S256x128 (View.ld X (Rect.unit (s := S3x256x128) off S1x256x128.size inb)) shapeCasts_S1x256x128_S256x128 (ix2 k e) = _
  rw [shapeCast_1ab_ab_apply]
  show X _ = X _
  congr 1; funext a; apply Fin.ext
  match a with
  | ⟨0, _⟩ => show off 0 + 1 * 0 = l.val; omega
  | ⟨1, _⟩ => show off 1 + 1 * k.val = k.val; omega
  | ⟨2, _⟩ => show off 2 + 1 * e.val = e.val; omega

/-- A row of 128 loaded from layer `l` of a 3 × 128 array. -/
theorem wrow_apply (X : Vec Ideal S3x128 .f32) (off : Fin 2 → Nat)
    (inb : ∀ a, off a + S1x128.size a ≤ S3x128.size a) (l : Fin 3) (e : Fin 128)
    (h0 : off 0 = l.val) (h1 : off 1 = 0) :
    wrow (F := Ideal) (View.ld X (Rect.unit (s := S3x128) off S1x128.size inb)) (ix1 e) = X (ix2 l e) := by
  unfold wrow
  rw [shapeCast_1a_a_apply]
  show X _ = X _
  congr 1; funext a; apply Fin.ext
  match a with
  | ⟨0, _⟩ => show off 0 + 1 * 0 = l.val; omega
  | ⟨1, _⟩ => show off 1 + 1 * e.val = e.val; omega

end Cert.KernelIdeal.KB

end
-- ==== Proof.Net.lean ====
/-
  The network both programs compute, for ONE polyline: 64 points with 128 features each, some points marked
  valid. A layer maps every point's feature row through an affine map, normalises the row (mean and variance over
  its 128 entries), applies an affine gain and a ramp, appends to every point the maximum over the polyline's
  points that are not masked out, and maps the 256-entry row through a second affine map. After three layers the
  result is the masked maximum over the points, and it is zero when the polyline has no valid point.
  Everything is over the extended reals, so a masked point carries the additive mask `⊥`: `x + ⊥ = ⊥` for every
  extended real `x`, and `max` ignores it.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.Net

/-- The row length 128, as the single-precision word both programs divide by. -/
abbrev c128 : EReal := Ideal.ofBits .f32 0x43000000#32
/-- The variance offset, as the single-precision word both programs add. -/
abbrev eps : EReal := Ideal.ofBits .f32 0x3727C5AC#32

/-- The word of minus infinity is the bottom of the extended reals. -/
theorem ofBits_neg_inf : Ideal.ofBits .f32 0xFF800000#32 = (⊥ : EReal) := by
  simp [Ideal.ofBits, Ideal.ieee]

/-- An affine map of a row of `K` entries: `x · W + b`. -/
def lin {K : Nat} (W : Fin K → Fin 128 → EReal) (b : Fin 128 → EReal) (x : Fin K → EReal) : Fin 128 → EReal :=
  fun e => (∑ k : Fin K, x k * W k e) + b e

/-- The mean of a row. -/
def mean (y : Fin 128 → EReal) : EReal := Ideal.div (∑ k : Fin 128, y k) c128
/-- The row with its mean subtracted. -/
def cen (y : Fin 128 → EReal) : Fin 128 → EReal := fun e => y e - mean y
/-- The variance of a row. -/
def var (y : Fin 128 → EReal) : EReal := Ideal.div (∑ k : Fin 128, cen y k * cen y k) c128
/-- The normalised row: centred, times the inverse square root of the offset variance. -/
def norm (y : Fin 128 → EReal) : Fin 128 → EReal := fun e => cen y e * Ideal.rsqrt (var y + eps)
/-- Gain, offset and ramp. -/
def act (g b z : Fin 128 → EReal) : Fin 128 → EReal := fun e => max (z e * g e + b e) 0
/-- The maximum over the 64 points of the rows plus the additive mask. -/
def pool (neg : Fin 64 → EReal) (r : Fin 64 → Fin 128 → EReal) : Fin 128 → EReal :=
  fun e => (Finset.univ : Finset (Fin 64)).fold max ⊥ (fun p => r p e + neg p)
/-- Two rows of 128 joined into one of 256. -/
def cat (r a : Fin 128 → EReal) : Fin 256 → EReal :=
  fun k => if h : k.val < 128 then r ⟨k.val, h⟩ else a ⟨k.val - 128, by omega⟩
/-- The first half of a layer on every point: affine map, normalisation, gain and ramp. -/
def hidden (W1 : Fin 128 → Fin 128 → EReal) (b1 g bb : Fin 128 → EReal) (h : Fin 64 → Fin 128 → EReal) :
    Fin 64 → Fin 128 → EReal := fun p => act g bb (norm (lin W1 b1 (h p)))
/-- One layer. -/
def layer (neg : Fin 64 → EReal) (W1 : Fin 128 → Fin 128 → EReal) (b1 g bb : Fin 128 → EReal)
    (W2 : Fin 256 → Fin 128 → EReal) (b2 : Fin 128 → EReal) (h : Fin 64 → Fin 128 → EReal) :
    Fin 64 → Fin 128 → EReal :=
  fun p => lin W2 b2 (cat (hidden W1 b1 g bb h p) (pool neg (hidden W1 b1 g bb h)))

open Classical in
/-- One when the polyline has a valid point, zero otherwise. -/
def pv (valid : Fin 64 → Prop) : EReal := if ∃ p, valid p then 1 else 0
open Classical in
/-- The additive mask: `⊥` at an invalid point of a polyline that has a valid point, zero elsewhere. -/
def neg (valid : Fin 64 → Prop) : Fin 64 → EReal := fun p => if ¬ valid p ∧ ∃ q, valid q then ⊥ else 0

/-- The whole network on one polyline, the six parameter arrays indexed by layer first. -/
def net (valid : Fin 64 → Prop) (W1 : Fin 3 → Fin 128 → Fin 128 → EReal) (b1 g bb : Fin 3 → Fin 128 → EReal)
    (W2 : Fin 3 → Fin 256 → Fin 128 → EReal) (b2 : Fin 3 → Fin 128 → EReal) (x : Fin 64 → Fin 128 → EReal) :
    Fin 128 → EReal :=
  let L := fun (l : Fin 3) => layer (neg valid) (W1 l) (b1 l) (g l) (bb l) (W2 l) (b2 l)
  fun e => pool (neg valid) (L 2 (L 1 (L 0 (fun p d => x p d * pv valid)))) e * pv valid

/-- The result array: entry `(b, n, e)` is the network on polyline `(b, n)`, a point being valid when its mask bit is set. -/
def G (x0 : (⟨4, ![16, 128, 64, 128]⟩ : Shape).Idx → EReal) (x1 : (⟨3, ![16, 128, 64]⟩ : Shape).Idx → BitVec 1)
    (x2 : (⟨3, ![3, 128, 128]⟩ : Shape).Idx → EReal) (x3 x4 x5 : (⟨2, ![3, 128]⟩ : Shape).Idx → EReal)
    (x6 : (⟨3, ![3, 256, 128]⟩ : Shape).Idx → EReal) (x7 : (⟨2, ![3, 128]⟩ : Shape).Idx → EReal) :
    (⟨3, ![16, 128, 128]⟩ : Shape).Idx → EReal :=
  fun j => net (fun p => x1 (ix3 (j 0) (j 1) p) = 1#1) (fun l k e => x2 (ix3 l k e)) (fun l e => x3 (ix2 l e))
    (fun l e => x4 (ix2 l e)) (fun l e => x5 (ix2 l e)) (fun l k e => x6 (ix3 l k e)) (fun l e => x7 (ix2 l e))
    (fun p d => x0 (ix4 (j 0) (j 1) p d)) (j 2)

end Cert.Net

end
-- ==== Proof.KMask.lean ====
/-
  The mask of one block. A point is valid when its mask word is positive. The kernel turns the comparison bit into
  the float 0 or 1, takes the maximum over a polyline's 64 points (1 when the polyline has a valid point, 0 when
  it has none: the maximum of zeros and ones over a non-empty range, starting from `⊥`), and marks with `⊥` the
  points where (1 - valid) · (has a valid point) is positive, that is the invalid points of a polyline that has a
  valid point; the input rows are multiplied by the polyline's indicator.
-/
import proofs.«143936_j68195490726566_2_alg».proof.Proof.Gen.KernelIdeal.Skeleton
import proofs.«143936_j68195490726566_2_alg».proof.Proof.Net
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.SL.Sem Idealize.ShloMosaic.ValueIdx

namespace Cert.KernelIdeal.KB

open Cert.KernelIdeal Cert.KernelIdeal.Gen

/-- A comparison bit widened to a word and read as a signed integer is 1 or 0. -/
theorem bit_toInt : ∀ β : BitVec 1, (β.setWidth 32).toInt = if β = 1#1 then 1 else 0 := by decide

/-- The float of a comparison bit. -/
def bitf (β : BitVec 1) : EReal := (((β.setWidth 32).toInt : ℝ) : EReal)

theorem bitf_eq (β : BitVec 1) : bitf β = if β = 1#1 then 1 else 0 := by
  unfold bitf
  rw [bit_toInt]
  split_ifs <;> simp

/-- The maximum, from `⊥`, of 64 values that are 1 where `P` holds and 0 elsewhere: 1 if `P` holds somewhere, else 0. -/
theorem fold_max_indicator (g : Fin 64 → EReal) (P : Fin 64 → Prop) (hg : ∀ p, g p = 1 ∧ P p ∨ g p = 0 ∧ ¬ P p) :
    (Finset.univ : Finset (Fin 64)).fold max ⊥ g = Cert.Net.pv P := by
  unfold Cert.Net.pv
  apply le_antisymm
  · rw [Finset.fold_max_le]
    refine ⟨bot_le, fun x _ => ?_⟩
    rcases hg x with ⟨h1, hP⟩ | ⟨h0, _⟩
    · rw [h1, if_pos ⟨x, hP⟩]
    · rw [h0]; split_ifs <;> simp
  · rw [Finset.le_fold_max]
    right
    by_cases h : ∃ p, P p
    · obtain ⟨p, hp⟩ := h
      refine ⟨p, Finset.mem_univ _, ?_⟩
      rw [if_pos ⟨p, hp⟩]
      rcases hg p with ⟨h1, _⟩ | ⟨_, hn⟩
      · rw [h1]
      · exact absurd hp hn
    · refine ⟨0, Finset.mem_univ _, ?_⟩
      rw [if_neg h]
      rcases hg 0 with ⟨_, hP⟩ | ⟨h0, _⟩
      · exact absurd ⟨0, hP⟩ h
      · rw [h0]

/-- The word of one. -/
theorem ofBits_one : Ideal.ofBits .f32 0x3F800000#32 = (1 : EReal) := by
  simp [Ideal.ofBits, Ideal.ieee]
  rw [← EReal.coe_mul]
  norm_num

/-- The comparison float of a block entry. -/
theorem pay1_apply (v2 : Vec Ideal S64x64 .i32) (i p : Fin 64) :
    k0_pay1 (F := Ideal) v2 (ix2 i p) = bitf (IntOp.cmpi .sgt (v2 (ix2 i p)) 0#32) := by
  unfold k0_pay1
  rw [shapeCast_self]
  rfl

/-- The float of a comparison bit is 1 with the bit set, or 0 with it clear. -/
theorem bitf_cases (β : BitVec 1) : bitf β = 1 ∧ β = 1#1 ∨ bitf β = 0 ∧ ¬ β = 1#1 := by
  rw [bitf_eq]
  by_cases h : β = 1#1
  · exact Or.inl ⟨if_pos h, h⟩
  · exact Or.inr ⟨if_neg h, h⟩

/-- The polyline's indicator: the maximum over its points of the comparison floats. -/
theorem pay2_apply (v2 : Vec Ideal S64x64 .i32) (i : Fin 64) :
    k0_pay2 (F := Ideal) v2 (ix2 i (0 : Fin 1)) = Cert.Net.pv (fun p => IntOp.cmpi .sgt (v2 (ix2 i p)) 0#32 = 1#1) := by
  unfold k0_pay2
  refine (shapeCast_apply _ shapeCasts_S64_S64x1 (ix2 i (0 : Fin 1)) (ix1 i) (by
    rw [Shape.rowMajor_val_one, Shape.rowMajor_val_two]; show i.val = i.val * 1 + 0; omega)).trans ?_
  refine (Ideal.multiReduction_maximumf_single _ _ _ _ _ _).trans ?_
  rw [Ideal.ofBits_def, Cert.Net.ofBits_neg_inf]
  refine fold_max_indicator _ _ (fun p => ?_)
  have hl : reduces_S64x64_S64.lift (ix1 i) p = ix2 i p := funext fun a => Fin.ext (by
    match a with
    | ⟨0, _⟩ => rfl
    | ⟨1, _⟩ => rfl)
  show (k0_pay1 (F := Ideal) v2 (reduces_S64x64_S64.lift (ix1 i) p) = 1 ∧ _) ∨ (k0_pay1 (F := Ideal) v2 (reduces_S64x64_S64.lift (ix1 i) p) = 0 ∧ _)
  rw [hl, pay1_apply]
  exact bitf_cases _

/-- The indicator column laid along a polyline's 64 points. -/
theorem pvB_apply (v2 : Vec Ideal S64x64 .i32) (i p : Fin 64) :
    broadcastTo S64x64 (k0_pay2 (F := Ideal) v2) broadcasts_S64x1_S64x64 (ix2 i p) = k0_pay2 (F := Ideal) v2 (ix2 i (0 : Fin 1)) :=
  broadcastTo_apply _ _ _ _ (fun a => by
    match a with
    | ⟨0, _⟩ => rfl
    | ⟨1, _⟩ => rfl)

/-- The additive mask: `⊥` at an invalid point of a polyline that has a valid point, zero elsewhere. -/
theorem pay3_apply (v2 : Vec Ideal S64x64 .i32) (i p : Fin 64) :
    k0_pay3 (F := Ideal) v2 (ix3 i p (0 : Fin 1)) = Cert.Net.neg (fun q => IntOp.cmpi .sgt (v2 (ix2 i q)) 0#32 = 1#1) p := by
  unfold k0_pay3
  refine (shapeCast_apply _ shapeCasts_S64x64_S64x64x1 (ix3 i p (0 : Fin 1)) (ix2 i p) (by
    rw [Shape.rowMajor_val_two, Shape.rowMajor_val_three]; show i.val * 64 + p.val = (i.val * 64 + p.val) * 1 + 0; omega)).trans ?_
  simp only [select_apply, cmpf_apply, mulf_apply, subf_apply, broadcast_apply]
  rw [pvB_apply, pay2_apply, pay1_apply]
  simp only [Ideal.ofBits_def, ofBits_one, Ideal.ofBits_zero_f32, Cert.Net.ofBits_neg_inf, Ideal.cmpf_def]
  have c00 : Ideal.cmp .ogt (0 : EReal) 0 = 0#1 := by simp [Ideal.cmp]
  have c10 : Ideal.cmp .ogt (1 : EReal) 0 = 1#1 := by simp [Ideal.cmp]
  have s11 : (1 : EReal) - 1 = 0 := by
    show ((1 : ℝ) : EReal) - ((1 : ℝ) : EReal) = 0
    rw [← EReal.coe_sub]; simp
  unfold Cert.Net.neg
  rcases bitf_cases (IntOp.cmpi .sgt (v2 (ix2 i p)) 0#32) with ⟨h1, hv⟩ | ⟨h0, hv⟩
  · rw [h1, s11, zero_mul, c00, select_zero, if_neg (fun h => h.1 hv)]
  · rw [h0, sub_zero, one_mul]
    unfold Cert.Net.pv
    by_cases he : ∃ q, IntOp.cmpi .sgt (v2 (ix2 i q)) 0#32 = 1#1
    · rw [if_pos he, c10, select_one, if_pos ⟨hv, he⟩]
    · rw [if_neg he, c00, select_zero, if_neg (fun h => he h.2)]

/-- The masked input: every row of a polyline times the polyline's indicator. -/
theorem pay4_apply (v0 : Vec Ideal S64x64x128 .f32) (v2 : Vec Ideal S64x64 .i32) (i p : Fin 64) (d : Fin 128) :
    k0_pay4 (F := Ideal) v0 v2 (ix3 i p d) = v0 (ix3 i p d) * Cert.Net.pv (fun q => IntOp.cmpi .sgt (v2 (ix2 i q)) 0#32 = 1#1) := by
  unfold k0_pay4
  rw [shapeCast_self]
  have hb : broadcastTo S64x64x128 (shapeCast S64x1x1 (k0_pay2 (F := Ideal) v2) shapeCasts_S64x1_S64x1x1) broadcasts_S64x1x1_S64x64x128 (ix3 i p d)
      = k0_pay2 (F := Ideal) v2 (ix2 i (0 : Fin 1)) :=
    (broadcastTo_apply _ _ _ (ix3 i (0 : Fin 1) (0 : Fin 1)) (fun a => by
      match a with
      | ⟨0, _⟩ => rfl
      | ⟨1, _⟩ => rfl
      | ⟨2, _⟩ => rfl)).trans
    (shapeCast_apply _ shapeCasts_S64x1_S64x1x1 (ix3 i (0 : Fin 1) (0 : Fin 1)) (ix2 i (0 : Fin 1)) (by
      rw [Shape.rowMajor_val_two, Shape.rowMajor_val_three]; show i.val * 1 + 0 = (i.val * 1 + 0) * 1 + 0; omega))
  show v0 (ix3 i p d) * broadcastTo S64x64x128 (shapeCast S64x1x1 (k0_pay2 (F := Ideal) v2) shapeCasts_S64x1_S64x1x1) broadcasts_S64x1x1_S64x64x128 (ix3 i p d) = _
  rw [hb, pay2_apply]

end Cert.KernelIdeal.KB

end
-- ==== Proof.KLemmasA.lean ====
/-
  The layout operations, the two reductions and the two matrix products of one layer, each read at explicit
  coordinates of the literal shapes: row (i, p) of a 64 × 64 × 128 array is row 64·i + p of the 4096 × 128 one,
  a unit axis reads coordinate 0, a sum over the last axis is the sum over its 128 coordinates, a maximum over the
  middle axis is the fold of max over its 64 coordinates, and a product with a matrix is the sum over the
  contracted coordinate.
-/
import proofs.«143936_j68195490726566_2_alg».proof.Proof.Gen.KernelIdeal
import Idealize.ShloMosaic.Lib.ValueIdx
import Idealize.ShloMosaic.Lib.Pipeline.Value
import Idealize.ShloMosaic.Lib.ValueLayout
import Idealize.ShloMosaic.PureOps.Ideal.Laws
import proofs.«143936_j68195490726566_2_alg».proof.Proof.Net

noncomputable section

open Idealize.ShloMosaic Idealize.SL.Sem Idealize.ShloMosaic.ValueIdx

namespace Cert.KernelIdeal.KB

open Cert.KernelIdeal Cert.KernelIdeal.Gen

variable {α : Type}

/-! ## Shape casts and broadcasts -/

/-- A vector of 128 entries cast to 1 × 1 × 128 reads the vector. -/
theorem cast_128_1x1x128 (g : S128.Idx → α) (u v : Fin 1) (e : Fin 128) :
    shapeCast S1x1x128 g shapeCasts_S128_S1x1x128 (ix3 u v e) = g (ix1 e) :=
  shapeCast_apply g _ _ _ (by
    rw [Shape.rowMajor_val_one, Shape.rowMajor_val_three]
    show e.val = (u.val * 1 + v.val) * 128 + e.val
    omega)

/-- A 1 × 1 × 128 array broadcast over 64 × 64 rows reads its one row. -/
theorem bcast_1x1x128 (x : S1x1x128.Idx → α) (i p : Fin 64) (e : Fin 128) :
    broadcastTo S64x64x128 x broadcasts_S1x1x128_S64x64x128 (ix3 i p e) = x (ix3 (0 : Fin 1) (0 : Fin 1) e) :=
  broadcastTo_apply x _ (ix3 i p e) (ix3 (0 : Fin 1) (0 : Fin 1) e) fun a => by
    match a with
    | ⟨0, _⟩ => rfl
    | ⟨1, _⟩ => rfl
    | ⟨2, _⟩ => rfl

/-- Row (i, p) of a 64 × 64 array of rows is row 64·i + p of the 4096 rows. -/
def rowIx (i p : Fin 64) : Fin 4096 := ⟨64 * i.val + p.val, by omega⟩

/-- A 64 × 64 × 128 array cast to 4096 × 128, at row 64·i + p, reads row (i, p). -/
theorem cast_64x64x128_4096x128 (h : S64x64x128.Idx → α) (i p : Fin 64) (k : Fin 128) :
    shapeCast S4096x128 h shapeCasts_S64x64x128_S4096x128 (ix2 (rowIx i p) k) = h (ix3 i p k) :=
  shapeCast_apply h _ _ _ (by
    rw [Shape.rowMajor_val_three, Shape.rowMajor_val_two]
    show (i.val * 64 + p.val) * 128 + k.val = (64 * i.val + p.val) * 128 + k.val
    omega)

/-- A 4096 × 128 array cast to 64 × 64 × 128, at row (i, p), reads row 64·i + p. -/
theorem cast_4096x128_64x64x128 (m : S4096x128.Idx → α) (i p : Fin 64) (e : Fin 128) :
    shapeCast S64x64x128 m shapeCasts_S4096x128_S64x64x128 (ix3 i p e) = m (ix2 (rowIx i p) e) :=
  shapeCast_apply m _ _ _ (by
    rw [Shape.rowMajor_val_three, Shape.rowMajor_val_two]
    show (64 * i.val + p.val) * 128 + e.val = (i.val * 64 + p.val) * 128 + e.val
    omega)

/-- A 64 × 64 × 256 array cast to 4096 × 256, at row 64·i + p, reads row (i, p). -/
theorem cast_64x64x256_4096x256 (h : S64x64x256.Idx → α) (i p : Fin 64) (k : Fin 256) :
    shapeCast S4096x256 h shapeCasts_S64x64x256_S4096x256 (ix2 (rowIx i p) k) = h (ix3 i p k) :=
  shapeCast_apply h _ _ _ (by
    rw [Shape.rowMajor_val_three, Shape.rowMajor_val_two]
    show (i.val * 64 + p.val) * 256 + k.val = (64 * i.val + p.val) * 256 + k.val
    omega)

/-- A 64 × 64 array given a trailing unit axis reads the array. -/
theorem cast_64x64_64x64x1 (s : S64x64.Idx → α) (i p : Fin 64) (u : Fin 1) :
    shapeCast S64x64x1 s shapeCasts_S64x64_S64x64x1 (ix3 i p u) = s (ix2 i p) :=
  shapeCast_apply s _ _ _ (by
    rw [Shape.rowMajor_val_two, Shape.rowMajor_val_three]
    show i.val * 64 + p.val = (i.val * 64 + p.val) * 1 + u.val
    omega)

/-- A 64 × 64 × 1 array broadcast along the last axis reads its one entry of the row. -/
theorem bcast_64x64x1 (m : S64x64x1.Idx → α) (i p : Fin 64) (e : Fin 128) :
    broadcastTo S64x64x128 m broadcasts_S64x64x1_S64x64x128 (ix3 i p e) = m (ix3 i p (0 : Fin 1)) :=
  broadcastTo_apply m _ (ix3 i p e) (ix3 i p (0 : Fin 1)) fun a => by
    match a with
    | ⟨0, _⟩ => rfl
    | ⟨1, _⟩ => rfl
    | ⟨2, _⟩ => rfl

/-- A 64 × 128 array given a middle unit axis reads the array. -/
theorem cast_64x128_64x1x128 (a : S64x128.Idx → α) (i : Fin 64) (u : Fin 1) (e : Fin 128) :
    shapeCast S64x1x128 a shapeCasts_S64x128_S64x1x128 (ix3 i u e) = a (ix2 i e) :=
  shapeCast_apply a _ _ _ (by
    rw [Shape.rowMajor_val_two, Shape.rowMajor_val_three]
    show i.val * 128 + e.val = (i.val * 1 + u.val) * 128 + e.val
    omega)

/-- A 64 × 1 × 128 array broadcast along the middle axis reads its one row of the block. -/
theorem bcast_64x1x128 (x : S64x1x128.Idx → α) (i p : Fin 64) (e : Fin 128) :
    broadcastTo S64x64x128 x broadcasts_S64x1x128_S64x64x128 (ix3 i p e) = x (ix3 i (0 : Fin 1) e) :=
  broadcastTo_apply x _ (ix3 i p e) (ix3 i (0 : Fin 1) e) fun a => by
    match a with
    | ⟨0, _⟩ => rfl
    | ⟨1, _⟩ => rfl
    | ⟨2, _⟩ => rfl

/-- A 64 × 1 array broadcast along the last axis reads its one entry of the row. -/
theorem bcast_64x1 (x : S64x1.Idx → α) (i : Fin 64) (e : Fin 128) :
    broadcastTo S64x128 x broadcasts_S64x1_S64x128 (ix2 i e) = x (ix2 i (0 : Fin 1)) :=
  broadcastTo_apply x _ (ix2 i e) (ix2 i (0 : Fin 1)) fun a => by
    match a with
    | ⟨0, _⟩ => rfl
    | ⟨1, _⟩ => rfl

/-- A 64 × 1 × 128 array cast to its own shape is itself. -/
theorem cast_64x1x128_self (x : S64x1x128.Idx → α) :
    shapeCast S64x1x128 x shapeCasts_S64x1x128_S64x1x128 = x := shapeCast_self x _

/-! ## Two arrays joined along the last axis -/

/-- Two 64 × 64 × 128 arrays joined along the last axis: coordinate k < 128 reads the first, otherwise the second at k − 128. -/
theorem concat_apply (r ab : S64x64x128.Idx → α) (i p : Fin 64) (k : Fin 256) :
    concatenate S64x64x256 2 [⟨S64x64x128, r⟩, ⟨S64x64x128, ab⟩] concatenates_S64x64x128_S64x64x128_S64x64x256_d2 (ix3 i p k)
      = if h : k.val < 128 then r (ix3 i p ⟨k.val, h⟩) else ab (ix3 i p ⟨k.val - 128, by omega⟩) := by
  by_cases h : k.val < 128
  · rw [dif_pos h]
    exact concatenate_pair_apply_left _ r ab _ (ix3 i p k) rfl (ix3 i p ⟨k.val, h⟩) fun b => by
      match b with
      | ⟨0, _⟩ => rfl
      | ⟨1, _⟩ => rfl
      | ⟨2, _⟩ => rfl
  · rw [dif_neg h]
    exact concatenate_pair_apply_right _ r ab _ (ix3 i p k) rfl rfl (ix3 i p ⟨k.val - 128, by omega⟩)
      (fun b hb => by
        match b with
        | ⟨0, _⟩ => rfl
        | ⟨1, _⟩ => rfl
        | ⟨2, _⟩ => exact absurd rfl hb)
      (by show (k.val - 128) + 128 = k.val; omega)

/-! ## The two reductions at the extended reals -/

/-- The sum over the last axis, at row (i, p), is the sum of the row's 128 entries. -/
theorem sum_lanes (y : FVec Ideal S64x64x128 .f32) (i p : Fin 64) :
    multiReduction (F := Ideal) .add [2] S64x64 y 0x00000000#32 reduces_S64x64x128_S64x64 (.inl rfl) rfl (ix2 i p)
      = ∑ k : Fin 128, y (ix3 i p k) :=
  (Ideal.multiReduction_add_single y _ reduces_S64x64x128_S64x64 _ _ (ix2 i p)).trans
    (Finset.sum_congr rfl fun k _ => congrArg y (funext fun c => Fin.ext (by
      match c with
      | ⟨0, _⟩ => rfl
      | ⟨1, _⟩ => rfl
      | ⟨2, _⟩ => rfl)))

/-- The maximum over the middle axis from minus infinity, at (i, e), is the fold of max from ⊥ over the 64 points. -/
theorem max_points (x : FVec Ideal S64x64x128 .f32) (i : Fin 64) (e : Fin 128) :
    multiReduction (F := Ideal) .maximumf [1] S64x128 x 0xFF800000#32 reduces_S64x64x128_S64x128 (.inl rfl) rfl (ix2 i e)
      = (Finset.univ : Finset (Fin 64)).fold max ⊥ (fun q => x (ix3 i q e)) := by
  refine (Ideal.multiReduction_maximumf_single x _ reduces_S64x64x128_S64x128 _ _ (ix2 i e)).trans ?_
  have h0 : FloatOps.ofBits (F := Ideal) .f32 0xFF800000#32 = (⊥ : EReal) := Cert.Net.ofBits_neg_inf
  have hf : (x ∘ reduces_S64x64x128_S64x128.lift (ix2 i e)) = fun q : Fin 64 => x (ix3 i q e) :=
    funext fun q => congrArg x (funext fun c => Fin.ext (by
      match c with
      | ⟨0, _⟩ => rfl
      | ⟨1, _⟩ => rfl
      | ⟨2, _⟩ => rfl))
  rw [h0, hf]
  rfl

/-! ## The two products with a matrix, from zero -/

theorem matmul128_apply_lhs0 (j : S4096x128.Idx) (q : dot_S4096x128_S128x128_S4096x128_1_0_0_1_n_n.contr.Idx) : (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide),
    dif_pos (show (0 : Fin S4096x128.rank) ∈ dot_S4096x128_S128x128_S4096x128_1_0_0_1_n_n.lhsNonContracting by decide)]
  rfl
theorem matmul128_apply_rhs1 (j : S4096x128.Idx) (q : dot_S4096x128_S128x128_S4096x128_1_0_0_1_n_n.contr.Idx) : (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide),
    dif_pos (show (1 : Fin S128x128.rank) ∈ dot_S4096x128_S128x128_S4096x128_1_0_0_1_n_n.rhsNonContracting by decide)]
  rfl

/-- The 4096 rows of 128 entries times a 128 × 128 matrix, from the zero array: entry (r, e) is the sum over the contracted coordinate. -/
theorem matmul128_apply (A : FVec Ideal S4096x128 .bf16) (W : FVec Ideal S128x128 .bf16) (r : Fin 4096) (e : Fin 128) :
    matmul dot_S4096x128_S128x128_S4096x128_1_0_0_1_n_n none A W (constant (F := Ideal) S4096x128 .f32 0x00000000#32) (ix2 r e)
      = ∑ k : Fin 128, A (ix2 r k) * W (ix2 k e) := by
  simp only [matmul]
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r e) ((ValueIdx.contrEquiv1 dot_S4096x128_S128x128_S4096x128_1_0_0_1_n_n 128 rfl rfl).symm k) = ix2 r k :=
    funext fun a => Fin.ext (by
      match a with
      | ⟨0, _⟩ => exact matmul128_apply_lhs0 _ _
      | ⟨1, _⟩ => exact (dot_S4096x128_S128x128_S4096x128_1_0_0_1_n_n.lhsIdx_val_of_single rfl _ _).trans hk)
  have er : dot_S4096x128_S128x128_S4096x128_1_0_0_1_n_n.rhsIdx (ix2 r e) ((ValueIdx.contrEquiv1 dot_S4096x128_S128x128_S4096x128_1_0_0_1_n_n 128 rfl rfl).symm k) = ix2 k e :=
    funext fun a => Fin.ext (by
      match a with
      | ⟨0, _⟩ => exact (dot_S4096x128_S128x128_S4096x128_1_0_0_1_n_n.rhsIdx_val_of_single rfl _ _).trans hk
      | ⟨1, _⟩ => exact matmul128_apply_rhs1 _ _)
  rw [el, er]

theorem matmul256_apply_lhs0 (j : S4096x128.Idx) (q : dot_S4096x256_S256x128_S4096x128_1_0_0_1_n_n.contr.Idx) : (dot_S4096x256_S256x128_S4096x128_1_0_0_1_n_n.lhsIdx j q 0).val = (j 0).val := by
  unfold DotDims.lhsIdx
  rw [dif_neg (show ¬(0 : Fin S4096x256.rank) ∈ dot_S4096x256_S256x128_S4096x128_1_0_0_1_n_n.lhsBatch by decide),
    dif_pos (show (0 : Fin S4096x256.rank) ∈ dot_S4096x256_S256x128_S4096x128_1_0_0_1_n_n.lhsNonContracting by decide)]
  rfl
theorem matmul256_apply_rhs1 (j : S4096x128.Idx) (q : dot_S4096x256_S256x128_S4096x128_1_0_0_1_n_n.contr.Idx) : (dot_S4096x256_S256x128_S4096x128_1_0_0_1_n_n.rhsIdx j q 1).val = (j 1).val := by
  unfold DotDims.rhsIdx
  rw [dif_neg (show ¬(1 : Fin S256x128.rank) ∈ dot_S4096x256_S256x128_S4096x128_1_0_0_1_n_n.rhsBatch by decide),
    dif_pos (show (1 : Fin S256x128.rank) ∈ dot_S4096x256_S256x128_S4096x128_1_0_0_1_n_n.rhsNonContracting by decide)]
  rfl

/-- The 4096 rows of 256 entries times a 256 × 128 matrix, from the zero array: entry (r, e) is the sum over the contracted coordinate. -/
theorem matmul256_apply (A : FVec Ideal S4096x256 .bf16) (W : FVec Ideal S256x128 .bf16) (r : Fin 4096) (e : Fin 128) :
    matmul dot_S4096x256_S256x128_S4096x128_1_0_0_1_n_n none A W (constant (F := Ideal) S4096x128 .f32 0x00000000#32) (ix2 r e)
      = ∑ k : Fin 256, A (ix2 r k) * W (ix2 k e) := by
  simp only [matmul]
  rw [Ideal.matmul_constant_zero_apply, ← Equiv.sum_comp (ValueIdx.contrEquiv1 dot_S4096x256_S256x128_S4096x128_1_0_0_1_n_n 256 rfl rfl).symm]
  refine Finset.sum_congr rfl fun k _ => ?_
  have hk := ValueIdx.contrEquiv1_symm_val dot_S4096x256_S256x128_S4096x128_1_0_0_1_n_n 256 rfl rfl k
  have el : dot_S4096x256_S256x128_S4096x128_1_0_0_1_n_n.lhsIdx (ix2 r e) ((ValueIdx.contrEquiv1 dot_S4096x256_S256x128_S4096x128_1_0_0_1_n_n 256 rfl rfl).symm k) = ix2 r k :=
    funext fun a => Fin.ext (by
      match a with
      | ⟨0, _⟩ => exact matmul256_apply_lhs0 _ _
      | ⟨1, _⟩ => exact (dot_S4096x256_S256x128_S4096x128_1_0_0_1_n_n.lhsIdx_val_of_single rfl _ _).trans hk)
  have er : dot_S4096x256_S256x128_S4096x128_1_0_0_1_n_n.rhsIdx (ix2 r e) ((ValueIdx.contrEquiv1 dot_S4096x256_S256x128_S4096x128_1_0_0_1_n_n 256 rfl rfl).symm k) = ix2 k e :=
    funext fun a => Fin.ext (by
      match a with
      | ⟨0, _⟩ => exact (dot_S4096x256_S256x128_S4096x128_1_0_0_1_n_n.rhsIdx_val_of_single rfl _ _).trans hk
      | ⟨1, _⟩ => exact matmul256_apply_rhs1 _ _)
  rw [el, er]

end Cert.KernelIdeal.KB

end
-- ==== Proof.KLemmasB.lean ====
/-
  The pieces of one layer, each read at an index over the extended reals: a broadcast row, the first affine map, the
  row normalisation, gain / offset / ramp, the masked maximum joined to every row followed by the second affine map,
  and the final masked maximum. Each equals the network's function of the same name on the row (i, p).
-/
import proofs.«143936_j68195490726566_2_alg».proof.Proof.KBlocks
import proofs.«143936_j68195490726566_2_alg».proof.Proof.KLemmasA

noncomputable section

open Idealize.ShloMosaic Idealize.SL.Sem Idealize.ShloMosaic.ValueIdx

namespace Cert.KernelIdeal.KB

open Cert.KernelIdeal Cert.KernelIdeal.Gen

/-- The inverse square root of an array, at an index, is the inverse square root of the entry. -/
theorem rsqrt_apply {s : Shape} {φ : FTy} (x : FVec Ideal s φ) (j : s.Idx) : rsqrt x j = Ideal.rsqrt (x j) := rfl

/-- A vector laid along the last axis reads the vector at the last coordinate. -/
theorem row_apply (g : FVec Ideal S128 .f32) (i p : Fin 64) (e : Fin 128) :
    row (F := Ideal) g (ix3 i p e) = g (ix1 e) := by
  unfold row
  rw [bcast_1x1x128, cast_128_1x1x128]

/-- Gain, offset and ramp at an entry. -/
theorem actv_apply (z gb : FVec Ideal S64x64x128 .f32) (b : FVec Ideal S128 .f32) (i p : Fin 64) (e : Fin 128) :
    actv (F := Ideal) z gb b (ix3 i p e) = max (z (ix3 i p e) * gb (ix3 i p e) + b (ix1 e)) 0 := by
  unfold actv
  rw [maximumf_apply, addf_apply, mulf_apply, row_apply, broadcast_apply]
  show max _ (Ideal.ofBits .f32 0x00000000#32) = _
  rw [Ideal.ofBits_zero_f32]

/-- The first affine map at row (i, p) is the network's affine map of that row. -/
theorem lin1_apply (h : FVec Ideal S64x64x128 .f32) (W : FVec Ideal S128x128 .bf16) (b : FVec Ideal S128 .f32) (i p : Fin 64) (e : Fin 128) :
    lin1 (F := Ideal) h W b (ix3 i p e) = Cert.Net.lin (fun k e => W (ix2 k e)) (fun e => b (ix1 e)) (fun k => h (ix3 i p k)) e := by
  unfold lin1 Cert.Net.lin
  rw [addf_apply, row_apply, cast_4096x128_64x64x128, matmul128_apply]
  simp only [truncf_apply, cast_64x64x128_4096x128]

/-- A row's sum divided by the row length, as the kernel lays it on a trailing unit axis. -/
theorem rowmean_apply (z : FVec Ideal S64x64x128 .f32) (i p : Fin 64) (u : Fin 1) :
    divf (shapeCast S64x64x1 (multiReduction (F := Ideal) .add [2] S64x64 z 0x00000000#32 reduces_S64x64x128_S64x64 (.inl rfl) rfl)
        shapeCasts_S64x64_S64x64x1) (broadcast S64x64x1 (Scalar.ofBits (F := Ideal) .f32 0x43000000#32)) (ix3 i p u)
      = Ideal.div (∑ k : Fin 128, z (ix3 i p k)) Cert.Net.c128 := by
  rw [divf_apply, cast_64x64_64x64x1, sum_lanes, broadcast_apply]
  rfl

/-- The row normalisation at row (i, p) is the network's normalisation of that row. -/
theorem nrm_apply (y : FVec Ideal S64x64x128 .f32) (i p : Fin 64) (e : Fin 128) :
    nrm (F := Ideal) y (ix3 i p e) = Cert.Net.norm (fun k => y (ix3 i p k)) e := by
  unfold nrm
  simp only [mulf_apply, subf_apply, addf_apply, rsqrt_apply, bcast_64x64x1, broadcast_apply]
  rw [rowmean_apply y i p 0, rowmean_apply _ i p 0]
  simp only [mulf_apply, subf_apply, bcast_64x64x1]
  rw [rowmean_apply y i p 0]
  rfl

/-- The final masked maximum at (i, e), times the polyline's validity. -/
theorem fin_apply (h : FVec Ideal S64x64x128 .f32) (neg3 : FVec Ideal S64x64x1 .f32) (pv : FVec Ideal S64x1 .f32) (i : Fin 64) (e : Fin 128) :
    fin (F := Ideal) h neg3 pv (ix2 i e) = Cert.Net.pool (fun q => neg3 (ix3 i q (0 : Fin 1))) (fun q d => h (ix3 i q d)) e * pv (ix2 i (0 : Fin 1)) := by
  unfold fin Cert.Net.pool
  rw [mulf_apply, max_points, bcast_64x1]
  simp only [addf_apply, bcast_64x64x1]

/-- The masked maximum joined to every row and the second affine map, at row (i, p). -/
theorem lin2_apply (r : FVec Ideal S64x64x128 .f32) (neg3 : FVec Ideal S64x64x1 .f32) (W2 : FVec Ideal S256x128 .bf16) (b2 : FVec Ideal S128 .f32) (i p : Fin 64) (e : Fin 128) :
    lin2 (F := Ideal) r neg3 W2 b2 (ix3 i p e) = Cert.Net.lin (fun k e => W2 (ix2 k e)) (fun e => b2 (ix1 e))
      (Cert.Net.cat (fun d => r (ix3 i p d)) (Cert.Net.pool (fun q => neg3 (ix3 i q (0 : Fin 1))) (fun q d => r (ix3 i q d)))) e := by
  unfold lin2 Cert.Net.lin
  simp only []
  rw [addf_apply, row_apply, cast_4096x128_64x64x128, matmul256_apply]
  refine congrArg (· + b2 (ix1 e)) (Finset.sum_congr rfl fun k _ => congrArg (· * W2 (ix2 k e)) ?_)
  rw [truncf_apply, cast_64x64x256_4096x256, concat_apply]
  unfold Cert.Net.cat
  by_cases hk : k.val < 128
  · rw [dif_pos hk, dif_pos hk]
  · rw [dif_neg hk, dif_neg hk, bcast_64x1x128, cast_64x1x128_self, cast_64x128_64x1x128, max_points]
    unfold Cert.Net.pool
    simp only [addf_apply, bcast_64x64x1]

end Cert.KernelIdeal.KB

end
-- ==== Proof.KValue.lean ====
/-
  The value the kernel stores for a block, index by index: entry `(i, e)` of the block's result is the network of
  Proof/Net.lean on the block's polyline `i`, with the parameters read from the whole parameter arrays.
-/
import proofs.«143936_j68195490726566_2_alg».proof.Proof.KCompose
import proofs.«143936_j68195490726566_2_alg».proof.Proof.KWeights
import proofs.«143936_j68195490726566_2_alg».proof.Proof.KMask
import proofs.«143936_j68195490726566_2_alg».proof.Proof.KLemmasB

set_option maxRecDepth 16384

noncomputable section

open Idealize.ShloMosaic Idealize.SL.Sem Idealize.ShloMosaic.ValueIdx

namespace Cert.KernelIdeal.KB

open Cert.KernelIdeal Cert.KernelIdeal.Gen

/-- One layer of the kernel on a block is the layer of the specification on each of the block's polylines. -/
theorem layer_apply (neg3 : FVec Ideal S64x64x1 .f32) (W1 : FVec Ideal S128x128 .bf16) (b1 g bb : FVec Ideal S128 .f32)
    (W2 : FVec Ideal S256x128 .bf16) (b2 : FVec Ideal S128 .f32) (h : FVec Ideal S64x64x128 .f32) (i p : Fin 64) (e : Fin 128) :
    layer (F := Ideal) neg3 W1 b1 g bb W2 b2 h (ix3 i p e)
      = Cert.Net.layer (fun q => neg3 (ix3 i q (0 : Fin 1))) (fun k e => W1 (ix2 k e)) (fun e => b1 (ix1 e)) (fun e => g (ix1 e))
          (fun e => bb (ix1 e)) (fun k e => W2 (ix2 k e)) (fun e => b2 (ix1 e)) (fun q d => h (ix3 i q d)) p e := by
  have hid : ∀ (q : Fin 64) (d : Fin 128), actv (F := Ideal) (nrm (lin1 h W1 b1)) (row g) bb (ix3 i q d)
      = Cert.Net.hidden (fun k e => W1 (ix2 k e)) (fun e => b1 (ix1 e)) (fun e => g (ix1 e)) (fun e => bb (ix1 e))
          (fun q d => h (ix3 i q d)) q d := by
    intro q d
    rw [actv_apply, row_apply, nrm_apply]
    have hl : (fun k => lin1 (F := Ideal) h W1 b1 (ix3 i q k))
        = Cert.Net.lin (fun k e => W1 (ix2 k e)) (fun e => b1 (ix1 e)) (fun k => h (ix3 i q k)) :=
      funext fun k => lin1_apply h W1 b1 i q k
    rw [hl]
    rfl
  unfold layer
  rw [lin2_apply]
  unfold Cert.Net.layer
  simp only [hid]

theorem hz2 : (![0, 0] : Fin 2 → Nat) = fun _ => 0 := funext fun a => by fin_cases a <;> rfl
theorem hz3 : (![0, 0, 0] : Fin 3 → Nat) = fun _ => 0 := funext fun a => by fin_cases a <;> rfl

/-- The block's result at `(i, e)` is the network on polyline `i` of the block. -/
theorem blockOut_apply (X0 : Vec Ideal S64x64x128 .f32) (X1 : Vec Ideal S64x64 .i32) (X2 : Vec Ideal S3x128x128 .f32)
    (X3 X4 X5 : Vec Ideal S3x128 .f32) (X6 : Vec Ideal S3x256x128 .f32) (X7 : Vec Ideal S3x128 .f32) (i : Fin 64) (e : Fin 128) :
    blockOut (F := Ideal) X0 X1 X2 X3 X4 X5 X6 X7 (ix2 i e)
      = Cert.Net.net (fun p => IntOp.cmpi .sgt (X1 (ix2 i p)) 0#32 = 1#1) (fun l k e => X2 (ix3 l k e)) (fun l e => X3 (ix2 l e))
          (fun l e => X4 (ix2 l e)) (fun l e => X5 (ix2 l e)) (fun l k e => X6 (ix3 l k e)) (fun l e => X7 (ix2 l e))
          (fun p d => X0 (ix3 i p d)) e := by
  unfold blockOut
  simp only [View.ld_unit_zero (S := S64x64) hz2, View.ld_unit_zero (S := S64x64x128) hz3]
  rw [fin_apply]
  unfold Cert.Net.net
  simp only [layer_apply, pay3_apply, pay2_apply, pay4_apply,
    fun k e => wmat1_apply X2 ![0, 0, 0] inb_S3x128x128_S1x128x128_0_0_0 (0 : Fin 3) k e rfl rfl rfl,
    fun k e => wmat1_apply X2 ![1, 0, 0] inb_S3x128x128_S1x128x128_1_0_0 (1 : Fin 3) k e rfl rfl rfl,
    fun k e => wmat1_apply X2 ![2, 0, 0] inb_S3x128x128_S1x128x128_2_0_0 (2 : Fin 3) k e rfl rfl rfl,
    fun k e => wmat2_apply X6 ![0, 0, 0] inb_S3x256x128_S1x256x128_0_0_0 (0 : Fin 3) k e rfl rfl rfl,
    fun k e => wmat2_apply X6 ![1, 0, 0] inb_S3x256x128_S1x256x128_1_0_0 (1 : Fin 3) k e rfl rfl rfl,
    fun k e => wmat2_apply X6 ![2, 0, 0] inb_S3x256x128_S1x256x128_2_0_0 (2 : Fin 3) k e rfl rfl rfl,
    fun (X : Vec Ideal S3x128 .f32) e => wrow_apply X ![0, 0] inb_S3x128_S1x128_0_0 (0 : Fin 3) e rfl rfl,
    fun (X : Vec Ideal S3x128 .f32) e => wrow_apply X ![1, 0] inb_S3x128_S1x128_1_0 (1 : Fin 3) e rfl rfl,
    fun (X : Vec Ideal S3x128 .f32) e => wrow_apply X ![2, 0] inb_S3x128_S1x128_2_0 (2 : Fin 3) e rfl rfl]

end Cert.KernelIdeal.KB

end
-- ==== Proof.KGlue.lean ====
/-
  What the region finds in its arrays and what each grid point reads of them. The host reshapes the 16 × 128
  polylines into one axis of 2048 (polyline (b, n) becomes row 128·b + n) and widens the mask bits to words before
  the region; grid point `t` reads polylines 64·t … 64·t + 63 of the reshaped input and mask and the whole of
  every parameter array, and writes rows 64·t … 64·t + 63 of the 2048 × 128 result.
-/
import proofs.«143936_j68195490726566_2_alg».proof.Proof.Gen.KernelIdeal.Frame
import proofs.«143936_j68195490726566_2_alg».proof.Proof.Net
import Idealize.ShloMosaic.Lib.ValueIdx
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.KV

open Cert.KernelIdeal Cert.KernelIdeal.Gen

variable (m : (ℓ : Loc nD τ sig) → Buf (Elt Ideal) ℓ)

/-- The reshaped input as the region finds it. -/
theorem V_v0 (c : Dev nD) : (V m c main_v0 : S2048x64x128.Idx → EReal)
    = shapeCast S2048x64x128 (m ((c.tc : Thread nD τ).loc main_arg0) : S16x128x64x128.Idx → EReal) shapeCasts_S16x128x64x128_S2048x64x128 := by
  show StableHlo.after hostOps0 (fun b => m (c, b)) (Proc.devRef .tc main_v0) = _
  after_results
  rfl

/-- The widened mask as the region finds it. -/
theorem V_v2 (c : Dev nD) : (V m c main_v2 : S2048x64.Idx → BitVec 32)
    = extui 32 (shapeCast S2048x64 (m ((c.tc : Thread nD τ).loc main_arg1) : S16x128x64.Idx → BitVec 1) shapeCasts_S16x128x64_S2048x64) natLt_1_32 := by
  show StableHlo.after hostOps0 (fun b => m (c, b)) (Proc.devRef .tc main_v2) = _
  after_results
  rfl

/-- The printed index maps over the grid: the input, the mask and the result move one block per point along their
    first axis; every parameter window stays at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_8.index t (0 : Fin 2) = t.val ∧ win0_8.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = 0 ∧ win0_6.index t (2 : Fin 3) = 0
    ∧ win0_7.index t (0 : Fin 2) = 0 ∧ win0_7.index t (1 : Fin 2) = 0 :=
  (by decide +kernel : ∀ t : Fin grid0.N, _)

/-- Row `64·t + i` of the 2048: polyline `i` of block `t`. -/
def row64 (t : Fin cfg0.N) (i : Fin 64) : Fin 2048 :=
  ⟨64 * t.val + i.val, by have := t.isLt; have hN : cfg0.N = 32 := N_0; have := i.isLt; omega⟩

/-- Point `t`'s input block is rows `64·t …` of the reshaped input. -/
theorem iblk0_apply (c : Dev nD) (t : Fin cfg0.N) (i p : Fin 64) (d : Fin 128) :
    (iblk m c 0 t : Vec Ideal S64x64x128 .f32) (ix3 i p d) = (V m c main_v0 : S2048x64x128.Idx → EReal) (ix3 (row64 t i) p d) := by
  obtain ⟨e0, e1, e2, -⟩ := idx_facts t
  unfold iblk
  rw [View.read_apply]
  show V m c main_v0 _ = V m c main_v0 _
  congr 1
  funext a; apply Fin.ext
  match a with
  | ⟨0, _⟩ => show win0_0.index t (0 : Fin 3) * 64 + 1 * i.val = 64 * t.val + i.val; rw [e0]; omega
  | ⟨1, _⟩ => show win0_0.index t (1 : Fin 3) * 64 + 1 * p.val = p.val; rw [e1]; omega
  | ⟨2, _⟩ => show win0_0.index t (2 : Fin 3) * 128 + 1 * d.val = d.val; rw [e2]; omega

/-- Point `t`'s mask block is rows `64·t …` of the widened mask. -/
theorem iblk1_apply (c : Dev nD) (t : Fin cfg0.N) (i p : Fin 64) :
    (iblk m c 1 t : Vec Ideal S64x64 .i32) (ix2 i p) = (V m c main_v2 : S2048x64.Idx → BitVec 32) (ix2 (row64 t i) p) := by
  obtain ⟨-, -, -, e0, e1, -⟩ := idx_facts t
  unfold iblk
  rw [View.read_apply]
  show V m c main_v2 _ = V m c main_v2 _
  congr 1
  funext a; apply Fin.ext
  match a with
  | ⟨0, _⟩ => show win0_1.index t (0 : Fin 2) * 64 + 1 * i.val = 64 * t.val + i.val; rw [e0]; omega
  | ⟨1, _⟩ => show win0_1.index t (1 : Fin 2) * 64 + 1 * p.val = p.val; rw [e1]; omega

/-- Every point reads the whole of each parameter array. -/
theorem iblk2_apply (c : Dev nD) (t : Fin cfg0.N) (l : Fin 3) (k : Fin 128) (e : Fin 128) :
    (iblk m c 2 t : Vec Ideal S3x128x128 .f32) (ix3 l k e) = (V m c main_arg2 : S3x128x128.Idx → EReal) (ix3 l k e) := by
  obtain ⟨-, -, -, -, -, -, -, e0, e1, e2, -⟩ := idx_facts t
  unfold iblk
  rw [View.read_apply]
  show V m c main_arg2 _ = V m c main_arg2 _
  congr 1
  funext a; apply Fin.ext
  match a with
  | ⟨0, _⟩ => show win0_2.index t (0 : Fin 3) * 3 + 1 * l.val = l.val; rw [e0]; omega
  | ⟨1, _⟩ => show win0_2.index t (1 : Fin 3) * 128 + 1 * k.val = k.val; rw [e1]; omega
  | ⟨2, _⟩ => show win0_2.index t (2 : Fin 3) * 128 + 1 * e.val = e.val; rw [e2]; omega

theorem iblk3_apply (c : Dev nD) (t : Fin cfg0.N) (l : Fin 3) (e : Fin 128) :
    (iblk m c 3 t : Vec Ideal S3x128 .f32) (ix2 l e) = (V m c main_arg3 : S3x128.Idx → EReal) (ix2 l e) := by
  obtain ⟨-, -, -, -, -, -, -, -, -, -, e0, e1, -⟩ := idx_facts t
  unfold iblk
  rw [View.read_apply]
  show V m c main_arg3 _ = V m c main_arg3 _
  congr 1
  funext a; apply Fin.ext
  match a with
  | ⟨0, _⟩ => show win0_3.index t (0 : Fin 2) * 3 + 1 * l.val = l.val; rw [e0]; omega
  | ⟨1, _⟩ => show win0_3.index t (1 : Fin 2) * 128 + 1 * e.val = e.val; rw [e1]; omega

theorem iblk4_apply (c : Dev nD) (t : Fin cfg0.N) (l : Fin 3) (e : Fin 128) :
    (iblk m c 4 t : Vec Ideal S3x128 .f32) (ix2 l e) = (V m c main_arg4 : S3x128.Idx → EReal) (ix2 l e) := by
  obtain ⟨-, -, -, -, -, -, -, -, -, -, -, -, e0, e1, -⟩ := idx_facts t
  unfold iblk
  rw [View.read_apply]
  show V m c main_arg4 _ = V m c main_arg4 _
  congr 1
  funext a; apply Fin.ext
  match a with
  | ⟨0, _⟩ => show win0_4.index t (0 : Fin 2) * 3 + 1 * l.val = l.val; rw [e0]; omega
  | ⟨1, _⟩ => show win0_4.index t (1 : Fin 2) * 128 + 1 * e.val = e.val; rw [e1]; omega

theorem iblk5_apply (c : Dev nD) (t : Fin cfg0.N) (l : Fin 3) (e : Fin 128) :
    (iblk m c 5 t : Vec Ideal S3x128 .f32) (ix2 l e) = (V m c main_arg5 : S3x128.Idx → EReal) (ix2 l e) := by
  obtain ⟨-, -, -, -, -, -, -, -, -, -, -, -, -, -, e0, e1, -⟩ := idx_facts t
  unfold iblk
  rw [View.read_apply]
  show V m c main_arg5 _ = V m c main_arg5 _
  congr 1
  funext a; apply Fin.ext
  match a with
  | ⟨0, _⟩ => show win0_5.index t (0 : Fin 2) * 3 + 1 * l.val = l.val; rw [e0]; omega
  | ⟨1, _⟩ => show win0_5.index t (1 : Fin 2) * 128 + 1 * e.val = e.val; rw [e1]; omega

theorem iblk6_apply (c : Dev nD) (t : Fin cfg0.N) (l : Fin 3) (k : Fin 256) (e : Fin 128) :
    (iblk m c 6 t : Vec Ideal S3x256x128 .f32) (ix3 l k e) = (V m c main_arg6 : S3x256x128.Idx → EReal) (ix3 l k e) := by
  obtain ⟨-, -, -, -, -, -, -, -, -, -, -, -, -, -, -, -, e0, e1, e2, -⟩ := idx_facts t
  unfold iblk
  rw [View.read_apply]
  show V m c main_arg6 _ = V m c main_arg6 _
  congr 1
  funext a; apply Fin.ext
  match a with
  | ⟨0, _⟩ => show win0_6.index t (0 : Fin 3) * 3 + 1 * l.val = l.val; rw [e0]; omega
  | ⟨1, _⟩ => show win0_6.index t (1 : Fin 3) * 256 + 1 * k.val = k.val; rw [e1]; omega
  | ⟨2, _⟩ => show win0_6.index t (2 : Fin 3) * 128 + 1 * e.val = e.val; rw [e2]; omega

theorem iblk7_apply (c : Dev nD) (t : Fin cfg0.N) (l : Fin 3) (e : Fin 128) :
    (iblk m c 7 t : Vec Ideal S3x128 .f32) (ix2 l e) = (V m c main_arg7 : S3x128.Idx → EReal) (ix2 l e) := by
  obtain ⟨-, -, -, -, -, -, -, -, -, -, -, -, -, -, -, -, -, -, -, e0, e1⟩ := idx_facts t
  unfold iblk
  rw [View.read_apply]
  show V m c main_arg7 _ = V m c main_arg7 _
  congr 1
  funext a; apply Fin.ext
  match a with
  | ⟨0, _⟩ => show win0_7.index t (0 : Fin 2) * 3 + 1 * l.val = l.val; rw [e0]; omega
  | ⟨1, _⟩ => show win0_7.index t (1 : Fin 2) * 128 + 1 * e.val = e.val; rw [e1]; omega

/-- The 2048 × 128 array the region leaves: row `r` is the network on polyline `r` of the reshaped input, a point
    being valid when its mask word is positive. -/
def G2048 (A0 : S2048x64x128.Idx → EReal) (A1 : S2048x64.Idx → BitVec 32) (A2 : S3x128x128.Idx → EReal)
    (A3 A4 A5 : S3x128.Idx → EReal) (A6 : S3x256x128.Idx → EReal) (A7 : S3x128.Idx → EReal) : S2048x128.Idx → EReal :=
  fun j => Cert.Net.net (fun p => IntOp.cmpi .sgt (A1 (ix2 (⟨(j 0).val, idx2_lt0 j⟩ : Fin 2048) p)) 0#32 = 1#1)
    (fun l k e => A2 (ix3 l k e)) (fun l e => A3 (ix2 l e)) (fun l e => A4 (ix2 l e)) (fun l e => A5 (ix2 l e))
    (fun l k e => A6 (ix3 l k e)) (fun l e => A7 (ix2 l e))
    (fun p d => A0 (ix3 (⟨(j 0).val, idx2_lt0 j⟩ : Fin 2048) p d)) (⟨(j 1).val, idx2_lt1 j⟩ : Fin 128)

theorem G2048_apply (A0 : S2048x64x128.Idx → EReal) (A1 : S2048x64.Idx → BitVec 32) (A2 : S3x128x128.Idx → EReal)
    (A3 A4 A5 : S3x128.Idx → EReal) (A6 : S3x256x128.Idx → EReal) (A7 : S3x128.Idx → EReal) (r : Fin 2048) (e : Fin 128) :
    G2048 A0 A1 A2 A3 A4 A5 A6 A7 (ix2 r e) = Cert.Net.net (fun p => IntOp.cmpi .sgt (A1 (ix2 r p)) 0#32 = 1#1)
      (fun l k e => A2 (ix3 l k e)) (fun l e => A3 (ix2 l e)) (fun l e => A4 (ix2 l e)) (fun l e => A5 (ix2 l e))
      (fun l k e => A6 (ix3 l k e)) (fun l e => A7 (ix2 l e)) (fun p d => A0 (ix3 r p d)) e := rfl

/-- Entry `(i, e)` of point `t`'s result block is entry `(64·t + i, e)` of the result array. -/
theorem emb8 (t : Fin cfg0.N) (i : Fin 64) (e : Fin 128) :
    ((cfg0.win 8).blk t).view.emb (ix2 i e) = (ix2 (row64 t i) e : S2048x128.Idx) := by
  obtain ⟨-, -, -, -, -, e0, e1, -⟩ := idx_facts t
  funext a; apply Fin.ext
  match a with
  | ⟨0, _⟩ => show win0_8.index t (0 : Fin 2) * 64 + 1 * i.val = 64 * t.val + i.val; rw [e0]; omega
  | ⟨1, _⟩ => show win0_8.index t (1 : Fin 2) * 128 + 1 * e.val = e.val; rw [e1]; omega

/-- An entry of the result array is in point `t`'s block iff each coordinate is in the block's range on its axis. -/
theorem mem_blk8 (t : Fin cfg0.N) (i : S2048x128.Idx) :
    i ∈ ((cfg0.win 8).blk t).view.set ↔ ∀ a : Fin 2, win0_8.index t a * S64x128.size a ≤ (i a).val
      ∧ (i a).val < win0_8.index t a * S64x128.size a + S64x128.size a := by
  show i ∈ ((View.whole main_v3).slice (win0_8.rect t)).set ↔ _
  rw [View.set_slice_whole, Rect.mem_set_unit]
  exact Iff.rfl

/-- Every entry of the result array lies in the block of the point its row falls in. -/
theorem cover8 (i : S2048x128.Idx) : ∃ t : Fin cfg0.N, (cfg0.win 8).flush t = true ∧ i ∈ ((cfg0.win 8).blk t).view.set := by
  have hN : cfg0.N = 32 := N_0
  have h0 : (i 0).val < 2048 := idx2_lt0 i
  have h1 : (i 1).val < 128 := idx2_lt1 i
  obtain ⟨t, ht⟩ : ∃ t : Fin cfg0.N, t.val = (i 0).val / 64 := ⟨⟨(i 0).val / 64, by omega⟩, rfl⟩
  obtain ⟨-, -, -, -, -, e0, e1, -⟩ := idx_facts t
  refine ⟨t, flush0_8 t, ?_⟩
  rw [mem_blk8]
  intro a
  match a with
  | ⟨0, _⟩ =>
    show win0_8.index t (0 : Fin 2) * 64 ≤ (i 0).val ∧ (i 0).val < win0_8.index t (0 : Fin 2) * 64 + 64
    rw [e0, ht]; omega
  | ⟨1, _⟩ =>
    show win0_8.index t (1 : Fin 2) * 128 ≤ (i 1).val ∧ (i 1).val < win0_8.index t (1 : Fin 2) * 128 + 128
    rw [e1]; omega

/-- A mask bit widened to a word is positive exactly when the bit is set. -/
theorem bit_pos_iff : ∀ β : BitVec 1, (IntOp.cmpi .sgt (β.setWidth 32) 0#32 = 1#1) ↔ β = 1#1 := by decide

/-- The 2048-row result of the reshaped input and widened mask, reshaped back to 16 × 128 rows, is the
    specification's result array: row `128·b + n` is polyline `(b, n)`. -/
theorem reshape_G (x0 : S16x128x64x128.Idx → EReal) (x1 : S16x128x64.Idx → BitVec 1) (x2 : S3x128x128.Idx → EReal)
    (x3 x4 x5 : S3x128.Idx → EReal) (x6 : S3x256x128.Idx → EReal) (x7 : S3x128.Idx → EReal) :
    shapeCast S16x128x128 (G2048 (shapeCast S2048x64x128 x0 shapeCasts_S16x128x64x128_S2048x64x128)
        (extui 32 (shapeCast S2048x64 x1 shapeCasts_S16x128x64_S2048x64) natLt_1_32) x2 x3 x4 x5 x6 x7)
      shapeCasts_S2048x128_S16x128x128 = Cert.Net.G x0 x1 x2 x3 x4 x5 x6 x7 := by
  funext j
  obtain ⟨b, n, e, rfl⟩ : ∃ (b : Fin 16) (n : Fin 128) (e : Fin 128), j = ix3 b n e := ⟨j 0, j 1, j 2, eq_ix3 j⟩
  have hr : 128 * b.val + n.val < 2048 := by have := b.isLt; have := n.isLt; omega
  refine (shapeCast_apply _ shapeCasts_S2048x128_S16x128x128 (ix3 b n e) (ix2 (⟨128 * b.val + n.val, hr⟩ : Fin 2048) e) (by
    rw [Shape.rowMajor_val_two, Shape.rowMajor_val_three]
    show (128 * b.val + n.val) * 128 + e.val = (b.val * 128 + n.val) * 128 + e.val; omega)).trans ?_
  rw [G2048_apply]
  have hx : (fun (p : Fin 64) (d : Fin 128) => shapeCast S2048x64x128 x0 shapeCasts_S16x128x64x128_S2048x64x128 (ix3 (⟨128 * b.val + n.val, hr⟩ : Fin 2048) p d))
      = fun p d => x0 (ix4 b n p d) := funext fun p => funext fun d =>
    shapeCast_apply x0 _ (ix3 (⟨128 * b.val + n.val, hr⟩ : Fin 2048) p d) (ix4 b n p d) (by
      rw [Shape.rowMajor_val_four, Shape.rowMajor_val_three]
      show ((b.val * 128 + n.val) * 64 + p.val) * 128 + d.val = ((128 * b.val + n.val) * 64 + p.val) * 128 + d.val; omega)
  have hv : (fun (p : Fin 64) => IntOp.cmpi .sgt (extui 32 (shapeCast S2048x64 x1 shapeCasts_S16x128x64_S2048x64) natLt_1_32 (ix2 (⟨128 * b.val + n.val, hr⟩ : Fin 2048) p)) 0#32 = 1#1)
      = fun p => x1 (ix3 b n p) = 1#1 := funext fun p => by
    rw [extui_apply, shapeCast_apply x1 _ (ix2 (⟨128 * b.val + n.val, hr⟩ : Fin 2048) p) (ix3 b n p) (by
      rw [Shape.rowMajor_val_three, Shape.rowMajor_val_two]
      show (b.val * 128 + n.val) * 64 + p.val = (128 * b.val + n.val) * 64 + p.val; omega)]
    exact propext (bit_pos_iff _)
  rw [hx, hv]
  rfl

end Cert.KernelIdeal.KV

end
-- ==== Proof.KFinal.lean ====
/-
  The kernel's run, read. Point `t` writes back rows `64·t … 64·t + 63` of the 2048-row result, each row the
  network on its polyline; the 32 blocks tile the array, so the region leaves the whole 2048-row result; the host
  reshapes it to 16 × 128 rows, which is the specification's result array of the arguments.
-/
import proofs.«143936_j68195490726566_2_alg».proof.Proof.KValue
import proofs.«143936_j68195490726566_2_alg».proof.Proof.KGlue

set_option maxRecDepth 16384

noncomputable section

open Idealize.ShloMosaic Idealize.ShloMosaic.TcCoe Idealize.SL.Sem Idealize.ShloMosaic.ValueIdx Idealize.ShloMosaic.StableHlo

namespace Cert.KernelIdeal.KV

open Cert.KernelIdeal Cert.KernelIdeal.Gen

variable (m : (ℓ : Loc nD τ sig) → Buf (Elt Ideal) ℓ) (ρ : Dev nD → PrngReg)

/-- The 2048-row result of the arrays as the region finds them. -/
def GV (c : Dev nD) : S2048x128.Idx → EReal :=
  G2048 (V m c main_v0) (V m c main_v2) (V m c main_arg2) (V m c main_arg3) (V m c main_arg4) (V m c main_arg5)
    (V m c main_arg6) (V m c main_arg7)

/-- What point `t` writes back is block `t` of that array. -/
theorem flushed_eq (c : Dev nD) (t : Fin cfg0.N) :
    (dats m 0 c).flushed 8 t = ((cfg0.win 8).blk t).view.read (Elt Ideal) (GV m c) := by
  show (cfg0.win 8).cut (grid0.coords t) ((dats m 0 c).after 8 t) = _
  rw [after0_8, KB.out0_8_eq, View.canon_unit_zero KB.hz2]
  funext y
  obtain ⟨i, e, rfl⟩ : ∃ (i : Fin 64) (e : Fin 128), y = ix2 i e := ⟨y 0, y 1, eq_ix2 y⟩
  show KB.blockOut (F := Ideal) (iblk m c 0 t) (iblk m c 1 t) (iblk m c 2 t) (iblk m c 3 t) (iblk m c 4 t) (iblk m c 5 t)
      (iblk m c 6 t) (iblk m c 7 t) (ix2 i e) = GV m c (((cfg0.win 8).blk t).view.emb (ix2 i e))
  rw [emb8]
  unfold GV
  rw [G2048_apply]
  refine (KB.blockOut_apply (iblk m c 0 t) (iblk m c 1 t) (iblk m c 2 t) (iblk m c 3 t) (iblk m c 4 t) (iblk m c 5 t)
    (iblk m c 6 t) (iblk m c 7 t) i e).trans ?_
  simp only [iblk0_apply, iblk1_apply, iblk2_apply, iblk3_apply, iblk4_apply, iblk5_apply, iblk6_apply, iblk7_apply]

/-- The result array after the region. -/
theorem final (c : Dev nD) : (dats m 0 c).arrAt 8 cfg0.N = GV m c :=
  (dats m 0 c).arrAt_eq_of_cover 8 (GV m c) (fun t _ => flushed_eq m c t) (fun i => cover8 i)

/-- The host's reshape after the region, applied to the region's result. -/
theorem tail_eq (c : Dev nD) : Pipeline.afterTail₀ cfgs (dats m) 0 (V0 m) [hostOps1] c main_v4
    = shapeCast S16x128x128 (GV m c) shapeCasts_S2048x128_S16x128x128 := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3) = GV m c :=
    (Pipeline.withArrays_arr spec0 launch0.win.arr_inj c _ _ 8).trans (final m c)
  rw [hw]
  rfl

/-- The specification's result array of the arguments' launch contents. -/
def Gm (c : Dev nD) : S16x128x128.Idx → EReal :=
  Cert.Net.G (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

/-- The region's result, reshaped, is the specification's result array of the arguments. -/
theorem value_eq (c : Dev nD) : shapeCast S16x128x128 (GV m c) shapeCasts_S2048x128_S16x128x128 = Gm m c := by
  unfold GV Gm
  rw [V_v0, V_v2, V_main_arg2, V_main_arg3, V_main_arg4, V_main_arg5, V_main_arg6, V_main_arg7]
  exact reshape_G _ _ _ _ _ _ _ _

/-- Every weakly fair execution of the kernel's program terminates with its result at the specification's result
    array of the arguments, the arguments unchanged. -/
theorem run : θ_run defs (onTc (τ := τ) (main (F := Ideal))) ⟨m, fun _ => 0, ρ⟩ (fun r => ∀ c : Dev nD,
      r.2.mem ((c.tc : Thread nD τ).loc main_v4) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v4 (Pipeline.mem_restRefs_of main_v4 (by decide) (by decide))).trans ((tail_eq m c).trans (value_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KV

end
-- ==== Proof.RefA.lean ====
/-
  Reading the reference's folds at an index: a reduction by "and" over the points of a polyline is one exactly when
  every reduced bit is one; a reduction by "max" over the points is the maximum of the 64 entries.
-/
import proofs.«143936_j68195490726566_2_alg».proof.Proof.Net
import proofs.«143936_j68195490726566_2_alg».proof.Proof.Gen.ReferenceIdeal
import Idealize.ShloMosaic.Lib.Pipeline.Value
import Idealize.ShloMosaic.Lib.ReduceAll
import Idealize.ShloMosaic.PureOps.Reduce

noncomputable section

open Idealize.ShloMosaic Idealize.ShloMosaic.ValueIdx
open Cert.ReferenceIdeal

namespace Cert.ReferenceIdeal.RefValue

/-- A fold by "and" over one-bit words is one exactly when it started at one and met only ones. -/
theorem fold_andi_eq_one {ι : Type} [DecidableEq ι] (s : Finset ι) (b : BitVec 1) (f : ι → BitVec 1) :
    s.fold IntOp.andi b f = 1#1 ↔ b = 1#1 ∧ ∀ k ∈ s, f k = 1#1 := by
  induction s using Finset.induction_on with
  | empty => simp
  | insert a s ha ih =>
    rw [Finset.fold_insert ha, IntOp.andi_eq_one, ih]
    constructor
    · rintro ⟨h1, h2, h3⟩
      exact ⟨h2, fun k hk => by rcases Finset.mem_insert.1 hk with rfl | hk; exacts [h1, h3 k hk]⟩
    · rintro ⟨h1, h2⟩
      exact ⟨h2 a (Finset.mem_insert_self _ _), h1, fun k hk => h2 k (Finset.mem_insert_of_mem hk)⟩

/-- The "and" over the 64 points of polyline `(b, n)` is one exactly when the initial bit and every point's bit are one. -/
theorem andReduce_eq_one (x : (⟨S16x128x64, .i1⟩ : BufTy).Contents (Elt Ideal)) (init : (⟨S_, .i1⟩ : BufTy).Contents (Elt Ideal))
    (b : Fin 16) (n : Fin 128) :
    Host.reduce IntOp.andi x init Gen.reducesTo_S16x128x64_S16x128_d2 Gen.h_S_ (ix2 b n) = 1#1
      ↔ init (Shape.Idx.first Gen.h_S_) = 1#1 ∧ ∀ p : Fin 64, x (ix3 b n p) = 1#1 := by
  rw [Host.reduce_eq_fold_single IntOp.andi x init Gen.reducesTo_S16x128x64_S16x128_d2 (by decide) Gen.h_S_ (ix2 b n),
    fold_andi_eq_one]
  refine and_congr Iff.rfl ⟨fun h p => ?_, fun h k _ => ?_⟩
  · have := h p (Finset.mem_univ _)
    refine Eq.trans (congrArg x (funext fun a => Fin.ext ?_)) this
    match a with
    | ⟨0, _⟩ => rfl
    | ⟨1, _⟩ => rfl
    | ⟨2, _⟩ => rfl
  · refine Eq.trans (congrArg x (funext fun a => Fin.ext ?_)) (h k)
    match a with
    | ⟨0, _⟩ => rfl
    | ⟨1, _⟩ => rfl
    | ⟨2, _⟩ => rfl

/-- The "max" over the 64 points of polyline `(b, n)`, feature `e`, is the maximum of the 64 entries and the initial value. -/
theorem maxReduce_apply (x : (⟨S16x128x64x128, .f32⟩ : BufTy).Contents (Elt Ideal)) (init : (⟨S_, .f32⟩ : BufTy).Contents (Elt Ideal))
    (b : Fin 16) (n : Fin 128) (e : Fin 128) :
    Host.reduce (FloatOps.maximumf (F := Ideal) (φ := .f32)) x init Gen.reducesTo_S16x128x64x128_S16x128x128_d2 Gen.h_S_ (ix3 b n e)
      = (Finset.univ : Finset (Fin 64)).fold max (init (Shape.Idx.first Gen.h_S_)) (fun p => x (ix4 b n p e)) := by
  rw [Host.reduce_eq_fold_single _ x init Gen.reducesTo_S16x128x64x128_S16x128x128_d2 (by decide) Gen.h_S_ (ix3 b n e)]
  refine congrArg (Finset.fold _ _ · _) (funext fun p => congrArg x (funext fun a => Fin.ext ?_))
  match a with
  | ⟨0, _⟩ => rfl
  | ⟨1, _⟩ => rfl
  | ⟨2, _⟩ => rfl
  | ⟨3, _⟩ => rfl

end Cert.ReferenceIdeal.RefValue

end
-- ==== Proof.RefB.lean ====
/-
  The reference's masks and its input at an index.
  A point of polyline (b, n) is valid when its mask bit is one. The polyline's flag is one exactly when it has a valid
  point; a point's "masked out" bit is one exactly when the point is invalid and the polyline has a valid point. The
  network's input is the argument array times the polyline's flag, and replacing a masked-out entry by minus infinity
  is adding the additive mask.
-/
import proofs.«143936_j68195490726566_2_alg».proof.Proof.RefA
import proofs.«143936_j68195490726566_2_alg».proof.Proof.RefReadP

noncomputable section

open Idealize.ShloMosaic Idealize.ShloMosaic.ValueIdx
open Cert.ReferenceIdeal Cert.ReferenceIdeal.ReadP

namespace Cert.ReferenceIdeal.RefValue

/-- The polyline's flag: one exactly when some point of the polyline is valid. -/
theorem v2_eq_one_iff (x1 : (⟨S16x128x64, .i1⟩ : BufTy).Contents (Elt Ideal)) (b : Fin 16) (n : Fin 128) :
    val_main_v2 (F := Ideal) x1 (ix2 b n) = 1#1 ↔ ∃ p : Fin 64, x1 (ix3 b n p) = 1#1 := by
  rw [val_main_v2_apply, IntOp.not_eq_one]
  unfold val_main_v1
  rw [andReduce_eq_one]
  simp only [val_main_c_apply, val_main_v0_apply, IntOp.not_eq_one]
  constructor
  · intro h
    by_contra hc
    exact h ⟨trivial, fun p hp => hc ⟨p, hp⟩⟩
  · rintro ⟨p, hp⟩ ⟨_, h⟩
    exact h p hp

/-- A point's "masked out" bit: one exactly when the point is invalid and the polyline has a valid point. -/
theorem v4_eq_one_iff (x1 : (⟨S16x128x64, .i1⟩ : BufTy).Contents (Elt Ideal)) (b : Fin 16) (n : Fin 128) (p : Fin 64) :
    val_main_v4 (F := Ideal) x1 (ix3 b n p) = 1#1 ↔ (¬ x1 (ix3 b n p) = 1#1 ∧ ∃ q : Fin 64, x1 (ix3 b n q) = 1#1) := by
  have e1 : idx_main_v3 (idx_main_call0_v0 (ix3 b n p)) = ix2 b n := funext fun a => Fin.ext (by
    match a with
    | ⟨0, _⟩ => rfl
    | ⟨1, _⟩ => rfl)
  rw [val_main_v4_apply, val_main_call0_v0_apply, val_main_v3_apply, e1, val_main_v0_apply, val_main_call0_v1_apply,
    val_main_c_0_apply]
  by_cases h : val_main_v2 (F := Ideal) x1 (ix2 b n) = 1#1
  · rw [h, select_one, IntOp.not_eq_one]
    exact ⟨fun h1 => ⟨h1, (v2_eq_one_iff x1 b n).1 h⟩, And.left⟩
  · rw [eq_zero_of_ne_one h, select_zero]
    constructor
    · intro h0
      exact absurd h0 (by decide)
    · rintro ⟨_, hq⟩
      exact absurd ((v2_eq_one_iff x1 b n).2 hq) h

/-- Choosing minus infinity where the "masked out" bit is one is adding the additive mask. -/
theorem select_neg_inf (c : BitVec 1) (r : EReal) (valid : Fin 64 → Prop) (p : Fin 64)
    (hc : c = 1#1 ↔ (¬ valid p ∧ ∃ q, valid q)) :
    Scalar.select c (Ideal.ofBits .f32 0xFF800000#32) r = r + Net.neg valid p := by
  unfold Net.neg
  by_cases h : c = 1#1
  · rw [h, select_one, if_pos (hc.1 h), EReal.add_bot, Net.ofBits_neg_inf]
  · rw [eq_zero_of_ne_one h, select_zero, if_neg (fun hh => h (hc.2 hh)), add_zero]

/-- Keeping a value where the polyline's flag is one, and zero elsewhere, is multiplying by the flag. -/
theorem select_zero_word (c : BitVec 1) (r : EReal) (valid : Fin 64 → Prop) (hc : c = 1#1 ↔ ∃ q, valid q) :
    Scalar.select c r (Ideal.ofBits .f32 0x00000000#32) = r * Net.pv valid := by
  unfold Net.pv
  by_cases h : c = 1#1
  · rw [h, select_one, if_pos (hc.1 h), mul_one]
  · rw [eq_zero_of_ne_one h, select_zero, if_neg (fun hh => h (hc.2 hh)), mul_zero, Ideal.ofBits_zero_f32]

/-- The network's input: the argument array, zeroed on a polyline with no valid point. -/
theorem v6_apply (x0 : (⟨S16x128x64x128, .f32⟩ : BufTy).Contents (Elt Ideal)) (x1 : (⟨S16x128x64, .i1⟩ : BufTy).Contents (Elt Ideal))
    (b : Fin 16) (n : Fin 128) (p : Fin 64) (d : Fin 128) :
    val_main_v6 (F := Ideal) x0 x1 (ix4 b n p d) = x0 (ix4 b n p d) * Net.pv (fun q => x1 (ix3 b n q) = 1#1) := by
  have e1 : idx_main_v5 (idx_main_call1_v1 (ix4 b n p d)) = ix2 b n := funext fun a => Fin.ext (by
    match a with
    | ⟨0, _⟩ => rfl
    | ⟨1, _⟩ => rfl)
  rw [val_main_v6_apply, val_main_call1_v1_apply, val_main_v5_apply, e1, val_main_call1_v2_apply, val_main_call1_v0_apply,
    val_main_cst_apply]
  exact select_zero_word _ _ _ (v2_eq_one_iff x1 b n)

end Cert.ReferenceIdeal.RefValue

end
-- ==== Proof.RefL0.lean ====
/-
  Layer 0 of the reference at an index. Every point's row goes through the first affine map, the normalisation over
  its 128 entries, gain, offset and ramp; the rows with the masked-out points sent to minus infinity are maximised over the
  64 points; each point's row joined with that maximum goes through the second affine map. Each stage is read at
  coordinates (b, n, p, e) and identified with the network's function of the layer's input.
-/
import proofs.«143936_j68195490726566_2_alg».proof.Proof.RefB

noncomputable section

open Idealize.ShloMosaic Idealize.ShloMosaic.ValueIdx
open Cert.ReferenceIdeal Cert.ReferenceIdeal.ReadP

namespace Cert.ReferenceIdeal.RefValue

/-- The first matrix of layer 0: the argument array's slab 0. -/
theorem W1_L0 (x2 : (⟨S3x128x128, .f32⟩ : BufTy).Contents (Elt Ideal)) (k e : Fin 128) :
    val_main_v8 (F := Ideal) x2 (ix2 k e) = x2 (ix3 (0 : Fin 3) k e) := by
  rw [val_main_v8_apply, val_main_v7_apply]
  refine congrArg x2 (funext fun a => Fin.ext ?_)
  have hk := k.isLt
  have he := e.isLt
  match a with
  | ⟨0, _⟩ => rfl
  | ⟨1, _⟩ =>
    show (k.val * 128 + e.val) / 128 % 128 = k.val
    omega
  | ⟨2, _⟩ =>
    show (k.val * 128 + e.val) % 128 = e.val
    omega

/-- The second matrix of layer 0: the argument array's slab 0. -/
theorem W2_L0 (x6 : (⟨S3x256x128, .f32⟩ : BufTy).Contents (Elt Ideal)) (k : Fin 256) (e : Fin 128) :
    val_main_v51 (F := Ideal) x6 (ix2 k e) = x6 (ix3 (0 : Fin 3) k e) := by
  rw [val_main_v51_apply, val_main_v50_apply]
  refine congrArg x6 (funext fun a => Fin.ext ?_)
  have hk := k.isLt
  have he := e.isLt
  match a with
  | ⟨0, _⟩ => rfl
  | ⟨1, _⟩ =>
    show (k.val * 128 + e.val) / 128 % 256 = k.val
    omega
  | ⟨2, _⟩ =>
    show (k.val * 128 + e.val) % 128 = e.val
    omega

/-- The first offset of layer 0, broadcast over the points: the argument array's row 0. -/
theorem b1_L0 (x3 : (⟨S3x128, .f32⟩ : BufTy).Contents (Elt Ideal)) (b : Fin 16) (n : Fin 128) (p : Fin 64) (e : Fin 128) :
    val_main_v13 (F := Ideal) x3 (ix4 b n p e) = x3 (ix2 (0 : Fin 3) e) := by
  rw [val_main_v13_apply, val_main_v12_apply, val_main_v11_apply, val_main_v10_apply]
  refine congrArg x3 (funext fun a => Fin.ext ?_)
  match a with
  | ⟨0, _⟩ => rfl
  | ⟨1, _⟩ => exact Nat.mod_eq_of_lt e.isLt

/-- The gain of layer 0, broadcast over the points: the argument array's row 0. -/
theorem gain_L0 (x4 : (⟨S3x128, .f32⟩ : BufTy).Contents (Elt Ideal)) (b : Fin 16) (n : Fin 128) (p : Fin 64) (e : Fin 128) :
    val_main_v38 (F := Ideal) x4 (ix4 b n p e) = x4 (ix2 (0 : Fin 3) e) := by
  rw [val_main_v38_apply, val_main_v37_apply, val_main_v16_apply, val_main_v15_apply]
  refine congrArg x4 (funext fun a => Fin.ext ?_)
  match a with
  | ⟨0, _⟩ => rfl
  | ⟨1, _⟩ => exact Nat.mod_eq_of_lt e.isLt

/-- The offset after the gain of layer 0, broadcast over the points: the argument array's row 0. -/
theorem shift_L0 (x5 : (⟨S3x128, .f32⟩ : BufTy).Contents (Elt Ideal)) (b : Fin 16) (n : Fin 128) (p : Fin 64) (e : Fin 128) :
    val_main_v41 (F := Ideal) x5 (ix4 b n p e) = x5 (ix2 (0 : Fin 3) e) := by
  rw [val_main_v41_apply, val_main_v40_apply, val_main_v18_apply, val_main_v17_apply]
  refine congrArg x5 (funext fun a => Fin.ext ?_)
  match a with
  | ⟨0, _⟩ => rfl
  | ⟨1, _⟩ => exact Nat.mod_eq_of_lt e.isLt

/-- The second offset of layer 0, broadcast over the points: the argument array's row 0. -/
theorem b2_L0 (x7 : (⟨S3x128, .f32⟩ : BufTy).Contents (Elt Ideal)) (b : Fin 16) (n : Fin 128) (p : Fin 64) (e : Fin 128) :
    val_main_v56 (F := Ideal) x7 (ix4 b n p e) = x7 (ix2 (0 : Fin 3) e) := by
  rw [val_main_v56_apply, val_main_v55_apply, val_main_v54_apply, val_main_v53_apply]
  refine congrArg x7 (funext fun a => Fin.ext ?_)
  match a with
  | ⟨0, _⟩ => rfl
  | ⟨1, _⟩ => exact Nat.mod_eq_of_lt e.isLt

/-- The first affine map of a point's row. -/
theorem lin_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v14 (F := Ideal) x0 x1 x2 x3 (ix4 b n p e)
      = Net.lin (fun k e => x2 (ix3 (0 : Fin 3) k e)) (fun e => x3 (ix2 (0 : Fin 3) e)) (fun d => val_main_v6 (F := Ideal) x0 x1 (ix4 b n p d)) e := by
  have e1 : ∀ k : Fin 128, lidx_main_v9 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 128, ridx_main_v9 (ix4 b n p e) k = ix2 k e := fun k => funext fun a => Fin.ext (by
    match a with
    | ⟨0, _⟩ => rfl
    | ⟨1, _⟩ => rfl)
  rw [val_main_v14_apply, val_main_v9_apply, b1_L0]
  unfold Net.lin
  simp only [e1, e2, W1_L0, Ideal.addf_def]

/-- The mean of a point's row. -/
theorem mean_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v22 (F := Ideal) x0 x1 x2 x3 (ix4 b n p (0 : Fin 1)) = Net.mean (fun e => val_main_v14 (F := Ideal) x0 x1 x2 x3 (ix4 b n p e)) := by
  have e1 : ∀ k : Fin 128, idx_main_v19 (idx_main_v20 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v22_apply, val_main_v20_apply, val_main_v19_apply, val_main_v21_apply, val_main_cst_1_apply, val_main_cst_2_apply]
  unfold Net.mean
  simp only [e1, Ideal.hostDivf_def, Ideal.ofBits_def, Ideal.ofBits_zero_f32, zero_add]

/-- A point's row with its mean subtracted (the copy the variance is taken of). -/
theorem cen_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v24 (F := Ideal) x0 x1 x2 x3 (ix4 b n p e) = Net.cen (fun e => val_main_v14 (F := Ideal) x0 x1 x2 x3 (ix4 b n p e)) e := by
  have e1 : idx_main_v23 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v24_apply, val_main_v23_apply, e1, mean_L0 x0 x1 x2 x3 x4 x5 x6 x7]
  rfl

/-- A point's row with its mean subtracted (the copy that is normalised). -/
theorem cenb_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v31 (F := Ideal) x0 x1 x2 x3 (ix4 b n p e) = Net.cen (fun e => val_main_v14 (F := Ideal) x0 x1 x2 x3 (ix4 b n p e)) e := by
  have e1 : idx_main_v30 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v31_apply, val_main_v30_apply, e1, mean_L0 x0 x1 x2 x3 x4 x5 x6 x7]
  rfl

/-- The variance of a point's row. -/
theorem var_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v29 (F := Ideal) x0 x1 x2 x3 (ix4 b n p (0 : Fin 1)) = Net.var (fun e => val_main_v14 (F := Ideal) x0 x1 x2 x3 (ix4 b n p e)) := by
  have e1 : ∀ k : Fin 128, idx_main_v26 (idx_main_v27 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v29_apply, val_main_v27_apply, val_main_v26_apply, val_main_v28_apply, val_main_cst_3_apply, val_main_cst_4_apply]
  unfold Net.var
  simp only [e1, val_main_v25_apply, cen_L0 x0 x1 x2 x3 x4 x5 x6 x7, Ideal.hostDivf_def, Ideal.mulf_def, Ideal.ofBits_def, Ideal.ofBits_zero_f32, zero_add]

/-- The normalised row. -/
theorem norm_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v36 (F := Ideal) x0 x1 x2 x3 (ix4 b n p e) = Net.norm (fun e => val_main_v14 (F := Ideal) x0 x1 x2 x3 (ix4 b n p e)) e := by
  have e1 : idx_main_v35 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v36_apply, cenb_L0 x0 x1 x2 x3 x4 x5 x6 x7, val_main_v35_apply, e1, val_main_v34_apply, val_main_v33_apply, var_L0 x0 x1 x2 x3 x4 x5 x6 x7, val_main_v32_apply, val_main_cst_5_apply]
  rfl

/-- The first half of the layer on a point: affine map, normalisation, gain, offset and ramp. -/
theorem hidden_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v43 (F := Ideal) x0 x1 x2 x3 x4 x5 (ix4 b n p e)
      = Net.hidden (fun k e => x2 (ix3 (0 : Fin 3) k e)) (fun e => x3 (ix2 (0 : Fin 3) e)) (fun e => x4 (ix2 (0 : Fin 3) e)) (fun e => x5 (ix2 (0 : Fin 3) e)) (fun q d => val_main_v6 (F := Ideal) x0 x1 (ix4 b n q d)) p e := by
  have hl : (fun e => val_main_v14 (F := Ideal) x0 x1 x2 x3 (ix4 b n p e)) = Net.lin (fun k e => x2 (ix3 (0 : Fin 3) k e)) (fun e => x3 (ix2 (0 : Fin 3) e)) (fun d => val_main_v6 (F := Ideal) x0 x1 (ix4 b n p d)) :=
    funext fun e => lin_L0 x0 x1 x2 x3 x4 x5 x6 x7 b n p e
  rw [val_main_v43_apply, val_main_v42_apply, val_main_v39_apply, norm_L0 x0 x1 x2 x3 x4 x5 x6 x7, gain_L0, shift_L0, val_main_call2_v0_apply, val_main_call2_cst_apply, hl, Ideal.ofBits_def,
    Ideal.ofBits_zero_f32]
  rfl

/-- Sending a masked-out point's entry to minus infinity is adding the additive mask. -/
theorem masked_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v45 (F := Ideal) x0 x1 x2 x3 x4 x5 (ix4 b n p e) = val_main_v43 (F := Ideal) x0 x1 x2 x3 x4 x5 (ix4 b n p e) + Net.neg (fun q => x1 (ix3 b n q) = 1#1) p := by
  have e1 : idx_main_v44 (idx_main_call3_v1 (ix4 b n p e)) = ix3 b n p := funext fun a => Fin.ext (by
    match a with
    | ⟨0, _⟩ => rfl
    | ⟨1, _⟩ => rfl
    | ⟨2, _⟩ => rfl)
  rw [val_main_v45_apply, val_main_call3_v1_apply, val_main_v44_apply, e1, val_main_call3_v2_apply, val_main_call3_v0_apply, val_main_cst_6_apply]
  exact select_neg_inf _ _ _ p (v4_eq_one_iff x1 b n p)

/-- The maximum over the polyline's points that are not masked out. -/
theorem pool_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (e : Fin 128) :
    val_main_v46 (F := Ideal) x0 x1 x2 x3 x4 x5 (ix3 b n e)
      = Net.pool (Net.neg (fun q => x1 (ix3 b n q) = 1#1)) (fun q d => val_main_v43 (F := Ideal) x0 x1 x2 x3 x4 x5 (ix4 b n q d)) e := by
  unfold val_main_v46
  rw [maxReduce_apply, val_main_cst_7_apply, Ideal.ofBits_def, Net.ofBits_neg_inf]
  unfold Net.pool
  simp only [masked_L0 x0 x1 x2 x3 x4 x5 x6 x7]

/-- A point's row joined with the maximum over the points. -/
theorem cat_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (k : Fin 256) :
    val_main_v49 (F := Ideal) x0 x1 x2 x3 x4 x5 (ix4 b n p k)
      = Net.cat (fun d => val_main_v43 (F := Ideal) x0 x1 x2 x3 x4 x5 (ix4 b n p d)) (fun d => val_main_v46 (F := Ideal) x0 x1 x2 x3 x4 x5 (ix3 b n d)) k := by
  have hk := k.isLt
  unfold val_main_v49 Net.cat
  split
  · next h =>
    exact concatenate_pair_apply_left 3 _ _ Gen.concatenates_S16x128x64x128_S16x128x64x128_S16x128x64x256_d3 (ix4 b n p k) rfl
      (ix4 b n p (⟨k.val, h⟩ : Fin 128)) (fun a => by
        match a with
        | ⟨0, _⟩ => rfl
        | ⟨1, _⟩ => rfl
        | ⟨2, _⟩ => rfl
        | ⟨3, _⟩ => rfl)
  · next h =>
    have e1 : idx_main_v47 (idx_main_v48 (ix4 b n p (⟨k.val - 128, by omega⟩ : Fin 128))) = ix3 b n (⟨k.val - 128, by omega⟩ : Fin 128) :=
      funext fun a => Fin.ext (by
        match a with
        | ⟨0, _⟩ => rfl
        | ⟨1, _⟩ => rfl
        | ⟨2, _⟩ => rfl)
    rw [concatenate_pair_apply_right 3 _ _ Gen.concatenates_S16x128x64x128_S16x128x64x128_S16x128x64x256_d3 (ix4 b n p k) rfl rfl
      (ix4 b n p (⟨k.val - 128, by omega⟩ : Fin 128))
      (fun a ha => by
        match a, ha with
        | ⟨0, _⟩, _ => rfl
        | ⟨1, _⟩, _ => rfl
        | ⟨2, _⟩, _ => rfl
        | ⟨3, _⟩, ha => exact absurd rfl ha)
      (by
        show k.val - 128 + 128 = k.val
        omega),
      val_main_v48_apply, val_main_v47_apply, e1]

/-- The layer at a point: the second affine map of the joined row. -/
theorem layer_L0 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v57 (F := Ideal) x0 x1 x2 x3 x4 x5 x6 x7 (ix4 b n p e)
      = Net.layer (Net.neg (fun q => x1 (ix3 b n q) = 1#1)) (fun k e => x2 (ix3 (0 : Fin 3) k e)) (fun e => x3 (ix2 (0 : Fin 3) e)) (fun e => x4 (ix2 (0 : Fin 3) e)) (fun e => x5 (ix2 (0 : Fin 3) e)) (fun k e => x6 (ix3 (0 : Fin 3) k e)) (fun e => x7 (ix2 (0 : Fin 3) e)) (fun q d => val_main_v6 (F := Ideal) x0 x1 (ix4 b n q d)) p e := by
  have e1 : ∀ k : Fin 256, lidx_main_v52 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 256, ridx_main_v52 (ix4 b n p e) k = ix2 k e := fun k => funext fun a => Fin.ext (by
    match a with
    | ⟨0, _⟩ => rfl
    | ⟨1, _⟩ => rfl)
  have hh : ∀ q : Fin 64, (fun d => val_main_v43 (F := Ideal) x0 x1 x2 x3 x4 x5 (ix4 b n q d))
      = Net.hidden (fun k e => x2 (ix3 (0 : Fin 3) k e)) (fun e => x3 (ix2 (0 : Fin 3) e)) (fun e => x4 (ix2 (0 : Fin 3) e)) (fun e => x5 (ix2 (0 : Fin 3) e)) (fun q d => val_main_v6 (F := Ideal) x0 x1 (ix4 b n q d)) q :=
    fun q => funext fun d => hidden_L0 x0 x1 x2 x3 x4 x5 x6 x7 b n q d
  have hp : (fun d => val_main_v46 (F := Ideal) x0 x1 x2 x3 x4 x5 (ix3 b n d))
      = Net.pool (Net.neg (fun q => x1 (ix3 b n q) = 1#1)) (Net.hidden (fun k e => x2 (ix3 (0 : Fin 3) k e)) (fun e => x3 (ix2 (0 : Fin 3) e)) (fun e => x4 (ix2 (0 : Fin 3) e)) (fun e => x5 (ix2 (0 : Fin 3) e)) (fun q d => val_main_v6 (F := Ideal) x0 x1 (ix4 b n q d))) :=
    funext fun d => by
      rw [pool_L0 x0 x1 x2 x3 x4 x5 x6 x7]
      exact congrArg (fun r => Net.pool (Net.neg (fun q => x1 (ix3 b n q) = 1#1)) r d) (funext fun q => hh q)
  rw [val_main_v57_apply, val_main_v52_apply, b2_L0]
  simp only [e1, e2, W2_L0, cat_L0 x0 x1 x2 x3 x4 x5 x6 x7]
  rw [hh p, hp]
  rfl

end Cert.ReferenceIdeal.RefValue

end
-- ==== Proof.RefL1.lean ====
/-
  Layer 1 of the reference at an index. Every point's row goes through the first affine map, the normalisation over
  its 128 entries, gain, offset and ramp; the rows with the masked-out points sent to minus infinity are maximised over the
  64 points; each point's row joined with that maximum goes through the second affine map. Each stage is read at
  coordinates (b, n, p, e) and identified with the network's function of the layer's input.
-/
import proofs.«143936_j68195490726566_2_alg».proof.Proof.RefB

noncomputable section

open Idealize.ShloMosaic Idealize.ShloMosaic.ValueIdx
open Cert.ReferenceIdeal Cert.ReferenceIdeal.ReadP

namespace Cert.ReferenceIdeal.RefValue

/-- The first matrix of layer 1: the argument array's slab 1. -/
theorem W1_L1 (x2 : (⟨S3x128x128, .f32⟩ : BufTy).Contents (Elt Ideal)) (k e : Fin 128) :
    val_main_v59 (F := Ideal) x2 (ix2 k e) = x2 (ix3 (1 : Fin 3) k e) := by
  rw [val_main_v59_apply, val_main_v58_apply]
  refine congrArg x2 (funext fun a => Fin.ext ?_)
  have hk := k.isLt
  have he := e.isLt
  match a with
  | ⟨0, _⟩ => rfl
  | ⟨1, _⟩ =>
    show (k.val * 128 + e.val) / 128 % 128 = k.val
    omega
  | ⟨2, _⟩ =>
    show (k.val * 128 + e.val) % 128 = e.val
    omega

/-- The second matrix of layer 1: the argument array's slab 1. -/
theorem W2_L1 (x6 : (⟨S3x256x128, .f32⟩ : BufTy).Contents (Elt Ideal)) (k : Fin 256) (e : Fin 128) :
    val_main_v102 (F := Ideal) x6 (ix2 k e) = x6 (ix3 (1 : Fin 3) k e) := by
  rw [val_main_v102_apply, val_main_v101_apply]
  refine congrArg x6 (funext fun a => Fin.ext ?_)
  have hk := k.isLt
  have he := e.isLt
  match a with
  | ⟨0, _⟩ => rfl
  | ⟨1, _⟩ =>
    show (k.val * 128 + e.val) / 128 % 256 = k.val
    omega
  | ⟨2, _⟩ =>
    show (k.val * 128 + e.val) % 128 = e.val
    omega

/-- The first offset of layer 1, broadcast over the points: the argument array's row 1. -/
theorem b1_L1 (x3 : (⟨S3x128, .f32⟩ : BufTy).Contents (Elt Ideal)) (b : Fin 16) (n : Fin 128) (p : Fin 64) (e : Fin 128) :
    val_main_v64 (F := Ideal) x3 (ix4 b n p e) = x3 (ix2 (1 : Fin 3) e) := by
  rw [val_main_v64_apply, val_main_v63_apply, val_main_v62_apply, val_main_v61_apply]
  refine congrArg x3 (funext fun a => Fin.ext ?_)
  match a with
  | ⟨0, _⟩ => rfl
  | ⟨1, _⟩ => exact Nat.mod_eq_of_lt e.isLt

/-- The gain of layer 1, broadcast over the points: the argument array's row 1. -/
theorem gain_L1 (x4 : (⟨S3x128, .f32⟩ : BufTy).Contents (Elt Ideal)) (b : Fin 16) (n : Fin 128) (p : Fin 64) (e : Fin 128) :
    val_main_v89 (F := Ideal) x4 (ix4 b n p e) = x4 (ix2 (1 : Fin 3) e) := by
  rw [val_main_v89_apply, val_main_v88_apply, val_main_v67_apply, val_main_v66_apply]
  refine congrArg x4 (funext fun a => Fin.ext ?_)
  match a with
  | ⟨0, _⟩ => rfl
  | ⟨1, _⟩ => exact Nat.mod_eq_of_lt e.isLt

/-- The offset after the gain of layer 1, broadcast over the points: the argument array's row 1. -/
theorem shift_L1 (x5 : (⟨S3x128, .f32⟩ : BufTy).Contents (Elt Ideal)) (b : Fin 16) (n : Fin 128) (p : Fin 64) (e : Fin 128) :
    val_main_v92 (F := Ideal) x5 (ix4 b n p e) = x5 (ix2 (1 : Fin 3) e) := by
  rw [val_main_v92_apply, val_main_v91_apply, val_main_v69_apply, val_main_v68_apply]
  refine congrArg x5 (funext fun a => Fin.ext ?_)
  match a with
  | ⟨0, _⟩ => rfl
  | ⟨1, _⟩ => exact Nat.mod_eq_of_lt e.isLt

/-- The second offset of layer 1, broadcast over the points: the argument array's row 1. -/
theorem b2_L1 (x7 : (⟨S3x128, .f32⟩ : BufTy).Contents (Elt Ideal)) (b : Fin 16) (n : Fin 128) (p : Fin 64) (e : Fin 128) :
    val_main_v107 (F := Ideal) x7 (ix4 b n p e) = x7 (ix2 (1 : Fin 3) e) := by
  rw [val_main_v107_apply, val_main_v106_apply, val_main_v105_apply, val_main_v104_apply]
  refine congrArg x7 (funext fun a => Fin.ext ?_)
  match a with
  | ⟨0, _⟩ => rfl
  | ⟨1, _⟩ => exact Nat.mod_eq_of_lt e.isLt

/-- The first affine map of a point's row. -/
theorem lin_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v65 (F := Ideal) x0 x1 x2 x3 x4 x5 x6 x7 (ix4 b n p e)
      = Net.lin (fun k e => x2 (ix3 (1 : Fin 3) k e)) (fun e => x3 (ix2 (1 : Fin 3) e)) (fun d => val_main_v57 (F := Ideal) x0 x1 x2 x3 x4 x5 x6 x7 (ix4 b n p d)) e := by
  have e1 : ∀ k : Fin 128, lidx_main_v60 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 128, ridx_main_v60 (ix4 b n p e) k = ix2 k e := fun k => funext fun a => Fin.ext (by
    match a with
    | ⟨0, _⟩ => rfl
    | ⟨1, _⟩ => rfl)
  rw [val_main_v65_apply, val_main_v60_apply, b1_L1]
  unfold Net.lin
  simp only [e1, e2, W1_L1, Ideal.addf_def]

/-- The mean of a point's row. -/
theorem mean_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v73 (F := Ideal) x0 x1 x2 x3 x4 x5 x6 x7 (ix4 b n p (0 : Fin 1)) = Net.mean (fun e => val_main_v65 (F := Ideal) x0 x1 x2 x3 x4 x5 x6 x7 (ix4 b n p e)) := by
  have e1 : ∀ k : Fin 128, idx_main_v70 (idx_main_v71 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v73_apply, val_main_v71_apply, val_main_v70_apply, val_main_v72_apply, val_main_cst_8_apply, val_main_cst_9_apply]
  unfold Net.mean
  simp only [e1, Ideal.hostDivf_def, Ideal.ofBits_def, Ideal.ofBits_zero_f32, zero_add]

/-- A point's row with its mean subtracted (the copy the variance is taken of). -/
theorem cen_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v75 (F := Ideal) x0 x1 x2 x3 x4 x5 x6 x7 (ix4 b n p e) = Net.cen (fun e => val_main_v65 (F := Ideal) x0 x1 x2 x3 x4 x5 x6 x7 (ix4 b n p e)) e := by
  have e1 : idx_main_v74 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v75_apply, val_main_v74_apply, e1, mean_L1 x0 x1 x2 x3 x4 x5 x6 x7]
  rfl

/-- A point's row with its mean subtracted (the copy that is normalised). -/
theorem cenb_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v82 (F := Ideal) x0 x1 x2 x3 x4 x5 x6 x7 (ix4 b n p e) = Net.cen (fun e => val_main_v65 (F := Ideal) x0 x1 x2 x3 x4 x5 x6 x7 (ix4 b n p e)) e := by
  have e1 : idx_main_v81 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v82_apply, val_main_v81_apply, e1, mean_L1 x0 x1 x2 x3 x4 x5 x6 x7]
  rfl

/-- The variance of a point's row. -/
theorem var_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v80 (F := Ideal) x0 x1 x2 x3 x4 x5 x6 x7 (ix4 b n p (0 : Fin 1)) = Net.var (fun e => val_main_v65 (F := Ideal) x0 x1 x2 x3 x4 x5 x6 x7 (ix4 b n p e)) := by
  have e1 : ∀ k : Fin 128, idx_main_v77 (idx_main_v78 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v80_apply, val_main_v78_apply, val_main_v77_apply, val_main_v79_apply, val_main_cst_10_apply, val_main_cst_11_apply]
  unfold Net.var
  simp only [e1, val_main_v76_apply, cen_L1 x0 x1 x2 x3 x4 x5 x6 x7, Ideal.hostDivf_def, Ideal.mulf_def, Ideal.ofBits_def, Ideal.ofBits_zero_f32, zero_add]

/-- The normalised row. -/
theorem norm_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v87 (F := Ideal) x0 x1 x2 x3 x4 x5 x6 x7 (ix4 b n p e) = Net.norm (fun e => val_main_v65 (F := Ideal) x0 x1 x2 x3 x4 x5 x6 x7 (ix4 b n p e)) e := by
  have e1 : idx_main_v86 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v87_apply, cenb_L1 x0 x1 x2 x3 x4 x5 x6 x7, val_main_v86_apply, e1, val_main_v85_apply, val_main_v84_apply, var_L1 x0 x1 x2 x3 x4 x5 x6 x7, val_main_v83_apply, val_main_cst_12_apply]
  rfl

/-- The first half of the layer on a point: affine map, normalisation, gain, offset and ramp. -/
theorem hidden_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v94 (F := Ideal) x0 x1 x2 x3 x4 x5 x6 x7 (ix4 b n p e)
      = Net.hidden (fun k e => x2 (ix3 (1 : Fin 3) k e)) (fun e => x3 (ix2 (1 : Fin 3) e)) (fun e => x4 (ix2 (1 : Fin 3) e)) (fun e => x5 (ix2 (1 : Fin 3) e)) (fun q d => val_main_v57 (F := Ideal) x0 x1 x2 x3 x4 x5 x6 x7 (ix4 b n q d)) p e := by
  have hl : (fun e => val_main_v65 (F := Ideal) x0 x1 x2 x3 x4 x5 x6 x7 (ix4 b n p e)) = Net.lin (fun k e => x2 (ix3 (1 : Fin 3) k e)) (fun e => x3 (ix2 (1 : Fin 3) e)) (fun d => val_main_v57 (F := Ideal) x0 x1 x2 x3 x4 x5 x6 x7 (ix4 b n p d)) :=
    funext fun e => lin_L1 x0 x1 x2 x3 x4 x5 x6 x7 b n p e
  rw [val_main_v94_apply, val_main_v93_apply, val_main_v90_apply, norm_L1 x0 x1 x2 x3 x4 x5 x6 x7, gain_L1, shift_L1, val_main_call4_v0_apply, val_main_call4_cst_apply, hl, Ideal.ofBits_def,
    Ideal.ofBits_zero_f32]
  rfl

/-- Sending a masked-out point's entry to minus infinity is adding the additive mask. -/
theorem masked_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v96 (F := Ideal) x0 x1 x2 x3 x4 x5 x6 x7 (ix4 b n p e) = val_main_v94 (F := Ideal) x0 x1 x2 x3 x4 x5 x6 x7 (ix4 b n p e) + Net.neg (fun q => x1 (ix3 b n q) = 1#1) p := by
  have e1 : idx_main_v95 (idx_main_call5_v1 (ix4 b n p e)) = ix3 b n p := funext fun a => Fin.ext (by
    match a with
    | ⟨0, _⟩ => rfl
    | ⟨1, _⟩ => rfl
    | ⟨2, _⟩ => rfl)
  rw [val_main_v96_apply, val_main_call5_v1_apply, val_main_v95_apply, e1, val_main_call5_v2_apply, val_main_call5_v0_apply, val_main_cst_13_apply]
  exact select_neg_inf _ _ _ p (v4_eq_one_iff x1 b n p)

/-- The maximum over the polyline's points that are not masked out. -/
theorem pool_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (e : Fin 128) :
    val_main_v97 (F := Ideal) x0 x1 x2 x3 x4 x5 x6 x7 (ix3 b n e)
      = Net.pool (Net.neg (fun q => x1 (ix3 b n q) = 1#1)) (fun q d => val_main_v94 (F := Ideal) x0 x1 x2 x3 x4 x5 x6 x7 (ix4 b n q d)) e := by
  unfold val_main_v97
  rw [maxReduce_apply, val_main_cst_14_apply, Ideal.ofBits_def, Net.ofBits_neg_inf]
  unfold Net.pool
  simp only [masked_L1 x0 x1 x2 x3 x4 x5 x6 x7]

/-- A point's row joined with the maximum over the points. -/
theorem cat_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (k : Fin 256) :
    val_main_v100 (F := Ideal) x0 x1 x2 x3 x4 x5 x6 x7 (ix4 b n p k)
      = Net.cat (fun d => val_main_v94 (F := Ideal) x0 x1 x2 x3 x4 x5 x6 x7 (ix4 b n p d)) (fun d => val_main_v97 (F := Ideal) x0 x1 x2 x3 x4 x5 x6 x7 (ix3 b n d)) k := by
  have hk := k.isLt
  unfold val_main_v100 Net.cat
  split
  · next h =>
    exact concatenate_pair_apply_left 3 _ _ Gen.concatenates_S16x128x64x128_S16x128x64x128_S16x128x64x256_d3 (ix4 b n p k) rfl
      (ix4 b n p (⟨k.val, h⟩ : Fin 128)) (fun a => by
        match a with
        | ⟨0, _⟩ => rfl
        | ⟨1, _⟩ => rfl
        | ⟨2, _⟩ => rfl
        | ⟨3, _⟩ => rfl)
  · next h =>
    have e1 : idx_main_v98 (idx_main_v99 (ix4 b n p (⟨k.val - 128, by omega⟩ : Fin 128))) = ix3 b n (⟨k.val - 128, by omega⟩ : Fin 128) :=
      funext fun a => Fin.ext (by
        match a with
        | ⟨0, _⟩ => rfl
        | ⟨1, _⟩ => rfl
        | ⟨2, _⟩ => rfl)
    rw [concatenate_pair_apply_right 3 _ _ Gen.concatenates_S16x128x64x128_S16x128x64x128_S16x128x64x256_d3 (ix4 b n p k) rfl rfl
      (ix4 b n p (⟨k.val - 128, by omega⟩ : Fin 128))
      (fun a ha => by
        match a, ha with
        | ⟨0, _⟩, _ => rfl
        | ⟨1, _⟩, _ => rfl
        | ⟨2, _⟩, _ => rfl
        | ⟨3, _⟩, ha => exact absurd rfl ha)
      (by
        show k.val - 128 + 128 = k.val
        omega),
      val_main_v99_apply, val_main_v98_apply, e1]

/-- The layer at a point: the second affine map of the joined row. -/
theorem layer_L1 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v108 (F := Ideal) x0 x1 x2 x3 x4 x5 x6 x7 (ix4 b n p e)
      = Net.layer (Net.neg (fun q => x1 (ix3 b n q) = 1#1)) (fun k e => x2 (ix3 (1 : Fin 3) k e)) (fun e => x3 (ix2 (1 : Fin 3) e)) (fun e => x4 (ix2 (1 : Fin 3) e)) (fun e => x5 (ix2 (1 : Fin 3) e)) (fun k e => x6 (ix3 (1 : Fin 3) k e)) (fun e => x7 (ix2 (1 : Fin 3) e)) (fun q d => val_main_v57 (F := Ideal) x0 x1 x2 x3 x4 x5 x6 x7 (ix4 b n q d)) p e := by
  have e1 : ∀ k : Fin 256, lidx_main_v103 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 256, ridx_main_v103 (ix4 b n p e) k = ix2 k e := fun k => funext fun a => Fin.ext (by
    match a with
    | ⟨0, _⟩ => rfl
    | ⟨1, _⟩ => rfl)
  have hh : ∀ q : Fin 64, (fun d => val_main_v94 (F := Ideal) x0 x1 x2 x3 x4 x5 x6 x7 (ix4 b n q d))
      = Net.hidden (fun k e => x2 (ix3 (1 : Fin 3) k e)) (fun e => x3 (ix2 (1 : Fin 3) e)) (fun e => x4 (ix2 (1 : Fin 3) e)) (fun e => x5 (ix2 (1 : Fin 3) e)) (fun q d => val_main_v57 (F := Ideal) x0 x1 x2 x3 x4 x5 x6 x7 (ix4 b n q d)) q :=
    fun q => funext fun d => hidden_L1 x0 x1 x2 x3 x4 x5 x6 x7 b n q d
  have hp : (fun d => val_main_v97 (F := Ideal) x0 x1 x2 x3 x4 x5 x6 x7 (ix3 b n d))
      = Net.pool (Net.neg (fun q => x1 (ix3 b n q) = 1#1)) (Net.hidden (fun k e => x2 (ix3 (1 : Fin 3) k e)) (fun e => x3 (ix2 (1 : Fin 3) e)) (fun e => x4 (ix2 (1 : Fin 3) e)) (fun e => x5 (ix2 (1 : Fin 3) e)) (fun q d => val_main_v57 (F := Ideal) x0 x1 x2 x3 x4 x5 x6 x7 (ix4 b n q d))) :=
    funext fun d => by
      rw [pool_L1 x0 x1 x2 x3 x4 x5 x6 x7]
      exact congrArg (fun r => Net.pool (Net.neg (fun q => x1 (ix3 b n q) = 1#1)) r d) (funext fun q => hh q)
  rw [val_main_v108_apply, val_main_v103_apply, b2_L1]
  simp only [e1, e2, W2_L1, cat_L1 x0 x1 x2 x3 x4 x5 x6 x7]
  rw [hh p, hp]
  rfl

end Cert.ReferenceIdeal.RefValue

end
-- ==== Proof.RefL2.lean ====
/-
  Layer 2 of the reference at an index. Every point's row goes through the first affine map, the normalisation over
  its 128 entries, gain, offset and ramp; the rows with the masked-out points sent to minus infinity are maximised over the
  64 points; each point's row joined with that maximum goes through the second affine map. Each stage is read at
  coordinates (b, n, p, e) and identified with the network's function of the layer's input.
-/
import proofs.«143936_j68195490726566_2_alg».proof.Proof.RefB

noncomputable section

open Idealize.ShloMosaic Idealize.ShloMosaic.ValueIdx
open Cert.ReferenceIdeal Cert.ReferenceIdeal.ReadP

namespace Cert.ReferenceIdeal.RefValue

/-- The first matrix of layer 2: the argument array's slab 2. -/
theorem W1_L2 (x2 : (⟨S3x128x128, .f32⟩ : BufTy).Contents (Elt Ideal)) (k e : Fin 128) :
    val_main_v110 (F := Ideal) x2 (ix2 k e) = x2 (ix3 (2 : Fin 3) k e) := by
  rw [val_main_v110_apply, val_main_v109_apply]
  refine congrArg x2 (funext fun a => Fin.ext ?_)
  have hk := k.isLt
  have he := e.isLt
  match a with
  | ⟨0, _⟩ => rfl
  | ⟨1, _⟩ =>
    show (k.val * 128 + e.val) / 128 % 128 = k.val
    omega
  | ⟨2, _⟩ =>
    show (k.val * 128 + e.val) % 128 = e.val
    omega

/-- The second matrix of layer 2: the argument array's slab 2. -/
theorem W2_L2 (x6 : (⟨S3x256x128, .f32⟩ : BufTy).Contents (Elt Ideal)) (k : Fin 256) (e : Fin 128) :
    val_main_v153 (F := Ideal) x6 (ix2 k e) = x6 (ix3 (2 : Fin 3) k e) := by
  rw [val_main_v153_apply, val_main_v152_apply]
  refine congrArg x6 (funext fun a => Fin.ext ?_)
  have hk := k.isLt
  have he := e.isLt
  match a with
  | ⟨0, _⟩ => rfl
  | ⟨1, _⟩ =>
    show (k.val * 128 + e.val) / 128 % 256 = k.val
    omega
  | ⟨2, _⟩ =>
    show (k.val * 128 + e.val) % 128 = e.val
    omega

/-- The first offset of layer 2, broadcast over the points: the argument array's row 2. -/
theorem b1_L2 (x3 : (⟨S3x128, .f32⟩ : BufTy).Contents (Elt Ideal)) (b : Fin 16) (n : Fin 128) (p : Fin 64) (e : Fin 128) :
    val_main_v115 (F := Ideal) x3 (ix4 b n p e) = x3 (ix2 (2 : Fin 3) e) := by
  rw [val_main_v115_apply, val_main_v114_apply, val_main_v113_apply, val_main_v112_apply]
  refine congrArg x3 (funext fun a => Fin.ext ?_)
  match a with
  | ⟨0, _⟩ => rfl
  | ⟨1, _⟩ => exact Nat.mod_eq_of_lt e.isLt

/-- The gain of layer 2, broadcast over the points: the argument array's row 2. -/
theorem gain_L2 (x4 : (⟨S3x128, .f32⟩ : BufTy).Contents (Elt Ideal)) (b : Fin 16) (n : Fin 128) (p : Fin 64) (e : Fin 128) :
    val_main_v140 (F := Ideal) x4 (ix4 b n p e) = x4 (ix2 (2 : Fin 3) e) := by
  rw [val_main_v140_apply, val_main_v139_apply, val_main_v118_apply, val_main_v117_apply]
  refine congrArg x4 (funext fun a => Fin.ext ?_)
  match a with
  | ⟨0, _⟩ => rfl
  | ⟨1, _⟩ => exact Nat.mod_eq_of_lt e.isLt

/-- The offset after the gain of layer 2, broadcast over the points: the argument array's row 2. -/
theorem shift_L2 (x5 : (⟨S3x128, .f32⟩ : BufTy).Contents (Elt Ideal)) (b : Fin 16) (n : Fin 128) (p : Fin 64) (e : Fin 128) :
    val_main_v143 (F := Ideal) x5 (ix4 b n p e) = x5 (ix2 (2 : Fin 3) e) := by
  rw [val_main_v143_apply, val_main_v142_apply, val_main_v120_apply, val_main_v119_apply]
  refine congrArg x5 (funext fun a => Fin.ext ?_)
  match a with
  | ⟨0, _⟩ => rfl
  | ⟨1, _⟩ => exact Nat.mod_eq_of_lt e.isLt

/-- The second offset of layer 2, broadcast over the points: the argument array's row 2. -/
theorem b2_L2 (x7 : (⟨S3x128, .f32⟩ : BufTy).Contents (Elt Ideal)) (b : Fin 16) (n : Fin 128) (p : Fin 64) (e : Fin 128) :
    val_main_v158 (F := Ideal) x7 (ix4 b n p e) = x7 (ix2 (2 : Fin 3) e) := by
  rw [val_main_v158_apply, val_main_v157_apply, val_main_v156_apply, val_main_v155_apply]
  refine congrArg x7 (funext fun a => Fin.ext ?_)
  match a with
  | ⟨0, _⟩ => rfl
  | ⟨1, _⟩ => exact Nat.mod_eq_of_lt e.isLt

/-- The first affine map of a point's row. -/
theorem lin_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v116 (F := Ideal) x0 x1 x2 x3 x4 x5 x6 x7 (ix4 b n p e)
      = Net.lin (fun k e => x2 (ix3 (2 : Fin 3) k e)) (fun e => x3 (ix2 (2 : Fin 3) e)) (fun d => val_main_v108 (F := Ideal) x0 x1 x2 x3 x4 x5 x6 x7 (ix4 b n p d)) e := by
  have e1 : ∀ k : Fin 128, lidx_main_v111 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 128, ridx_main_v111 (ix4 b n p e) k = ix2 k e := fun k => funext fun a => Fin.ext (by
    match a with
    | ⟨0, _⟩ => rfl
    | ⟨1, _⟩ => rfl)
  rw [val_main_v116_apply, val_main_v111_apply, b1_L2]
  unfold Net.lin
  simp only [e1, e2, W1_L2, Ideal.addf_def]

/-- The mean of a point's row. -/
theorem mean_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v124 (F := Ideal) x0 x1 x2 x3 x4 x5 x6 x7 (ix4 b n p (0 : Fin 1)) = Net.mean (fun e => val_main_v116 (F := Ideal) x0 x1 x2 x3 x4 x5 x6 x7 (ix4 b n p e)) := by
  have e1 : ∀ k : Fin 128, idx_main_v121 (idx_main_v122 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v124_apply, val_main_v122_apply, val_main_v121_apply, val_main_v123_apply, val_main_cst_15_apply, val_main_cst_16_apply]
  unfold Net.mean
  simp only [e1, Ideal.hostDivf_def, Ideal.ofBits_def, Ideal.ofBits_zero_f32, zero_add]

/-- A point's row with its mean subtracted (the copy the variance is taken of). -/
theorem cen_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v126 (F := Ideal) x0 x1 x2 x3 x4 x5 x6 x7 (ix4 b n p e) = Net.cen (fun e => val_main_v116 (F := Ideal) x0 x1 x2 x3 x4 x5 x6 x7 (ix4 b n p e)) e := by
  have e1 : idx_main_v125 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v126_apply, val_main_v125_apply, e1, mean_L2 x0 x1 x2 x3 x4 x5 x6 x7]
  rfl

/-- A point's row with its mean subtracted (the copy that is normalised). -/
theorem cenb_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v133 (F := Ideal) x0 x1 x2 x3 x4 x5 x6 x7 (ix4 b n p e) = Net.cen (fun e => val_main_v116 (F := Ideal) x0 x1 x2 x3 x4 x5 x6 x7 (ix4 b n p e)) e := by
  have e1 : idx_main_v132 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v133_apply, val_main_v132_apply, e1, mean_L2 x0 x1 x2 x3 x4 x5 x6 x7]
  rfl

/-- The variance of a point's row. -/
theorem var_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) :
    val_main_v131 (F := Ideal) x0 x1 x2 x3 x4 x5 x6 x7 (ix4 b n p (0 : Fin 1)) = Net.var (fun e => val_main_v116 (F := Ideal) x0 x1 x2 x3 x4 x5 x6 x7 (ix4 b n p e)) := by
  have e1 : ∀ k : Fin 128, idx_main_v128 (idx_main_v129 (ix4 b n p (0 : Fin 1))) k = ix4 b n p k := fun k => funext fun a => Fin.ext (by
    match a with
    | ⟨0, _⟩ => rfl
    | ⟨1, _⟩ => rfl
    | ⟨2, _⟩ => rfl
    | ⟨3, _⟩ => rfl)
  rw [val_main_v131_apply, val_main_v129_apply, val_main_v128_apply, val_main_v130_apply, val_main_cst_17_apply, val_main_cst_18_apply]
  unfold Net.var
  simp only [e1, val_main_v127_apply, cen_L2 x0 x1 x2 x3 x4 x5 x6 x7, Ideal.hostDivf_def, Ideal.mulf_def, Ideal.ofBits_def, Ideal.ofBits_zero_f32, zero_add]

/-- The normalised row. -/
theorem norm_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v138 (F := Ideal) x0 x1 x2 x3 x4 x5 x6 x7 (ix4 b n p e) = Net.norm (fun e => val_main_v116 (F := Ideal) x0 x1 x2 x3 x4 x5 x6 x7 (ix4 b n p e)) e := by
  have e1 : idx_main_v137 (ix4 b n p e) = ix4 b n p (0 : Fin 1) := funext fun a => Fin.ext (by
    match a with
    | ⟨0, _⟩ => rfl
    | ⟨1, _⟩ => rfl
    | ⟨2, _⟩ => rfl
    | ⟨3, _⟩ => rfl)
  rw [val_main_v138_apply, cenb_L2 x0 x1 x2 x3 x4 x5 x6 x7, val_main_v137_apply, e1, val_main_v136_apply, val_main_v135_apply, var_L2 x0 x1 x2 x3 x4 x5 x6 x7, val_main_v134_apply, val_main_cst_19_apply]
  rfl

/-- The first half of the layer on a point: affine map, normalisation, gain, offset and ramp. -/
theorem hidden_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v145 (F := Ideal) x0 x1 x2 x3 x4 x5 x6 x7 (ix4 b n p e)
      = Net.hidden (fun k e => x2 (ix3 (2 : Fin 3) k e)) (fun e => x3 (ix2 (2 : Fin 3) e)) (fun e => x4 (ix2 (2 : Fin 3) e)) (fun e => x5 (ix2 (2 : Fin 3) e)) (fun q d => val_main_v108 (F := Ideal) x0 x1 x2 x3 x4 x5 x6 x7 (ix4 b n q d)) p e := by
  have hl : (fun e => val_main_v116 (F := Ideal) x0 x1 x2 x3 x4 x5 x6 x7 (ix4 b n p e)) = Net.lin (fun k e => x2 (ix3 (2 : Fin 3) k e)) (fun e => x3 (ix2 (2 : Fin 3) e)) (fun d => val_main_v108 (F := Ideal) x0 x1 x2 x3 x4 x5 x6 x7 (ix4 b n p d)) :=
    funext fun e => lin_L2 x0 x1 x2 x3 x4 x5 x6 x7 b n p e
  rw [val_main_v145_apply, val_main_v144_apply, val_main_v141_apply, norm_L2 x0 x1 x2 x3 x4 x5 x6 x7, gain_L2, shift_L2, val_main_call6_v0_apply, val_main_call6_cst_apply, hl, Ideal.ofBits_def,
    Ideal.ofBits_zero_f32]
  rfl

/-- Sending a masked-out point's entry to minus infinity is adding the additive mask. -/
theorem masked_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v147 (F := Ideal) x0 x1 x2 x3 x4 x5 x6 x7 (ix4 b n p e) = val_main_v145 (F := Ideal) x0 x1 x2 x3 x4 x5 x6 x7 (ix4 b n p e) + Net.neg (fun q => x1 (ix3 b n q) = 1#1) p := by
  have e1 : idx_main_v146 (idx_main_call7_v1 (ix4 b n p e)) = ix3 b n p := funext fun a => Fin.ext (by
    match a with
    | ⟨0, _⟩ => rfl
    | ⟨1, _⟩ => rfl
    | ⟨2, _⟩ => rfl)
  rw [val_main_v147_apply, val_main_call7_v1_apply, val_main_v146_apply, e1, val_main_call7_v2_apply, val_main_call7_v0_apply, val_main_cst_20_apply]
  exact select_neg_inf _ _ _ p (v4_eq_one_iff x1 b n p)

/-- The maximum over the polyline's points that are not masked out. -/
theorem pool_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (e : Fin 128) :
    val_main_v148 (F := Ideal) x0 x1 x2 x3 x4 x5 x6 x7 (ix3 b n e)
      = Net.pool (Net.neg (fun q => x1 (ix3 b n q) = 1#1)) (fun q d => val_main_v145 (F := Ideal) x0 x1 x2 x3 x4 x5 x6 x7 (ix4 b n q d)) e := by
  unfold val_main_v148
  rw [maxReduce_apply, val_main_cst_21_apply, Ideal.ofBits_def, Net.ofBits_neg_inf]
  unfold Net.pool
  simp only [masked_L2 x0 x1 x2 x3 x4 x5 x6 x7]

/-- A point's row joined with the maximum over the points. -/
theorem cat_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (k : Fin 256) :
    val_main_v151 (F := Ideal) x0 x1 x2 x3 x4 x5 x6 x7 (ix4 b n p k)
      = Net.cat (fun d => val_main_v145 (F := Ideal) x0 x1 x2 x3 x4 x5 x6 x7 (ix4 b n p d)) (fun d => val_main_v148 (F := Ideal) x0 x1 x2 x3 x4 x5 x6 x7 (ix3 b n d)) k := by
  have hk := k.isLt
  unfold val_main_v151 Net.cat
  split
  · next h =>
    exact concatenate_pair_apply_left 3 _ _ Gen.concatenates_S16x128x64x128_S16x128x64x128_S16x128x64x256_d3 (ix4 b n p k) rfl
      (ix4 b n p (⟨k.val, h⟩ : Fin 128)) (fun a => by
        match a with
        | ⟨0, _⟩ => rfl
        | ⟨1, _⟩ => rfl
        | ⟨2, _⟩ => rfl
        | ⟨3, _⟩ => rfl)
  · next h =>
    have e1 : idx_main_v149 (idx_main_v150 (ix4 b n p (⟨k.val - 128, by omega⟩ : Fin 128))) = ix3 b n (⟨k.val - 128, by omega⟩ : Fin 128) :=
      funext fun a => Fin.ext (by
        match a with
        | ⟨0, _⟩ => rfl
        | ⟨1, _⟩ => rfl
        | ⟨2, _⟩ => rfl)
    rw [concatenate_pair_apply_right 3 _ _ Gen.concatenates_S16x128x64x128_S16x128x64x128_S16x128x64x256_d3 (ix4 b n p k) rfl rfl
      (ix4 b n p (⟨k.val - 128, by omega⟩ : Fin 128))
      (fun a ha => by
        match a, ha with
        | ⟨0, _⟩, _ => rfl
        | ⟨1, _⟩, _ => rfl
        | ⟨2, _⟩, _ => rfl
        | ⟨3, _⟩, ha => exact absurd rfl ha)
      (by
        show k.val - 128 + 128 = k.val
        omega),
      val_main_v150_apply, val_main_v149_apply, e1]

/-- The layer at a point: the second affine map of the joined row. -/
theorem layer_L2 (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v159 (F := Ideal) x0 x1 x2 x3 x4 x5 x6 x7 (ix4 b n p e)
      = Net.layer (Net.neg (fun q => x1 (ix3 b n q) = 1#1)) (fun k e => x2 (ix3 (2 : Fin 3) k e)) (fun e => x3 (ix2 (2 : Fin 3) e)) (fun e => x4 (ix2 (2 : Fin 3) e)) (fun e => x5 (ix2 (2 : Fin 3) e)) (fun k e => x6 (ix3 (2 : Fin 3) k e)) (fun e => x7 (ix2 (2 : Fin 3) e)) (fun q d => val_main_v108 (F := Ideal) x0 x1 x2 x3 x4 x5 x6 x7 (ix4 b n q d)) p e := by
  have e1 : ∀ k : Fin 256, lidx_main_v154 (ix4 b n p e) k = ix4 b n p k := fun k => funext fun a => Fin.ext (by
    match a with
    | ⟨0, _⟩ => rfl
    | ⟨1, _⟩ => rfl
    | ⟨2, _⟩ => rfl
    | ⟨3, _⟩ => rfl)
  have e2 : ∀ k : Fin 256, ridx_main_v154 (ix4 b n p e) k = ix2 k e := fun k => funext fun a => Fin.ext (by
    match a with
    | ⟨0, _⟩ => rfl
    | ⟨1, _⟩ => rfl)
  have hh : ∀ q : Fin 64, (fun d => val_main_v145 (F := Ideal) x0 x1 x2 x3 x4 x5 x6 x7 (ix4 b n q d))
      = Net.hidden (fun k e => x2 (ix3 (2 : Fin 3) k e)) (fun e => x3 (ix2 (2 : Fin 3) e)) (fun e => x4 (ix2 (2 : Fin 3) e)) (fun e => x5 (ix2 (2 : Fin 3) e)) (fun q d => val_main_v108 (F := Ideal) x0 x1 x2 x3 x4 x5 x6 x7 (ix4 b n q d)) q :=
    fun q => funext fun d => hidden_L2 x0 x1 x2 x3 x4 x5 x6 x7 b n q d
  have hp : (fun d => val_main_v148 (F := Ideal) x0 x1 x2 x3 x4 x5 x6 x7 (ix3 b n d))
      = Net.pool (Net.neg (fun q => x1 (ix3 b n q) = 1#1)) (Net.hidden (fun k e => x2 (ix3 (2 : Fin 3) k e)) (fun e => x3 (ix2 (2 : Fin 3) e)) (fun e => x4 (ix2 (2 : Fin 3) e)) (fun e => x5 (ix2 (2 : Fin 3) e)) (fun q d => val_main_v108 (F := Ideal) x0 x1 x2 x3 x4 x5 x6 x7 (ix4 b n q d))) :=
    funext fun d => by
      rw [pool_L2 x0 x1 x2 x3 x4 x5 x6 x7]
      exact congrArg (fun r => Net.pool (Net.neg (fun q => x1 (ix3 b n q) = 1#1)) r d) (funext fun q => hh q)
  rw [val_main_v159_apply, val_main_v154_apply, b2_L2]
  simp only [e1, e2, W2_L2, cat_L2 x0 x1 x2 x3 x4 x5 x6 x7]
  rw [hh p, hp]
  rfl

end Cert.ReferenceIdeal.RefValue

end
-- ==== Proof.RefValue.lean ====
/-
  The reference's result at an index is the network. After the third layer the rows with the masked-out points sent to
  minus infinity are maximised over the 64 points, and the result is zeroed on a polyline with no valid point; the three
  layers, each the network's layer of the one before, start from the input array zeroed on such a polyline.
-/
import proofs.«143936_j68195490726566_2_alg».proof.Proof.RefL0
import proofs.«143936_j68195490726566_2_alg».proof.Proof.RefL1
import proofs.«143936_j68195490726566_2_alg».proof.Proof.RefL2

noncomputable section

open Idealize.ShloMosaic Idealize.ShloMosaic.ValueIdx
open Cert.ReferenceIdeal Cert.ReferenceIdeal.ReadP

namespace Cert.ReferenceIdeal.RefValue

/-- After the last layer: sending a masked-out point's entry to minus infinity is adding the additive mask. -/
theorem maskedEnd (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (p : Fin 64) (e : Fin 128) :
    val_main_v161 (F := Ideal) x0 x1 x2 x3 x4 x5 x6 x7 (ix4 b n p e) = val_main_v159 (F := Ideal) x0 x1 x2 x3 x4 x5 x6 x7 (ix4 b n p e) + Net.neg (fun q => x1 (ix3 b n q) = 1#1) p := by
  have e1 : idx_main_v160 (idx_main_call8_v1 (ix4 b n p e)) = ix3 b n p := funext fun a => Fin.ext (by
    match a with
    | ⟨0, _⟩ => rfl
    | ⟨1, _⟩ => rfl
    | ⟨2, _⟩ => rfl)
  rw [val_main_v161_apply, val_main_call8_v1_apply, val_main_v160_apply, e1, val_main_call8_v2_apply, val_main_call8_v0_apply,
    val_main_cst_22_apply]
  exact select_neg_inf _ _ _ p (v4_eq_one_iff x1 b n p)

/-- The final maximum over the polyline's points that are not masked out. -/
theorem poolEnd (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (e : Fin 128) :
    val_main_v162 (F := Ideal) x0 x1 x2 x3 x4 x5 x6 x7 (ix3 b n e) = Net.pool (Net.neg (fun q => x1 (ix3 b n q) = 1#1)) (fun q d => val_main_v159 (F := Ideal) x0 x1 x2 x3 x4 x5 x6 x7 (ix4 b n q d)) e := by
  unfold val_main_v162
  rw [maxReduce_apply, val_main_cst_23_apply, Ideal.ofBits_def, Net.ofBits_neg_inf]
  unfold Net.pool
  simp only [maskedEnd]

/-- The result: the final maximum, zeroed on a polyline with no valid point. -/
theorem endValue (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) (b : Fin 16) (n : Fin 128) (e : Fin 128) :
    val_main_v164 (F := Ideal) x0 x1 x2 x3 x4 x5 x6 x7 (ix3 b n e) = Net.pool (Net.neg (fun q => x1 (ix3 b n q) = 1#1)) (fun q d => val_main_v159 (F := Ideal) x0 x1 x2 x3 x4 x5 x6 x7 (ix4 b n q d)) e * Net.pv (fun q => x1 (ix3 b n q) = 1#1) := by
  have e1 : idx_main_v163 (idx_main_call9_v1 (ix3 b n e)) = ix2 b n := funext fun a => Fin.ext (by
    match a with
    | ⟨0, _⟩ => rfl
    | ⟨1, _⟩ => rfl)
  rw [val_main_v164_apply, val_main_call9_v1_apply, val_main_v163_apply, e1, val_main_call9_v2_apply, val_main_call9_v0_apply,
    val_main_cst_24_apply, poolEnd]
  exact select_zero_word _ _ _ (v2_eq_one_iff x1 b n)

/-- The reference's result array is the network's, entry by entry. -/
theorem ref_value (x0 : (⟨S16x128x64x128, .f32⟩ : BufTy).Contents (Elt Ideal)) (x1 : (⟨S16x128x64, .i1⟩ : BufTy).Contents (Elt Ideal)) (x2 : (⟨S3x128x128, .f32⟩ : BufTy).Contents (Elt Ideal)) (x3 x4 x5 : (⟨S3x128, .f32⟩ : BufTy).Contents (Elt Ideal)) (x6 : (⟨S3x256x128, .f32⟩ : BufTy).Contents (Elt Ideal)) (x7 : (⟨S3x128, .f32⟩ : BufTy).Contents (Elt Ideal)) :
    Cert.ReferenceIdeal.ReadP.val_main_v164 (F := Ideal) x0 x1 x2 x3 x4 x5 x6 x7 = Cert.Net.G x0 x1 x2 x3 x4 x5 x6 x7 := by
  funext j
  obtain ⟨b, n, e, rfl⟩ : ∃ (b : Fin 16) (n : Fin 128) (e : Fin 128), j = ix3 b n e := ⟨j 0, j 1, j 2, eq_ix3 j⟩
  have h0 : (fun q d => val_main_v6 (F := Ideal) x0 x1 (ix4 b n q d)) = (fun q d => x0 (ix4 b n q d) * Net.pv (fun q => x1 (ix3 b n q) = 1#1)) :=
    funext fun q => funext fun d => v6_apply x0 x1 b n q d
  have h1 : (fun q d => val_main_v57 (F := Ideal) x0 x1 x2 x3 x4 x5 x6 x7 (ix4 b n q d)) = Net.layer (Net.neg (fun q => x1 (ix3 b n q) = 1#1)) (fun k e => x2 (ix3 (0 : Fin 3) k e)) (fun e => x3 (ix2 (0 : Fin 3) e)) (fun e => x4 (ix2 (0 : Fin 3) e)) (fun e => x5 (ix2 (0 : Fin 3) e)) (fun k e => x6 (ix3 (0 : Fin 3) k e)) (fun e => x7 (ix2 (0 : Fin 3) e)) (fun q d => val_main_v6 (F := Ideal) x0 x1 (ix4 b n q d)) :=
    funext fun q => funext fun d => layer_L0 x0 x1 x2 x3 x4 x5 x6 x7 b n q d
  have h2 : (fun q d => val_main_v108 (F := Ideal) x0 x1 x2 x3 x4 x5 x6 x7 (ix4 b n q d)) = Net.layer (Net.neg (fun q => x1 (ix3 b n q) = 1#1)) (fun k e => x2 (ix3 (1 : Fin 3) k e)) (fun e => x3 (ix2 (1 : Fin 3) e)) (fun e => x4 (ix2 (1 : Fin 3) e)) (fun e => x5 (ix2 (1 : Fin 3) e)) (fun k e => x6 (ix3 (1 : Fin 3) k e)) (fun e => x7 (ix2 (1 : Fin 3) e)) (fun q d => val_main_v57 (F := Ideal) x0 x1 x2 x3 x4 x5 x6 x7 (ix4 b n q d)) :=
    funext fun q => funext fun d => layer_L1 x0 x1 x2 x3 x4 x5 x6 x7 b n q d
  have h3 : (fun q d => val_main_v159 (F := Ideal) x0 x1 x2 x3 x4 x5 x6 x7 (ix4 b n q d)) = Net.layer (Net.neg (fun q => x1 (ix3 b n q) = 1#1)) (fun k e => x2 (ix3 (2 : Fin 3) k e)) (fun e => x3 (ix2 (2 : Fin 3) e)) (fun e => x4 (ix2 (2 : Fin 3) e)) (fun e => x5 (ix2 (2 : Fin 3) e)) (fun k e => x6 (ix3 (2 : Fin 3) k e)) (fun e => x7 (ix2 (2 : Fin 3) e)) (fun q d => val_main_v108 (F := Ideal) x0 x1 x2 x3 x4 x5 x6 x7 (ix4 b n q d)) :=
    funext fun q => funext fun d => layer_L2 x0 x1 x2 x3 x4 x5 x6 x7 b n q d
  rw [endValue, h3, h2, h1, h0]
  rfl

end Cert.ReferenceIdeal.RefValue

end
-- ==== Proof.RefFold.lean ====
/- A table, one row per operation of the reference's list `ops` (RefOps.lean), in order. For the operation writing buffer `r`:
   `b_r` is the Read module's definition body of the stage `val_r`, as a function of the operands' contents; `res_r` says the
   operation's result at `r` is `b_r` of the contents at the operands' buffers; `fold_r` says `b_r` at the operands' stage values
   is the stage value `val_r`. The tactic `ref_fold_simp` rewrites with every row, and with the fact that an operation leaves
   every buffer other than its own as it was. -/
import proofs.«143936_j68195490726566_2_alg».proof.Proof.RefOps
import proofs.«143936_j68195490726566_2_alg».proof.Proof.RefReadP

noncomputable section

namespace Cert.ReferenceIdeal.RefFold

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

def b_main_v0 (u0 : (⟨S16x128x64, .i1⟩ : BufTy).Contents (Elt F)) : (⟨S16x128x64, .i1⟩ : BufTy).Contents (Elt F) :=
  noti u0
theorem res_main_v0 (V : Valuation τ sig (Elt F)) :
    (unary main_arg1 main_v0 (no_index ((noti : (⟨S16x128x64, .i1⟩ : BufTy).Contents (Elt F) → (⟨S16x128x64, .i1⟩ : BufTy).Contents (Elt F)))) : HloOp τ sig (Elt F)).result V (no_index (Proc.devRef .tc main_v0))
      = b_main_v0 (F := F) (V (Proc.devRef .tc main_arg1)) :=
  (unary_result' _ _ _ V).trans rfl
theorem fold_main_v0 (x1 : (⟨S16x128x64, .i1⟩ : BufTy).Contents (Elt F)) :
    b_main_v0 (F := F) x1 = val_main_v0 (F := F) x1 := rfl

def b_main_c : (⟨S_, .i1⟩ : BufTy).Contents (Elt F) :=
  constantI S_ 1 1#1
theorem res_main_c (V : Valuation τ sig (Elt F)) :
    (nullary main_c (no_index ((constantI S_ 1 1#1))) : HloOp τ sig (Elt F)).result V (no_index (Proc.devRef .tc main_c))
      = b_main_c (F := F) :=
  (nullary_result' _ _ V).trans rfl
theorem fold_main_c :
    b_main_c (F := F) = val_main_c (F := F) := rfl

def b_main_v1 (u0 : (⟨S16x128x64, .i1⟩ : BufTy).Contents (Elt F)) (u1 : (⟨S_, .i1⟩ : BufTy).Contents (Elt F)) : (⟨S16x128, .i1⟩ : BufTy).Contents (Elt F) :=
  Host.reduce IntOp.andi u0 u1 reducesTo_S16x128x64_S16x128_d2 h_S_
theorem res_main_v1 (V : Valuation τ sig (Elt F)) :
    (binary main_v0 main_c main_v1 (no_index (((fun x v => Host.reduce IntOp.andi x v reducesTo_S16x128x64_S16x128_d2 h_S_) : (⟨S16x128x64, .i1⟩ : BufTy).Contents (Elt F) → (⟨S_, .i1⟩ : BufTy).Contents (Elt F) → (⟨S16x128, .i1⟩ : BufTy).Contents (Elt F)))) : HloOp τ sig (Elt F)).result V (no_index (Proc.devRef .tc main_v1))
      = b_main_v1 (F := F) (V (Proc.devRef .tc main_v0)) (V (Proc.devRef .tc main_c)) :=
  (binary_result' _ _ _ _ V).trans rfl
theorem fold_main_v1 (x1 : (⟨S16x128x64, .i1⟩ : BufTy).Contents (Elt F)) :
    b_main_v1 (F := F) (val_main_v0 (F := F) x1) (val_main_c (F := F)) = val_main_v1 (F := F) x1 := rfl

def b_main_v2 (u0 : (⟨S16x128, .i1⟩ : BufTy).Contents (Elt F)) : (⟨S16x128, .i1⟩ : BufTy).Contents (Elt F) :=
  noti u0
theorem res_main_v2 (V : Valuation τ sig (Elt F)) :
    (unary main_v1 main_v2 (no_index ((noti : (⟨S16x128, .i1⟩ : BufTy).Contents (Elt F) → (⟨S16x128, .i1⟩ : BufTy).Contents (Elt F)))) : HloOp τ sig (Elt F)).result V (no_index (Proc.devRef .tc main_v2))
      = b_main_v2 (F := F) (V (Proc.devRef .tc main_v1)) :=
  (unary_result' _ _ _ V).trans rfl
theorem fold_main_v2 (x1 : (⟨S16x128x64, .i1⟩ : BufTy).Contents (Elt F)) :
    b_main_v2 (F := F) (val_main_v1 (F := F) x1) = val_main_v2 (F := F) x1 := rfl

def b_main_v3 (u0 : (⟨S16x128, .i1⟩ : BufTy).Contents (Elt F)) : (⟨S16x128x1, .i1⟩ : BufTy).Contents (Elt F) :=
  broadcastInDim S16x128x1 ![0, 1] bcast_S16x128_S16x128x1_0_1 u0
theorem res_main_v3 (V : Valuation τ sig (Elt F)) :
    (unary main_v2 main_v3 (no_index ((broadcastInDim S16x128x1 ![0, 1] bcast_S16x128_S16x128x1_0_1 : (⟨S16x128, .i1⟩ : BufTy).Contents (Elt F) → (⟨S16x128x1, .i1⟩ : BufTy).Contents (Elt F)))) : HloOp τ sig (Elt F)).result V (no_index (Proc.devRef .tc main_v3))
      = b_main_v3 (F := F) (V (Proc.devRef .tc main_v2)) :=
  (unary_result' _ _ _ V).trans rfl
theorem fold_main_v3 (x1 : (⟨S16x128x64, .i1⟩ : BufTy).Contents (Elt F)) :
    b_main_v3 (F := F) (val_main_v2 (F := F) x1) = val_main_v3 (F := F) x1 := rfl

def b_main_c_0 : (⟨S_, .i1⟩ : BufTy).Contents (Elt F) :=
  constantI S_ 1 0#1
theorem res_main_c_0 (V : Valuation τ sig (Elt F)) :
    (nullary main_c_0 (no_index ((constantI S_ 1 0#1))) : HloOp τ sig (Elt F)).result V (no_index (Proc.devRef .tc main_c_0))
      = b_main_c_0 (F := F) :=
  (nullary_result' _ _ V).trans rfl
theorem fold_main_c_0 :
    b_main_c_0 (F := F) = val_main_c_0 (F := F) := rfl

def b_main_call0_v0 (u0 : (⟨S16x128x1, .i1⟩ : BufTy).Contents (Elt F)) : (⟨S16x128x64, .i1⟩ : BufTy).Contents (Elt F) :=
  broadcastInDim S16x128x64 ![0, 1, 2] bcast_S16x128x1_S16x128x64_0_1_2 u0
theorem res_main_call0_v0 (V : Valuation τ sig (Elt F)) :
    (TRef.unary (TRef.of (T := ⟨S16x128x1, .i1⟩) main_v3) (TRef.of (T := ⟨S16x128x64, .i1⟩) main_call0_v0) (no_index ((broadcastInDim S16x128x64 ![0, 1, 2] bcast_S16x128x1_S16x128x64_0_1_2))) : HloOp τ sig (Elt F)).result V (no_index (Proc.devRef .tc main_call0_v0))
      = b_main_call0_v0 (F := F) (V (Proc.devRef .tc main_v3)) :=
  (unary_result' _ _ _ V).trans rfl
theorem fold_main_call0_v0 (x1 : (⟨S16x128x64, .i1⟩ : BufTy).Contents (Elt F)) :
    b_main_call0_v0 (F := F) (val_main_v3 (F := F) x1) = val_main_call0_v0 (F := F) x1 := rfl

def b_main_call0_v1 (u0 : (⟨S_, .i1⟩ : BufTy).Contents (Elt F)) : (⟨S16x128x64, .i1⟩ : BufTy).Contents (Elt F) :=
  broadcastInDim S16x128x64 ![] bcast_S_S16x128x64 u0
theorem res_main_call0_v1 (V : Valuation τ sig (Elt F)) :
    (TRef.unary (TRef.of (T := ⟨S_, .i1⟩) main_c_0) (TRef.of (T := ⟨S16x128x64, .i1⟩) main_call0_v1) (no_index ((broadcastInDim S16x128x64 ![] bcast_S_S16x128x64))) : HloOp τ sig (Elt F)).result V (no_index (Proc.devRef .tc main_call0_v1))
      = b_main_call0_v1 (F := F) (V (Proc.devRef .tc main_c_0)) :=
  (unary_result' _ _ _ V).trans rfl
theorem fold_main_call0_v1 :
    b_main_call0_v1 (F := F) (val_main_c_0 (F := F)) = val_main_call0_v1 (F := F) := rfl

def b_main_v4 (u0 : (⟨S16x128x64, .i1⟩ : BufTy).Contents (Elt F)) (u1 : (⟨S16x128x64, .i1⟩ : BufTy).Contents (Elt F)) (u2 : (⟨S16x128x64, .i1⟩ : BufTy).Contents (Elt F)) : (⟨S16x128x64, .i1⟩ : BufTy).Contents (Elt F) :=
  select u0 u1 u2
theorem res_main_v4 (V : Valuation τ sig (Elt F)) :
    (TRef.ternary (TRef.of (T := ⟨S16x128x64, .i1⟩) main_call0_v0) (TRef.of (T := ⟨S16x128x64, .i1⟩) main_v0) (TRef.of (T := ⟨S16x128x64, .i1⟩) main_call0_v1) (TRef.of (T := ⟨S16x128x64, .i1⟩) main_v4) (no_index (select)) : HloOp τ sig (Elt F)).result V (no_index (Proc.devRef .tc main_v4))
      = b_main_v4 (F := F) (V (Proc.devRef .tc main_call0_v0)) (V (Proc.devRef .tc main_v0)) (V (Proc.devRef .tc main_call0_v1)) :=
  (ternary_result' _ _ _ _ _ V).trans rfl
theorem fold_main_v4 (x1 : (⟨S16x128x64, .i1⟩ : BufTy).Contents (Elt F)) :
    b_main_v4 (F := F) (val_main_call0_v0 (F := F) x1) (val_main_v0 (F := F) x1) (val_main_call0_v1 (F := F)) = val_main_v4 (F := F) x1 := rfl

def b_main_v5 (u0 : (⟨S16x128, .i1⟩ : BufTy).Contents (Elt F)) : (⟨S16x128x1x1, .i1⟩ : BufTy).Contents (Elt F) :=
  broadcastInDim S16x128x1x1 ![0, 1] bcast_S16x128_S16x128x1x1_0_1 u0
theorem res_main_v5 (V : Valuation τ sig (Elt F)) :
    (unary main_v2 main_v5 (no_index ((broadcastInDim S16x128x1x1 ![0, 1] bcast_S16x128_S16x128x1x1_0_1 : (⟨S16x128, .i1⟩ : BufTy).Contents (Elt F) → (⟨S16x128x1x1, .i1⟩ : BufTy).Contents (Elt F)))) : HloOp τ sig (Elt F)).result V (no_index (Proc.devRef .tc main_v5))
      = b_main_v5 (F := F) (V (Proc.devRef .tc main_v2)) :=
  (unary_result' _ _ _ V).trans rfl
theorem fold_main_v5 (x1 : (⟨S16x128x64, .i1⟩ : BufTy).Contents (Elt F)) :
    b_main_v5 (F := F) (val_main_v2 (F := F) x1) = val_main_v5 (F := F) x1 := rfl

def b_main_cst : (⟨S_, .f32⟩ : BufTy).Contents (Elt F) :=
  constant S_ .f32 0x00000000#32
theorem res_main_cst (V : Valuation τ sig (Elt F)) :
    (nullary main_cst (no_index ((constant S_ .f32 0x00000000#32))) : HloOp τ sig (Elt F)).result V (no_index (Proc.devRef .tc main_cst))
      = b_main_cst (F := F) :=
  (nullary_result' _ _ V).trans rfl
theorem fold_main_cst :
    b_main_cst (F := F) = val_main_cst (F := F) := rfl

def b_main_call1_v0 (u0 : (⟨S_, .f32⟩ : BufTy).Contents (Elt F)) : (⟨S_, .f32⟩ : BufTy).Contents (Elt F) :=
  id u0
theorem res_main_call1_v0 (V : Valuation τ sig (Elt F)) :
    (TRef.unary (TRef.of (T := ⟨S_, .f32⟩) main_cst) (TRef.of (T := ⟨S_, .f32⟩) main_call1_v0) (no_index (id)) : HloOp τ sig (Elt F)).result V (no_index (Proc.devRef .tc main_call1_v0))
      = b_main_call1_v0 (F := F) (V (Proc.devRef .tc main_cst)) :=
  (unary_result' _ _ _ V).trans rfl
theorem fold_main_call1_v0 :
    b_main_call1_v0 (F := F) (val_main_cst (F := F)) = val_main_call1_v0 (F := F) := rfl

def b_main_call1_v1 (u0 : (⟨S16x128x1x1, .i1⟩ : BufTy).Contents (Elt F)) : (⟨S16x128x64x128, .i1⟩ : BufTy).Contents (Elt F) :=
  broadcastInDim S16x128x64x128 ![0, 1, 2, 3] bcast_S16x128x1x1_S16x128x64x128_0_1_2_3 u0
theorem res_main_call1_v1 (V : Valuation τ sig (Elt F)) :
    (TRef.unary (TRef.of (T := ⟨S16x128x1x1, .i1⟩) main_v5) (TRef.of (T := ⟨S16x128x64x128, .i1⟩) main_call1_v1) (no_index ((broadcastInDim S16x128x64x128 ![0, 1, 2, 3] bcast_S16x128x1x1_S16x128x64x128_0_1_2_3))) : HloOp τ sig (Elt F)).result V (no_index (Proc.devRef .tc main_call1_v1))
      = b_main_call1_v1 (F := F) (V (Proc.devRef .tc main_v5)) :=
  (unary_result' _ _ _ V).trans rfl
theorem fold_main_call1_v1 (x1 : (⟨S16x128x64, .i1⟩ : BufTy).Contents (Elt F)) :
    b_main_call1_v1 (F := F) (val_main_v5 (F := F) x1) = val_main_call1_v1 (F := F) x1 := rfl

def b_main_call1_v2 (u0 : (⟨S_, .f32⟩ : BufTy).Contents (Elt F)) : (⟨S16x128x64x128, .f32⟩ : BufTy).Contents (Elt F) :=
  broadcastInDim S16x128x64x128 ![] bcast_S_S16x128x64x128 u0
theorem res_main_call1_v2 (V : Valuation τ sig (Elt F)) :
    (TRef.unary (TRef.of (T := ⟨S_, .f32⟩) main_call1_v0) (TRef.of (T := ⟨S16x128x64x128, .f32⟩) main_call1_v2) (no_index ((broadcastInDim S16x128x64x128 ![] bcast_S_S16x128x64x128))) : HloOp τ sig (Elt F)).result V (no_index (Proc.devRef .tc main_call1_v2))
      = b_main_call1_v2 (F := F) (V (Proc.devRef .tc main_call1_v0)) :=
  (unary_result' _ _ _ V).trans rfl
theorem fold_main_call1_v2 :
    b_main_call1_v2 (F := F) (val_main_call1_v0 (F := F)) = val_main_call1_v2 (F := F) := rfl

def b_main_v6 (u0 : (⟨S16x128x64x128, .i1⟩ : BufTy).Contents (Elt F)) (u1 : (⟨S16x128x64x128, .f32⟩ : BufTy).Contents (Elt F)) (u2 : (⟨S16x128x64x128, .f32⟩ : BufTy).Contents (Elt F)) : (⟨S16x128x64x128, .f32⟩ : BufTy).Contents (Elt F) :=
  select u0 u1 u2
theorem res_main_v6 (V : Valuation τ sig (Elt F)) :
    (TRef.ternary (TRef.of (T := ⟨S16x128x64x128, .i1⟩) main_call1_v1) (TRef.of (T := ⟨S16x128x64x128, .f32⟩) main_arg0) (TRef.of (T := ⟨S16x128x64x128, .f32⟩) main_call1_v2) (TRef.of (T := ⟨S16x128x64x128, .f32⟩) main_v6) (no_index (select)) : HloOp τ sig (Elt F)).result V (no_index (Proc.devRef .tc main_v6))
      = b_main_v6 (F := F) (V (Proc.devRef .tc main_call1_v1)) (V (Proc.devRef .tc main_arg0)) (V (Proc.devRef .tc main_call1_v2)) :=
  (ternary_result' _ _ _ _ _ V).trans rfl
theorem fold_main_v6 (x0 : (⟨S16x128x64x128, .f32⟩ : BufTy).Contents (Elt F)) (x1 : (⟨S16x128x64, .i1⟩ : BufTy).Contents (Elt F)) :
    b_main_v6 (F := F) (val_main_call1_v1 (F := F) x1) x0 (val_main_call1_v2 (F := F)) = val_main_v6 (F := F) x0 x1 := rfl

def b_main_v7 (u0 : (⟨S3x128x128, .f32⟩ : BufTy).Contents (Elt F)) : (⟨S1x128x128, .f32⟩ : BufTy).Contents (Elt F) :=
  extractStridedSlice S1x128x128 ![0, 0, 0] u0 slices_S3x128x128_S1x128x128_0_0_0
theorem res_main_v7 (V : Valuation τ sig (Elt F)) :
    (unary main_arg2 main_v7 (no_index (((extractStridedSlice S1x128x128 ![0, 0, 0] · slices_S3x128x128_S1x128x128_0_0_0) : (⟨S3x128x128, .f32⟩ : BufTy).Contents (Elt F) → (⟨S1x128x128, .f32⟩ : BufTy).Contents (Elt F)))) : HloOp τ sig (Elt F)).result V (no_index (Proc.devRef .tc main_v7))
      = b_main_v7 (F := F) (V (Proc.devRef .tc main_arg2)) :=
  (unary_result' _ _ _ V).trans rfl
theorem fold_main_v7 (x2 : (⟨S3x128x128, .f32⟩ : BufTy).Contents (Elt F)) :
    b_main_v7 (F := F) x2 = val_main_v7 (F := F) x2 := rfl

def b_main_v8 (u0 : (⟨S1x128x128, .f32⟩ : BufTy).Contents (Elt F)) : (⟨S128x128, .f32⟩ : BufTy).Contents (Elt F) :=
  shapeCast _ u0 shapeCasts_S1x128x128_S128x128
theorem res_main_v8 (V : Valuation τ sig (Elt F)) :
    (reshape main_v7 main_v8 rfl shapeCasts_S1x128x128_S128x128 : HloOp τ sig (Elt F)).result V (no_index (Proc.devRef .tc main_v8))
      = b_main_v8 (F := F) (V (Proc.devRef .tc main_v7)) :=
  (reshape_result' _ _ _ _ V).trans rfl
theorem fold_main_v8 (x2 : (⟨S3x128x128, .f32⟩ : BufTy).Contents (Elt F)) :
    b_main_v8 (F := F) (val_main_v7 (F := F) x2) = val_main_v8 (F := F) x2 := rfl

def b_main_v9 (u0 : (⟨S16x128x64x128, .f32⟩ : BufTy).Contents (Elt F)) (u1 : (⟨S128x128, .f32⟩ : BufTy).Contents (Elt F)) : (⟨S16x128x64x128, .f32⟩ : BufTy).Contents (Elt F) :=
  Host.dotGeneral dot_S16x128x64x128_S128x128_S16x128x64x128_3_0_012_1_n_n none u0 u1
theorem res_main_v9 (V : Valuation τ sig (Elt F)) :
    (binary main_v6 main_v8 main_v9 (no_index (((fun l r => Host.dotGeneral dot_S16x128x64x128_S128x128_S16x128x64x128_3_0_012_1_n_n none l r) : (⟨S16x128x64x128, .f32⟩ : BufTy).Contents (Elt F) → (⟨S128x128, .f32⟩ : BufTy).Contents (Elt F) → (⟨S16x128x64x128, .f32⟩ : BufTy).Contents (Elt F)))) : HloOp τ sig (Elt F)).result V (no_index (Proc.devRef .tc main_v9))
      = b_main_v9 (F := F) (V (Proc.devRef .tc main_v6)) (V (Proc.devRef .tc main_v8)) :=
  (binary_result' _ _ _ _ V).trans rfl
theorem fold_main_v9 (x0 : (⟨S16x128x64x128, .f32⟩ : BufTy).Contents (Elt F)) (x1 : (⟨S16x128x64, .i1⟩ : BufTy).Contents (Elt F)) (x2 : (⟨S3x128x128, .f32⟩ : BufTy).Contents (Elt F)) :
    b_main_v9 (F := F) (val_main_v6 (F := F) x0 x1) (val_main_v8 (F := F) x2) = val_main_v9 (F := F) x0 x1 x2 := rfl

def b_main_v10 (u0 : (⟨S3x128, .f32⟩ : BufTy).Contents (Elt F)) : (⟨S1x128, .f32⟩ : BufTy).Contents (Elt F) :=
  extractStridedSlice S1x128 ![0, 0] u0 slices_S3x128_S1x128_0_0
theorem res_main_v10 (V : Valuation τ sig (Elt F)) :
    (unary main_arg3 main_v10 (no_index (((extractStridedSlice S1x128 ![0, 0] · slices_S3x128_S1x128_0_0) : (⟨S3x128, .f32⟩ : BufTy).Contents (Elt F) → (⟨S1x128, .f32⟩ : BufTy).Contents (Elt F)))) : HloOp τ sig (Elt F)).result V (no_index (Proc.devRef .tc main_v10))
      = b_main_v10 (F := F) (V (Proc.devRef .tc main_arg3)) :=
  (unary_result' _ _ _ V).trans rfl
theorem fold_main_v10 (x3 : (⟨S3x128, .f32⟩ : BufTy).Contents (Elt F)) :
    b_main_v10 (F := F) x3 = val_main_v10 (F := F) x3 := rfl

def b_main_v11 (u0 : (⟨S1x128, .f32⟩ : BufTy).Contents (Elt F)) : (⟨S128, .f32⟩ : BufTy).Contents (Elt F) :=
  shapeCast _ u0 shapeCasts_S1x128_S128
theorem res_main_v11 (V : Valuation τ sig (Elt F)) :
    (reshape main_v10 main_v11 rfl shapeCasts_S1x128_S128 : HloOp τ sig (Elt F)).result V (no_index (Proc.devRef .tc main_v11))
      = b_main_v11 (F := F) (V (Proc.devRef .tc main_v10)) :=
  (reshape_result' _ _ _ _ V).trans rfl
theorem fold_main_v11 (x3 : (⟨S3x128, .f32⟩ : BufTy).Contents (Elt F)) :
    b_main_v11 (F := F) (val_main_v10 (F := F) x3) = val_main_v11 (F := F) x3 := rfl

def b_main_v12 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v12 (V : Valuation τ sig (Elt F)) :
    (unary main_v11 main_v12 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v12))
      = b_main_v12 (F := F) (V (Proc.devRef .tc main_v11)) :=
  (unary_result' _ _ _ V).trans rfl
theorem fold_main_v12 (x3 : (⟨S3x128, .f32⟩ : BufTy).Contents (Elt F)) :
    b_main_v12 (F := F) (val_main_v11 (F := F) x3) = val_main_v12 (F := F) x3 := rfl

def b_main_v13 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v13 (V : Valuation τ sig (Elt F)) :
    (unary main_v12 main_v13 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v13))
      = b_main_v13 (F := F) (V (Proc.devRef .tc main_v12)) :=
  (unary_result' _ _ _ V).trans rfl
theorem fold_main_v13 (x3 : (⟨S3x128, .f32⟩ : BufTy).Contents (Elt F)) :
    b_main_v13 (F := F) (val_main_v12 (F := F) x3) = val_main_v13 (F := F) x3 := rfl

def b_main_v14 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v14 (V : Valuation τ sig (Elt F)) :
    (binary main_v9 main_v13 main_v14 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v14))
      = b_main_v14 (F := F) (V (Proc.devRef .tc main_v9)) (V (Proc.devRef .tc main_v13)) :=
  (binary_result' _ _ _ _ V).trans rfl
theorem fold_main_v14 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v14 (F := F) (val_main_v9 (F := F) x0 x1 x2) (val_main_v13 (F := F) x3) = val_main_v14 (F := F) x0 x1 x2 x3 := rfl

def b_main_v15 (u0 : (⟨S3x128, .f32⟩ : BufTy).Contents (Elt F)) : (⟨S1x128, .f32⟩ : BufTy).Contents (Elt F) :=
  extractStridedSlice S1x128 ![0, 0] u0 slices_S3x128_S1x128_0_0
theorem res_main_v15 (V : Valuation τ sig (Elt F)) :
    (unary main_arg4 main_v15 (no_index (((extractStridedSlice S1x128 ![0, 0] · slices_S3x128_S1x128_0_0) : (⟨S3x128, .f32⟩ : BufTy).Contents (Elt F) → (⟨S1x128, .f32⟩ : BufTy).Contents (Elt F)))) : HloOp τ sig (Elt F)).result V (no_index (Proc.devRef .tc main_v15))
      = b_main_v15 (F := F) (V (Proc.devRef .tc main_arg4)) :=
  (unary_result' _ _ _ V).trans rfl
theorem fold_main_v15 (x4 : (⟨S3x128, .f32⟩ : BufTy).Contents (Elt F)) :
    b_main_v15 (F := F) x4 = val_main_v15 (F := F) x4 := rfl

def b_main_v16 (u0 : (⟨S1x128, .f32⟩ : BufTy).Contents (Elt F)) : (⟨S128, .f32⟩ : BufTy).Contents (Elt F) :=
  shapeCast _ u0 shapeCasts_S1x128_S128
theorem res_main_v16 (V : Valuation τ sig (Elt F)) :
    (reshape main_v15 main_v16 rfl shapeCasts_S1x128_S128 : HloOp τ sig (Elt F)).result V (no_index (Proc.devRef .tc main_v16))
      = b_main_v16 (F := F) (V (Proc.devRef .tc main_v15)) :=
  (reshape_result' _ _ _ _ V).trans rfl
theorem fold_main_v16 (x4 : (⟨S3x128, .f32⟩ : BufTy).Contents (Elt F)) :
    b_main_v16 (F := F) (val_main_v15 (F := F) x4) = val_main_v16 (F := F) x4 := rfl

def b_main_v17 (u0 : (⟨S3x128, .f32⟩ : BufTy).Contents (Elt F)) : (⟨S1x128, .f32⟩ : BufTy).Contents (Elt F) :=
  extractStridedSlice S1x128 ![0, 0] u0 slices_S3x128_S1x128_0_0
theorem res_main_v17 (V : Valuation τ sig (Elt F)) :
    (unary main_arg5 main_v17 (no_index (((extractStridedSlice S1x128 ![0, 0] · slices_S3x128_S1x128_0_0) : (⟨S3x128, .f32⟩ : BufTy).Contents (Elt F) → (⟨S1x128, .f32⟩ : BufTy).Contents (Elt F)))) : HloOp τ sig (Elt F)).result V (no_index (Proc.devRef .tc main_v17))
      = b_main_v17 (F := F) (V (Proc.devRef .tc main_arg5)) :=
  (unary_result' _ _ _ V).trans rfl
theorem fold_main_v17 (x5 : (⟨S3x128, .f32⟩ : BufTy).Contents (Elt F)) :
    b_main_v17 (F := F) x5 = val_main_v17 (F := F) x5 := rfl

def b_main_v18 (u0 : (⟨S1x128, .f32⟩ : BufTy).Contents (Elt F)) : (⟨S128, .f32⟩ : BufTy).Contents (Elt F) :=
  shapeCast _ u0 shapeCasts_S1x128_S128
theorem res_main_v18 (V : Valuation τ sig (Elt F)) :
    (reshape main_v17 main_v18 rfl shapeCasts_S1x128_S128 : HloOp τ sig (Elt F)).result V (no_index (Proc.devRef .tc main_v18))
      = b_main_v18 (F := F) (V (Proc.devRef .tc main_v17)) :=
  (reshape_result' _ _ _ _ V).trans rfl
theorem fold_main_v18 (x5 : (⟨S3x128, .f32⟩ : BufTy).Contents (Elt F)) :
    b_main_v18 (F := F) (val_main_v17 (F := F) x5) = val_main_v18 (F := F) x5 := rfl

def b_main_cst_1 : (⟨S_, .f32⟩ : BufTy).Contents (Elt F) :=
  constant S_ .f32 0x00000000#32
theorem res_main_cst_1 (V : Valuation τ sig (Elt F)) :
    (nullary main_cst_1 (no_index ((constant S_ .f32 0x00000000#32))) : HloOp τ sig (Elt F)).result V (no_index (Proc.devRef .tc main_cst_1))
      = b_main_cst_1 (F := F) :=
  (nullary_result' _ _ V).trans rfl
theorem fold_main_cst_1 :
    b_main_cst_1 (F := F) = val_main_cst_1 (F := F) := rfl

def b_main_v19 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v19 (V : Valuation τ sig (Elt F)) :
    (binary main_v14 main_cst_1 main_v19 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v19))
      = b_main_v19 (F := F) (V (Proc.devRef .tc main_v14)) (V (Proc.devRef .tc main_cst_1)) :=
  (binary_result' _ _ _ _ V).trans rfl
theorem fold_main_v19 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v19 (F := F) (val_main_v14 (F := F) x0 x1 x2 x3) (val_main_cst_1 (F := F)) = val_main_v19 (F := F) x0 x1 x2 x3 := rfl

def b_main_v20 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v20 (V : Valuation τ sig (Elt F)) :
    (unary main_v19 main_v20 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v20))
      = b_main_v20 (F := F) (V (Proc.devRef .tc main_v19)) :=
  (unary_result' _ _ _ V).trans rfl
theorem fold_main_v20 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v20 (F := F) (val_main_v19 (F := F) x0 x1 x2 x3) = val_main_v20 (F := F) x0 x1 x2 x3 := rfl

def b_main_cst_2 : (⟨S_, .f32⟩ : BufTy).Contents (Elt F) :=
  constant S_ .f32 0x43000000#32
theorem res_main_cst_2 (V : Valuation τ sig (Elt F)) :
    (nullary main_cst_2 (no_index ((constant S_ .f32 0x43000000#32))) : HloOp τ sig (Elt F)).result V (no_index (Proc.devRef .tc main_cst_2))
      = b_main_cst_2 (F := F) :=
  (nullary_result' _ _ V).trans rfl
theorem fold_main_cst_2 :
    b_main_cst_2 (F := F) = val_main_cst_2 (F := F) := rfl

def b_main_v21 (u0 : (⟨S_, .f32⟩ : BufTy).Contents (Elt F)) : (⟨S16x128x64x1, .f32⟩ : BufTy).Contents (Elt F) :=
  broadcastInDim S16x128x64x1 ![] bcast_S_S16x128x64x1 u0
theorem res_main_v21 (V : Valuation τ sig (Elt F)) :
    (unary main_cst_2 main_v21 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v21))
      = b_main_v21 (F := F) (V (Proc.devRef .tc main_cst_2)) :=
  (unary_result' _ _ _ V).trans rfl
theorem fold_main_v21 :
    b_main_v21 (F := F) (val_main_cst_2 (F := F)) = val_main_v21 (F := F) := rfl

def b_main_v22 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v22 (V : Valuation τ sig (Elt F)) :
    (binary main_v20 main_v21 main_v22 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v22))
      = b_main_v22 (F := F) (V (Proc.devRef .tc main_v20)) (V (Proc.devRef .tc main_v21)) :=
  (binary_result' _ _ _ _ V).trans rfl
theorem fold_main_v22 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v22 (F := F) (val_main_v20 (F := F) x0 x1 x2 x3) (val_main_v21 (F := F)) = val_main_v22 (F := F) x0 x1 x2 x3 := rfl

def b_main_v23 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v23 (V : Valuation τ sig (Elt F)) :
    (unary main_v22 main_v23 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v23))
      = b_main_v23 (F := F) (V (Proc.devRef .tc main_v22)) :=
  (unary_result' _ _ _ V).trans rfl
theorem fold_main_v23 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v23 (F := F) (val_main_v22 (F := F) x0 x1 x2 x3) = val_main_v23 (F := F) x0 x1 x2 x3 := rfl

def b_main_v24 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v24 (V : Valuation τ sig (Elt F)) :
    (binary main_v14 main_v23 main_v24 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v24))
      = b_main_v24 (F := F) (V (Proc.devRef .tc main_v14)) (V (Proc.devRef .tc main_v23)) :=
  (binary_result' _ _ _ _ V).trans rfl
theorem fold_main_v24 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v24 (F := F) (val_main_v14 (F := F) x0 x1 x2 x3) (val_main_v23 (F := F) x0 x1 x2 x3) = val_main_v24 (F := F) x0 x1 x2 x3 := rfl

def b_main_v25 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v25 (V : Valuation τ sig (Elt F)) :
    (binary main_v24 main_v24 main_v25 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v25))
      = b_main_v25 (F := F) (V (Proc.devRef .tc main_v24)) (V (Proc.devRef .tc main_v24)) :=
  (binary_result' _ _ _ _ V).trans rfl
theorem fold_main_v25 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v25 (F := F) (val_main_v24 (F := F) x0 x1 x2 x3) (val_main_v24 (F := F) x0 x1 x2 x3) = val_main_v25 (F := F) x0 x1 x2 x3 := rfl

def b_main_cst_3 : (⟨S_, .f32⟩ : BufTy).Contents (Elt F) :=
  constant S_ .f32 0x00000000#32
theorem res_main_cst_3 (V : Valuation τ sig (Elt F)) :
    (nullary main_cst_3 (no_index ((constant S_ .f32 0x00000000#32))) : HloOp τ sig (Elt F)).result V (no_index (Proc.devRef .tc main_cst_3))
      = b_main_cst_3 (F := F) :=
  (nullary_result' _ _ V).trans rfl
theorem fold_main_cst_3 :
    b_main_cst_3 (F := F) = val_main_cst_3 (F := F) := rfl

def b_main_v26 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v26 (V : Valuation τ sig (Elt F)) :
    (binary main_v25 main_cst_3 main_v26 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v26))
      = b_main_v26 (F := F) (V (Proc.devRef .tc main_v25)) (V (Proc.devRef .tc main_cst_3)) :=
  (binary_result' _ _ _ _ V).trans rfl
theorem fold_main_v26 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v26 (F := F) (val_main_v25 (F := F) x0 x1 x2 x3) (val_main_cst_3 (F := F)) = val_main_v26 (F := F) x0 x1 x2 x3 := rfl

def b_main_v27 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v27 (V : Valuation τ sig (Elt F)) :
    (unary main_v26 main_v27 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v27))
      = b_main_v27 (F := F) (V (Proc.devRef .tc main_v26)) :=
  (unary_result' _ _ _ V).trans rfl
theorem fold_main_v27 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v27 (F := F) (val_main_v26 (F := F) x0 x1 x2 x3) = val_main_v27 (F := F) x0 x1 x2 x3 := rfl

def b_main_cst_4 : (⟨S_, .f32⟩ : BufTy).Contents (Elt F) :=
  constant S_ .f32 0x43000000#32
theorem res_main_cst_4 (V : Valuation τ sig (Elt F)) :
    (nullary main_cst_4 (no_index ((constant S_ .f32 0x43000000#32))) : HloOp τ sig (Elt F)).result V (no_index (Proc.devRef .tc main_cst_4))
      = b_main_cst_4 (F := F) :=
  (nullary_result' _ _ V).trans rfl
theorem fold_main_cst_4 :
    b_main_cst_4 (F := F) = val_main_cst_4 (F := F) := rfl

def b_main_v28 (u0 : (⟨S_, .f32⟩ : BufTy).Contents (Elt F)) : (⟨S16x128x64x1, .f32⟩ : BufTy).Contents (Elt F) :=
  broadcastInDim S16x128x64x1 ![] bcast_S_S16x128x64x1 u0
theorem res_main_v28 (V : Valuation τ sig (Elt F)) :
    (unary main_cst_4 main_v28 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v28))
      = b_main_v28 (F := F) (V (Proc.devRef .tc main_cst_4)) :=
  (unary_result' _ _ _ V).trans rfl
theorem fold_main_v28 :
    b_main_v28 (F := F) (val_main_cst_4 (F := F)) = val_main_v28 (F := F) := rfl

def b_main_v29 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v29 (V : Valuation τ sig (Elt F)) :
    (binary main_v27 main_v28 main_v29 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v29))
      = b_main_v29 (F := F) (V (Proc.devRef .tc main_v27)) (V (Proc.devRef .tc main_v28)) :=
  (binary_result' _ _ _ _ V).trans rfl
theorem fold_main_v29 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v29 (F := F) (val_main_v27 (F := F) x0 x1 x2 x3) (val_main_v28 (F := F)) = val_main_v29 (F := F) x0 x1 x2 x3 := rfl

def b_main_v30 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v30 (V : Valuation τ sig (Elt F)) :
    (unary main_v22 main_v30 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v30))
      = b_main_v30 (F := F) (V (Proc.devRef .tc main_v22)) :=
  (unary_result' _ _ _ V).trans rfl
theorem fold_main_v30 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v30 (F := F) (val_main_v22 (F := F) x0 x1 x2 x3) = val_main_v30 (F := F) x0 x1 x2 x3 := rfl

def b_main_v31 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v31 (V : Valuation τ sig (Elt F)) :
    (binary main_v14 main_v30 main_v31 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v31))
      = b_main_v31 (F := F) (V (Proc.devRef .tc main_v14)) (V (Proc.devRef .tc main_v30)) :=
  (binary_result' _ _ _ _ V).trans rfl
theorem fold_main_v31 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v31 (F := F) (val_main_v14 (F := F) x0 x1 x2 x3) (val_main_v30 (F := F) x0 x1 x2 x3) = val_main_v31 (F := F) x0 x1 x2 x3 := rfl

def b_main_cst_5 : (⟨S_, .f32⟩ : BufTy).Contents (Elt F) :=
  constant S_ .f32 0x3727C5AC#32
theorem res_main_cst_5 (V : Valuation τ sig (Elt F)) :
    (nullary main_cst_5 (no_index ((constant S_ .f32 0x3727C5AC#32))) : HloOp τ sig (Elt F)).result V (no_index (Proc.devRef .tc main_cst_5))
      = b_main_cst_5 (F := F) :=
  (nullary_result' _ _ V).trans rfl
theorem fold_main_cst_5 :
    b_main_cst_5 (F := F) = val_main_cst_5 (F := F) := rfl

def b_main_v32 (u0 : (⟨S_, .f32⟩ : BufTy).Contents (Elt F)) : (⟨S16x128x64x1, .f32⟩ : BufTy).Contents (Elt F) :=
  broadcastInDim S16x128x64x1 ![] bcast_S_S16x128x64x1 u0
theorem res_main_v32 (V : Valuation τ sig (Elt F)) :
    (unary main_cst_5 main_v32 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v32))
      = b_main_v32 (F := F) (V (Proc.devRef .tc main_cst_5)) :=
  (unary_result' _ _ _ V).trans rfl
theorem fold_main_v32 :
    b_main_v32 (F := F) (val_main_cst_5 (F := F)) = val_main_v32 (F := F) := rfl

def b_main_v33 (u0 : (⟨S16x128x64x1, .f32⟩ : BufTy).Contents (Elt F)) (u1 : (⟨S16x128x64x1, .f32⟩ : BufTy).Contents (Elt F)) : (⟨S16x128x64x1, .f32⟩ : BufTy).Contents (Elt F) :=
  addf u0 u1
theorem res_main_v33 (V : Valuation τ sig (Elt F)) :
    (binary main_v29 main_v32 main_v33 (no_index ((addf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v33))
      = b_main_v33 (F := F) (V (Proc.devRef .tc main_v29)) (V (Proc.devRef .tc main_v32)) :=
  (binary_result' _ _ _ _ V).trans rfl
theorem fold_main_v33 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v33 (F := F) (val_main_v29 (F := F) x0 x1 x2 x3) (val_main_v32 (F := F)) = val_main_v33 (F := F) x0 x1 x2 x3 := rfl

def b_main_v34 (u0 : (⟨S16x128x64x1, .f32⟩ : BufTy).Contents (Elt F)) : (⟨S16x128x64x1, .f32⟩ : BufTy).Contents (Elt F) :=
  Host.rsqrt u0
theorem res_main_v34 (V : Valuation τ sig (Elt F)) :
    (unary main_v33 main_v34 (no_index ((Host.rsqrt : (⟨S16x128x64x1, .f32⟩ : BufTy).Contents (Elt F) → (⟨S16x128x64x1, .f32⟩ : BufTy).Contents (Elt F)))) : HloOp τ sig (Elt F)).result V (no_index (Proc.devRef .tc main_v34))
      = b_main_v34 (F := F) (V (Proc.devRef .tc main_v33)) :=
  (unary_result' _ _ _ V).trans rfl
theorem fold_main_v34 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v34 (F := F) (val_main_v33 (F := F) x0 x1 x2 x3) = val_main_v34 (F := F) x0 x1 x2 x3 := rfl

def b_main_v35 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v35 (V : Valuation τ sig (Elt F)) :
    (unary main_v34 main_v35 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v35))
      = b_main_v35 (F := F) (V (Proc.devRef .tc main_v34)) :=
  (unary_result' _ _ _ V).trans rfl
theorem fold_main_v35 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v35 (F := F) (val_main_v34 (F := F) x0 x1 x2 x3) = val_main_v35 (F := F) x0 x1 x2 x3 := rfl

def b_main_v36 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v36 (V : Valuation τ sig (Elt F)) :
    (binary main_v31 main_v35 main_v36 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v36))
      = b_main_v36 (F := F) (V (Proc.devRef .tc main_v31)) (V (Proc.devRef .tc main_v35)) :=
  (binary_result' _ _ _ _ V).trans rfl
theorem fold_main_v36 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) :
    b_main_v36 (F := F) (val_main_v31 (F := F) x0 x1 x2 x3) (val_main_v35 (F := F) x0 x1 x2 x3) = val_main_v36 (F := F) x0 x1 x2 x3 := rfl

def b_main_v37 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v37 (V : Valuation τ sig (Elt F)) :
    (unary main_v16 main_v37 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v37))
      = b_main_v37 (F := F) (V (Proc.devRef .tc main_v16)) :=
  (unary_result' _ _ _ V).trans rfl
theorem fold_main_v37 (x4 : (⟨S3x128, .f32⟩ : BufTy).Contents (Elt F)) :
    b_main_v37 (F := F) (val_main_v16 (F := F) x4) = val_main_v37 (F := F) x4 := rfl

def b_main_v38 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v38 (V : Valuation τ sig (Elt F)) :
    (unary main_v37 main_v38 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v38))
      = b_main_v38 (F := F) (V (Proc.devRef .tc main_v37)) :=
  (unary_result' _ _ _ V).trans rfl
theorem fold_main_v38 (x4 : (⟨S3x128, .f32⟩ : BufTy).Contents (Elt F)) :
    b_main_v38 (F := F) (val_main_v37 (F := F) x4) = val_main_v38 (F := F) x4 := rfl

def b_main_v39 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v39 (V : Valuation τ sig (Elt F)) :
    (binary main_v36 main_v38 main_v39 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v39))
      = b_main_v39 (F := F) (V (Proc.devRef .tc main_v36)) (V (Proc.devRef .tc main_v38)) :=
  (binary_result' _ _ _ _ V).trans rfl
theorem fold_main_v39 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) :
    b_main_v39 (F := F) (val_main_v36 (F := F) x0 x1 x2 x3) (val_main_v38 (F := F) x4) = val_main_v39 (F := F) x0 x1 x2 x3 x4 := rfl

def b_main_v40 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v40 (V : Valuation τ sig (Elt F)) :
    (unary main_v18 main_v40 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v40))
      = b_main_v40 (F := F) (V (Proc.devRef .tc main_v18)) :=
  (unary_result' _ _ _ V).trans rfl
theorem fold_main_v40 (x5 : (⟨S3x128, .f32⟩ : BufTy).Contents (Elt F)) :
    b_main_v40 (F := F) (val_main_v18 (F := F) x5) = val_main_v40 (F := F) x5 := rfl

def b_main_v41 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v41 (V : Valuation τ sig (Elt F)) :
    (unary main_v40 main_v41 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v41))
      = b_main_v41 (F := F) (V (Proc.devRef .tc main_v40)) :=
  (unary_result' _ _ _ V).trans rfl
theorem fold_main_v41 (x5 : (⟨S3x128, .f32⟩ : BufTy).Contents (Elt F)) :
    b_main_v41 (F := F) (val_main_v40 (F := F) x5) = val_main_v41 (F := F) x5 := rfl

def b_main_v42 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v42 (V : Valuation τ sig (Elt F)) :
    (binary main_v39 main_v41 main_v42 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v42))
      = b_main_v42 (F := F) (V (Proc.devRef .tc main_v39)) (V (Proc.devRef .tc main_v41)) :=
  (binary_result' _ _ _ _ V).trans rfl
theorem fold_main_v42 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v42 (F := F) (val_main_v39 (F := F) x0 x1 x2 x3 x4) (val_main_v41 (F := F) x5) = val_main_v42 (F := F) x0 x1 x2 x3 x4 x5 := rfl

def b_main_call2_cst : (⟨S_, .f32⟩ : BufTy).Contents (Elt F) :=
  constant S_ .f32 0x00000000#32
theorem res_main_call2_cst (V : Valuation τ sig (Elt F)) :
    (TRef.nullary (TRef.of (T := ⟨S_, .f32⟩) main_call2_cst) (no_index ((constant S_ .f32 0x00000000#32))) : HloOp τ sig (Elt F)).result V (no_index (Proc.devRef .tc main_call2_cst))
      = b_main_call2_cst (F := F) :=
  (nullary_result' _ _ V).trans rfl
theorem fold_main_call2_cst :
    b_main_call2_cst (F := F) = val_main_call2_cst (F := F) := rfl

def b_main_call2_v0 (u0 : (⟨S_, .f32⟩ : BufTy).Contents (Elt F)) : (⟨S16x128x64x128, .f32⟩ : BufTy).Contents (Elt F) :=
  broadcastInDim S16x128x64x128 ![] bcast_S_S16x128x64x128 u0
theorem res_main_call2_v0 (V : Valuation τ sig (Elt F)) :
    (TRef.unary (TRef.of (T := ⟨S_, .f32⟩) main_call2_cst) (TRef.of (T := ⟨S16x128x64x128, .f32⟩) main_call2_v0) (no_index ((broadcastInDim S16x128x64x128 ![] bcast_S_S16x128x64x128))) : HloOp τ sig (Elt F)).result V (no_index (Proc.devRef .tc main_call2_v0))
      = b_main_call2_v0 (F := F) (V (Proc.devRef .tc main_call2_cst)) :=
  (unary_result' _ _ _ V).trans rfl
theorem fold_main_call2_v0 :
    b_main_call2_v0 (F := F) (val_main_call2_cst (F := F)) = val_main_call2_v0 (F := F) := rfl

def b_main_v43 (u0 : (⟨S16x128x64x128, .f32⟩ : BufTy).Contents (Elt F)) (u1 : (⟨S16x128x64x128, .f32⟩ : BufTy).Contents (Elt F)) : (⟨S16x128x64x128, .f32⟩ : BufTy).Contents (Elt F) :=
  maximumf u0 u1
theorem res_main_v43 (V : Valuation τ sig (Elt F)) :
    (TRef.binary (TRef.of (T := ⟨S16x128x64x128, .f32⟩) main_v42) (TRef.of (T := ⟨S16x128x64x128, .f32⟩) main_call2_v0) (TRef.of (T := ⟨S16x128x64x128, .f32⟩) main_v43) (no_index (maximumf)) : HloOp τ sig (Elt F)).result V (no_index (Proc.devRef .tc main_v43))
      = b_main_v43 (F := F) (V (Proc.devRef .tc main_v42)) (V (Proc.devRef .tc main_call2_v0)) :=
  (binary_result' _ _ _ _ V).trans rfl
theorem fold_main_v43 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v43 (F := F) (val_main_v42 (F := F) x0 x1 x2 x3 x4 x5) (val_main_call2_v0 (F := F)) = val_main_v43 (F := F) x0 x1 x2 x3 x4 x5 := rfl

def b_main_v44 (u0 : (⟨S16x128x64, .i1⟩ : BufTy).Contents (Elt F)) : (⟨S16x128x64x1, .i1⟩ : BufTy).Contents (Elt F) :=
  broadcastInDim S16x128x64x1 ![0, 1, 2] bcast_S16x128x64_S16x128x64x1_0_1_2 u0
theorem res_main_v44 (V : Valuation τ sig (Elt F)) :
    (unary main_v4 main_v44 (no_index ((broadcastInDim S16x128x64x1 ![0, 1, 2] bcast_S16x128x64_S16x128x64x1_0_1_2 : (⟨S16x128x64, .i1⟩ : BufTy).Contents (Elt F) → (⟨S16x128x64x1, .i1⟩ : BufTy).Contents (Elt F)))) : HloOp τ sig (Elt F)).result V (no_index (Proc.devRef .tc main_v44))
      = b_main_v44 (F := F) (V (Proc.devRef .tc main_v4)) :=
  (unary_result' _ _ _ V).trans rfl
theorem fold_main_v44 (x1 : (⟨S16x128x64, .i1⟩ : BufTy).Contents (Elt F)) :
    b_main_v44 (F := F) (val_main_v4 (F := F) x1) = val_main_v44 (F := F) x1 := rfl

def b_main_cst_6 : (⟨S_, .f32⟩ : BufTy).Contents (Elt F) :=
  constant S_ .f32 0xFF800000#32
theorem res_main_cst_6 (V : Valuation τ sig (Elt F)) :
    (nullary main_cst_6 (no_index ((constant S_ .f32 0xFF800000#32))) : HloOp τ sig (Elt F)).result V (no_index (Proc.devRef .tc main_cst_6))
      = b_main_cst_6 (F := F) :=
  (nullary_result' _ _ V).trans rfl
theorem fold_main_cst_6 :
    b_main_cst_6 (F := F) = val_main_cst_6 (F := F) := rfl

def b_main_call3_v0 (u0 : (⟨S_, .f32⟩ : BufTy).Contents (Elt F)) : (⟨S_, .f32⟩ : BufTy).Contents (Elt F) :=
  id u0
theorem res_main_call3_v0 (V : Valuation τ sig (Elt F)) :
    (TRef.unary (TRef.of (T := ⟨S_, .f32⟩) main_cst_6) (TRef.of (T := ⟨S_, .f32⟩) main_call3_v0) (no_index (id)) : HloOp τ sig (Elt F)).result V (no_index (Proc.devRef .tc main_call3_v0))
      = b_main_call3_v0 (F := F) (V (Proc.devRef .tc main_cst_6)) :=
  (unary_result' _ _ _ V).trans rfl
theorem fold_main_call3_v0 :
    b_main_call3_v0 (F := F) (val_main_cst_6 (F := F)) = val_main_call3_v0 (F := F) := rfl

def b_main_call3_v1 (u0 : (⟨S16x128x64x1, .i1⟩ : BufTy).Contents (Elt F)) : (⟨S16x128x64x128, .i1⟩ : BufTy).Contents (Elt F) :=
  broadcastInDim S16x128x64x128 ![0, 1, 2, 3] bcast_S16x128x64x1_S16x128x64x128_0_1_2_3 u0
theorem res_main_call3_v1 (V : Valuation τ sig (Elt F)) :
    (TRef.unary (TRef.of (T := ⟨S16x128x64x1, .i1⟩) main_v44) (TRef.of (T := ⟨S16x128x64x128, .i1⟩) main_call3_v1) (no_index ((broadcastInDim S16x128x64x128 ![0, 1, 2, 3] bcast_S16x128x64x1_S16x128x64x128_0_1_2_3))) : HloOp τ sig (Elt F)).result V (no_index (Proc.devRef .tc main_call3_v1))
      = b_main_call3_v1 (F := F) (V (Proc.devRef .tc main_v44)) :=
  (unary_result' _ _ _ V).trans rfl
theorem fold_main_call3_v1 (x1 : (⟨S16x128x64, .i1⟩ : BufTy).Contents (Elt F)) :
    b_main_call3_v1 (F := F) (val_main_v44 (F := F) x1) = val_main_call3_v1 (F := F) x1 := rfl

def b_main_call3_v2 (u0 : (⟨S_, .f32⟩ : BufTy).Contents (Elt F)) : (⟨S16x128x64x128, .f32⟩ : BufTy).Contents (Elt F) :=
  broadcastInDim S16x128x64x128 ![] bcast_S_S16x128x64x128 u0
theorem res_main_call3_v2 (V : Valuation τ sig (Elt F)) :
    (TRef.unary (TRef.of (T := ⟨S_, .f32⟩) main_call3_v0) (TRef.of (T := ⟨S16x128x64x128, .f32⟩) main_call3_v2) (no_index ((broadcastInDim S16x128x64x128 ![] bcast_S_S16x128x64x128))) : HloOp τ sig (Elt F)).result V (no_index (Proc.devRef .tc main_call3_v2))
      = b_main_call3_v2 (F := F) (V (Proc.devRef .tc main_call3_v0)) :=
  (unary_result' _ _ _ V).trans rfl
theorem fold_main_call3_v2 :
    b_main_call3_v2 (F := F) (val_main_call3_v0 (F := F)) = val_main_call3_v2 (F := F) := rfl

def b_main_v45 (u0 : (⟨S16x128x64x128, .i1⟩ : BufTy).Contents (Elt F)) (u1 : (⟨S16x128x64x128, .f32⟩ : BufTy).Contents (Elt F)) (u2 : (⟨S16x128x64x128, .f32⟩ : BufTy).Contents (Elt F)) : (⟨S16x128x64x128, .f32⟩ : BufTy).Contents (Elt F) :=
  select u0 u1 u2
theorem res_main_v45 (V : Valuation τ sig (Elt F)) :
    (TRef.ternary (TRef.of (T := ⟨S16x128x64x128, .i1⟩) main_call3_v1) (TRef.of (T := ⟨S16x128x64x128, .f32⟩) main_call3_v2) (TRef.of (T := ⟨S16x128x64x128, .f32⟩) main_v43) (TRef.of (T := ⟨S16x128x64x128, .f32⟩) main_v45) (no_index (select)) : HloOp τ sig (Elt F)).result V (no_index (Proc.devRef .tc main_v45))
      = b_main_v45 (F := F) (V (Proc.devRef .tc main_call3_v1)) (V (Proc.devRef .tc main_call3_v2)) (V (Proc.devRef .tc main_v43)) :=
  (ternary_result' _ _ _ _ _ V).trans rfl
theorem fold_main_v45 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v45 (F := F) (val_main_call3_v1 (F := F) x1) (val_main_call3_v2 (F := F)) (val_main_v43 (F := F) x0 x1 x2 x3 x4 x5) = val_main_v45 (F := F) x0 x1 x2 x3 x4 x5 := rfl

def b_main_cst_7 : (⟨S_, .f32⟩ : BufTy).Contents (Elt F) :=
  constant S_ .f32 0xFF800000#32
theorem res_main_cst_7 (V : Valuation τ sig (Elt F)) :
    (nullary main_cst_7 (no_index ((constant S_ .f32 0xFF800000#32))) : HloOp τ sig (Elt F)).result V (no_index (Proc.devRef .tc main_cst_7))
      = b_main_cst_7 (F := F) :=
  (nullary_result' _ _ V).trans rfl
theorem fold_main_cst_7 :
    b_main_cst_7 (F := F) = val_main_cst_7 (F := F) := rfl

def b_main_v46 (u0 : (⟨S16x128x64x128, .f32⟩ : BufTy).Contents (Elt F)) (u1 : (⟨S_, .f32⟩ : BufTy).Contents (Elt F)) : (⟨S16x128x128, .f32⟩ : BufTy).Contents (Elt F) :=
  Host.reduce FloatOps.maximumf u0 u1 reducesTo_S16x128x64x128_S16x128x128_d2 h_S_
theorem res_main_v46 (V : Valuation τ sig (Elt F)) :
    (binary main_v45 main_cst_7 main_v46 (no_index (((fun x v => Host.reduce FloatOps.maximumf x v reducesTo_S16x128x64x128_S16x128x128_d2 h_S_) : (⟨S16x128x64x128, .f32⟩ : BufTy).Contents (Elt F) → (⟨S_, .f32⟩ : BufTy).Contents (Elt F) → (⟨S16x128x128, .f32⟩ : BufTy).Contents (Elt F)))) : HloOp τ sig (Elt F)).result V (no_index (Proc.devRef .tc main_v46))
      = b_main_v46 (F := F) (V (Proc.devRef .tc main_v45)) (V (Proc.devRef .tc main_cst_7)) :=
  (binary_result' _ _ _ _ V).trans rfl
theorem fold_main_v46 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v46 (F := F) (val_main_v45 (F := F) x0 x1 x2 x3 x4 x5) (val_main_cst_7 (F := F)) = val_main_v46 (F := F) x0 x1 x2 x3 x4 x5 := rfl

def b_main_v47 (u0 : (⟨S16x128x128, .f32⟩ : BufTy).Contents (Elt F)) : (⟨S16x128x1x128, .f32⟩ : BufTy).Contents (Elt F) :=
  broadcastInDim S16x128x1x128 ![0, 1, 3] bcast_S16x128x128_S16x128x1x128_0_1_3 u0
theorem res_main_v47 (V : Valuation τ sig (Elt F)) :
    (unary main_v46 main_v47 (no_index ((broadcastInDim S16x128x1x128 ![0, 1, 3] bcast_S16x128x128_S16x128x1x128_0_1_3 : (⟨S16x128x128, .f32⟩ : BufTy).Contents (Elt F) → (⟨S16x128x1x128, .f32⟩ : BufTy).Contents (Elt F)))) : HloOp τ sig (Elt F)).result V (no_index (Proc.devRef .tc main_v47))
      = b_main_v47 (F := F) (V (Proc.devRef .tc main_v46)) :=
  (unary_result' _ _ _ V).trans rfl
theorem fold_main_v47 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v47 (F := F) (val_main_v46 (F := F) x0 x1 x2 x3 x4 x5) = val_main_v47 (F := F) x0 x1 x2 x3 x4 x5 := rfl

def b_main_v48 (u0 : (⟨S16x128x1x128, .f32⟩ : BufTy).Contents (Elt F)) : (⟨S16x128x64x128, .f32⟩ : BufTy).Contents (Elt F) :=
  broadcastInDim S16x128x64x128 ![0, 1, 2, 3] bcast_S16x128x1x128_S16x128x64x128_0_1_2_3 u0
theorem res_main_v48 (V : Valuation τ sig (Elt F)) :
    (unary main_v47 main_v48 (no_index ((broadcastInDim S16x128x64x128 ![0, 1, 2, 3] bcast_S16x128x1x128_S16x128x64x128_0_1_2_3 : (⟨S16x128x1x128, .f32⟩ : BufTy).Contents (Elt F) → (⟨S16x128x64x128, .f32⟩ : BufTy).Contents (Elt F)))) : HloOp τ sig (Elt F)).result V (no_index (Proc.devRef .tc main_v48))
      = b_main_v48 (F := F) (V (Proc.devRef .tc main_v47)) :=
  (unary_result' _ _ _ V).trans rfl
theorem fold_main_v48 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v48 (F := F) (val_main_v47 (F := F) x0 x1 x2 x3 x4 x5) = val_main_v48 (F := F) x0 x1 x2 x3 x4 x5 := rfl

def b_main_v49 (u0 : (⟨S16x128x64x128, .f32⟩ : BufTy).Contents (Elt F)) (u1 : (⟨S16x128x64x128, .f32⟩ : BufTy).Contents (Elt F)) : (⟨S16x128x64x256, .f32⟩ : BufTy).Contents (Elt F) :=
  concatenate S16x128x64x256 3 [⟨S16x128x64x128, u0⟩, ⟨S16x128x64x128, u1⟩] concatenates_S16x128x64x128_S16x128x64x128_S16x128x64x256_d3
theorem res_main_v49 (V : Valuation τ sig (Elt F)) :
    (binary main_v43 main_v48 main_v49 (no_index (((fun a b => concatenate S16x128x64x256 3 [⟨S16x128x64x128, a⟩, ⟨S16x128x64x128, b⟩] concatenates_S16x128x64x128_S16x128x64x128_S16x128x64x256_d3) : (⟨S16x128x64x128, .f32⟩ : BufTy).Contents (Elt F) → (⟨S16x128x64x128, .f32⟩ : BufTy).Contents (Elt F) → (⟨S16x128x64x256, .f32⟩ : BufTy).Contents (Elt F)))) : HloOp τ sig (Elt F)).result V (no_index (Proc.devRef .tc main_v49))
      = b_main_v49 (F := F) (V (Proc.devRef .tc main_v43)) (V (Proc.devRef .tc main_v48)) :=
  (binary_result' _ _ _ _ V).trans rfl
theorem fold_main_v49 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) :
    b_main_v49 (F := F) (val_main_v43 (F := F) x0 x1 x2 x3 x4 x5) (val_main_v48 (F := F) x0 x1 x2 x3 x4 x5) = val_main_v49 (F := F) x0 x1 x2 x3 x4 x5 := rfl

def b_main_v50 (u0 : (⟨S3x256x128, .f32⟩ : BufTy).Contents (Elt F)) : (⟨S1x256x128, .f32⟩ : BufTy).Contents (Elt F) :=
  extractStridedSlice S1x256x128 ![0, 0, 0] u0 slices_S3x256x128_S1x256x128_0_0_0
theorem res_main_v50 (V : Valuation τ sig (Elt F)) :
    (unary main_arg6 main_v50 (no_index (((extractStridedSlice S1x256x128 ![0, 0, 0] · slices_S3x256x128_S1x256x128_0_0_0) : (⟨S3x256x128, .f32⟩ : BufTy).Contents (Elt F) → (⟨S1x256x128, .f32⟩ : BufTy).Contents (Elt F)))) : HloOp τ sig (Elt F)).result V (no_index (Proc.devRef .tc main_v50))
      = b_main_v50 (F := F) (V (Proc.devRef .tc main_arg6)) :=
  (unary_result' _ _ _ V).trans rfl
theorem fold_main_v50 (x6 : (⟨S3x256x128, .f32⟩ : BufTy).Contents (Elt F)) :
    b_main_v50 (F := F) x6 = val_main_v50 (F := F) x6 := rfl

def b_main_v51 (u0 : (⟨S1x256x128, .f32⟩ : BufTy).Contents (Elt F)) : (⟨S256x128, .f32⟩ : BufTy).Contents (Elt F) :=
  shapeCast _ u0 shapeCasts_S1x256x128_S256x128
theorem res_main_v51 (V : Valuation τ sig (Elt F)) :
    (reshape main_v50 main_v51 rfl shapeCasts_S1x256x128_S256x128 : HloOp τ sig (Elt F)).result V (no_index (Proc.devRef .tc main_v51))
      = b_main_v51 (F := F) (V (Proc.devRef .tc main_v50)) :=
  (reshape_result' _ _ _ _ V).trans rfl
theorem fold_main_v51 (x6 : (⟨S3x256x128, .f32⟩ : BufTy).Contents (Elt F)) :
    b_main_v51 (F := F) (val_main_v50 (F := F) x6) = val_main_v51 (F := F) x6 := rfl

def b_main_v52 (u0 : (⟨S16x128x64x256, .f32⟩ : BufTy).Contents (Elt F)) (u1 : (⟨S256x128, .f32⟩ : BufTy).Contents (Elt F)) : (⟨S16x128x64x128, .f32⟩ : BufTy).Contents (Elt F) :=
  Host.dotGeneral dot_S16x128x64x256_S256x128_S16x128x64x128_3_0_012_1_n_n none u0 u1
theorem res_main_v52 (V : Valuation τ sig (Elt F)) :
    (binary main_v49 main_v51 main_v52 (no_index (((fun l r => Host.dotGeneral dot_S16x128x64x256_S256x128_S16x128x64x128_3_0_012_1_n_n none l r) : (⟨S16x128x64x256, .f32⟩ : BufTy).Contents (Elt F) → (⟨S256x128, .f32⟩ : BufTy).Contents (Elt F) → (⟨S16x128x64x128, .f32⟩ : BufTy).Contents (Elt F)))) : HloOp τ sig (Elt F)).result V (no_index (Proc.devRef .tc main_v52))
      = b_main_v52 (F := F) (V (Proc.devRef .tc main_v49)) (V (Proc.devRef .tc main_v51)) :=
  (binary_result' _ _ _ _ V).trans rfl
theorem fold_main_v52 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) :
    b_main_v52 (F := F) (val_main_v49 (F := F) x0 x1 x2 x3 x4 x5) (val_main_v51 (F := F) x6) = val_main_v52 (F := F) x0 x1 x2 x3 x4 x5 x6 := rfl

def b_main_v53 (u0 : (⟨S3x128, .f32⟩ : BufTy).Contents (Elt F)) : (⟨S1x128, .f32⟩ : BufTy).Contents (Elt F) :=
  extractStridedSlice S1x128 ![0, 0] u0 slices_S3x128_S1x128_0_0
theorem res_main_v53 (V : Valuation τ sig (Elt F)) :
    (unary main_arg7 main_v53 (no_index (((extractStridedSlice S1x128 ![0, 0] · slices_S3x128_S1x128_0_0) : (⟨S3x128, .f32⟩ : BufTy).Contents (Elt F) → (⟨S1x128, .f32⟩ : BufTy).Contents (Elt F)))) : HloOp τ sig (Elt F)).result V (no_index (Proc.devRef .tc main_v53))
      = b_main_v53 (F := F) (V (Proc.devRef .tc main_arg7)) :=
  (unary_result' _ _ _ V).trans rfl
theorem fold_main_v53 (x7 : (⟨S3x128, .f32⟩ : BufTy).Contents (Elt F)) :
    b_main_v53 (F := F) x7 = val_main_v53 (F := F) x7 := rfl

def b_main_v54 (u0 : (⟨S1x128, .f32⟩ : BufTy).Contents (Elt F)) : (⟨S128, .f32⟩ : BufTy).Contents (Elt F) :=
  shapeCast _ u0 shapeCasts_S1x128_S128
theorem res_main_v54 (V : Valuation τ sig (Elt F)) :
    (reshape main_v53 main_v54 rfl shapeCasts_S1x128_S128 : HloOp τ sig (Elt F)).result V (no_index (Proc.devRef .tc main_v54))
      = b_main_v54 (F := F) (V (Proc.devRef .tc main_v53)) :=
  (reshape_result' _ _ _ _ V).trans rfl
theorem fold_main_v54 (x7 : (⟨S3x128, .f32⟩ : BufTy).Contents (Elt F)) :
    b_main_v54 (F := F) (val_main_v53 (F := F) x7) = val_main_v54 (F := F) x7 := rfl

def b_main_v55 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v55 (V : Valuation τ sig (Elt F)) :
    (unary main_v54 main_v55 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v55))
      = b_main_v55 (F := F) (V (Proc.devRef .tc main_v54)) :=
  (unary_result' _ _ _ V).trans rfl
theorem fold_main_v55 (x7 : (⟨S3x128, .f32⟩ : BufTy).Contents (Elt F)) :
    b_main_v55 (F := F) (val_main_v54 (F := F) x7) = val_main_v55 (F := F) x7 := rfl

def b_main_v56 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v56 (V : Valuation τ sig (Elt F)) :
    (unary main_v55 main_v56 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v56))
      = b_main_v56 (F := F) (V (Proc.devRef .tc main_v55)) :=
  (unary_result' _ _ _ V).trans rfl
theorem fold_main_v56 (x7 : (⟨S3x128, .f32⟩ : BufTy).Contents (Elt F)) :
    b_main_v56 (F := F) (val_main_v55 (F := F) x7) = val_main_v56 (F := F) x7 := rfl

def b_main_v57 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v57 (V : Valuation τ sig (Elt F)) :
    (binary main_v52 main_v56 main_v57 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v57))
      = b_main_v57 (F := F) (V (Proc.devRef .tc main_v52)) (V (Proc.devRef .tc main_v56)) :=
  (binary_result' _ _ _ _ V).trans rfl
theorem fold_main_v57 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v57 (F := F) (val_main_v52 (F := F) x0 x1 x2 x3 x4 x5 x6) (val_main_v56 (F := F) x7) = val_main_v57 (F := F) x0 x1 x2 x3 x4 x5 x6 x7 := rfl

def b_main_v58 (u0 : (⟨S3x128x128, .f32⟩ : BufTy).Contents (Elt F)) : (⟨S1x128x128, .f32⟩ : BufTy).Contents (Elt F) :=
  extractStridedSlice S1x128x128 ![1, 0, 0] u0 slices_S3x128x128_S1x128x128_1_0_0
theorem res_main_v58 (V : Valuation τ sig (Elt F)) :
    (unary main_arg2 main_v58 (no_index (((extractStridedSlice S1x128x128 ![1, 0, 0] · slices_S3x128x128_S1x128x128_1_0_0) : (⟨S3x128x128, .f32⟩ : BufTy).Contents (Elt F) → (⟨S1x128x128, .f32⟩ : BufTy).Contents (Elt F)))) : HloOp τ sig (Elt F)).result V (no_index (Proc.devRef .tc main_v58))
      = b_main_v58 (F := F) (V (Proc.devRef .tc main_arg2)) :=
  (unary_result' _ _ _ V).trans rfl
theorem fold_main_v58 (x2 : (⟨S3x128x128, .f32⟩ : BufTy).Contents (Elt F)) :
    b_main_v58 (F := F) x2 = val_main_v58 (F := F) x2 := rfl

def b_main_v59 (u0 : (⟨S1x128x128, .f32⟩ : BufTy).Contents (Elt F)) : (⟨S128x128, .f32⟩ : BufTy).Contents (Elt F) :=
  shapeCast _ u0 shapeCasts_S1x128x128_S128x128
theorem res_main_v59 (V : Valuation τ sig (Elt F)) :
    (reshape main_v58 main_v59 rfl shapeCasts_S1x128x128_S128x128 : HloOp τ sig (Elt F)).result V (no_index (Proc.devRef .tc main_v59))
      = b_main_v59 (F := F) (V (Proc.devRef .tc main_v58)) :=
  (reshape_result' _ _ _ _ V).trans rfl
theorem fold_main_v59 (x2 : (⟨S3x128x128, .f32⟩ : BufTy).Contents (Elt F)) :
    b_main_v59 (F := F) (val_main_v58 (F := F) x2) = val_main_v59 (F := F) x2 := rfl

def b_main_v60 (u0 : (⟨S16x128x64x128, .f32⟩ : BufTy).Contents (Elt F)) (u1 : (⟨S128x128, .f32⟩ : BufTy).Contents (Elt F)) : (⟨S16x128x64x128, .f32⟩ : BufTy).Contents (Elt F) :=
  Host.dotGeneral dot_S16x128x64x128_S128x128_S16x128x64x128_3_0_012_1_n_n none u0 u1
theorem res_main_v60 (V : Valuation τ sig (Elt F)) :
    (binary main_v57 main_v59 main_v60 (no_index (((fun l r => Host.dotGeneral dot_S16x128x64x128_S128x128_S16x128x64x128_3_0_012_1_n_n none l r) : (⟨S16x128x64x128, .f32⟩ : BufTy).Contents (Elt F) → (⟨S128x128, .f32⟩ : BufTy).Contents (Elt F) → (⟨S16x128x64x128, .f32⟩ : BufTy).Contents (Elt F)))) : HloOp τ sig (Elt F)).result V (no_index (Proc.devRef .tc main_v60))
      = b_main_v60 (F := F) (V (Proc.devRef .tc main_v57)) (V (Proc.devRef .tc main_v59)) :=
  (binary_result' _ _ _ _ V).trans rfl
theorem fold_main_v60 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v60 (F := F) (val_main_v57 (F := F) x0 x1 x2 x3 x4 x5 x6 x7) (val_main_v59 (F := F) x2) = val_main_v60 (F := F) x0 x1 x2 x3 x4 x5 x6 x7 := rfl

def b_main_v61 (u0 : (⟨S3x128, .f32⟩ : BufTy).Contents (Elt F)) : (⟨S1x128, .f32⟩ : BufTy).Contents (Elt F) :=
  extractStridedSlice S1x128 ![1, 0] u0 slices_S3x128_S1x128_1_0
theorem res_main_v61 (V : Valuation τ sig (Elt F)) :
    (unary main_arg3 main_v61 (no_index (((extractStridedSlice S1x128 ![1, 0] · slices_S3x128_S1x128_1_0) : (⟨S3x128, .f32⟩ : BufTy).Contents (Elt F) → (⟨S1x128, .f32⟩ : BufTy).Contents (Elt F)))) : HloOp τ sig (Elt F)).result V (no_index (Proc.devRef .tc main_v61))
      = b_main_v61 (F := F) (V (Proc.devRef .tc main_arg3)) :=
  (unary_result' _ _ _ V).trans rfl
theorem fold_main_v61 (x3 : (⟨S3x128, .f32⟩ : BufTy).Contents (Elt F)) :
    b_main_v61 (F := F) x3 = val_main_v61 (F := F) x3 := rfl

def b_main_v62 (u0 : (⟨S1x128, .f32⟩ : BufTy).Contents (Elt F)) : (⟨S128, .f32⟩ : BufTy).Contents (Elt F) :=
  shapeCast _ u0 shapeCasts_S1x128_S128
theorem res_main_v62 (V : Valuation τ sig (Elt F)) :
    (reshape main_v61 main_v62 rfl shapeCasts_S1x128_S128 : HloOp τ sig (Elt F)).result V (no_index (Proc.devRef .tc main_v62))
      = b_main_v62 (F := F) (V (Proc.devRef .tc main_v61)) :=
  (reshape_result' _ _ _ _ V).trans rfl
theorem fold_main_v62 (x3 : (⟨S3x128, .f32⟩ : BufTy).Contents (Elt F)) :
    b_main_v62 (F := F) (val_main_v61 (F := F) x3) = val_main_v62 (F := F) x3 := rfl

def b_main_v63 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v63 (V : Valuation τ sig (Elt F)) :
    (unary main_v62 main_v63 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v63))
      = b_main_v63 (F := F) (V (Proc.devRef .tc main_v62)) :=
  (unary_result' _ _ _ V).trans rfl
theorem fold_main_v63 (x3 : (⟨S3x128, .f32⟩ : BufTy).Contents (Elt F)) :
    b_main_v63 (F := F) (val_main_v62 (F := F) x3) = val_main_v63 (F := F) x3 := rfl

def b_main_v64 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v64 (V : Valuation τ sig (Elt F)) :
    (unary main_v63 main_v64 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v64))
      = b_main_v64 (F := F) (V (Proc.devRef .tc main_v63)) :=
  (unary_result' _ _ _ V).trans rfl
theorem fold_main_v64 (x3 : (⟨S3x128, .f32⟩ : BufTy).Contents (Elt F)) :
    b_main_v64 (F := F) (val_main_v63 (F := F) x3) = val_main_v64 (F := F) x3 := rfl

def b_main_v65 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v65 (V : Valuation τ sig (Elt F)) :
    (binary main_v60 main_v64 main_v65 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v65))
      = b_main_v65 (F := F) (V (Proc.devRef .tc main_v60)) (V (Proc.devRef .tc main_v64)) :=
  (binary_result' _ _ _ _ V).trans rfl
theorem fold_main_v65 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v65 (F := F) (val_main_v60 (F := F) x0 x1 x2 x3 x4 x5 x6 x7) (val_main_v64 (F := F) x3) = val_main_v65 (F := F) x0 x1 x2 x3 x4 x5 x6 x7 := rfl

def b_main_v66 (u0 : (⟨S3x128, .f32⟩ : BufTy).Contents (Elt F)) : (⟨S1x128, .f32⟩ : BufTy).Contents (Elt F) :=
  extractStridedSlice S1x128 ![1, 0] u0 slices_S3x128_S1x128_1_0
theorem res_main_v66 (V : Valuation τ sig (Elt F)) :
    (unary main_arg4 main_v66 (no_index (((extractStridedSlice S1x128 ![1, 0] · slices_S3x128_S1x128_1_0) : (⟨S3x128, .f32⟩ : BufTy).Contents (Elt F) → (⟨S1x128, .f32⟩ : BufTy).Contents (Elt F)))) : HloOp τ sig (Elt F)).result V (no_index (Proc.devRef .tc main_v66))
      = b_main_v66 (F := F) (V (Proc.devRef .tc main_arg4)) :=
  (unary_result' _ _ _ V).trans rfl
theorem fold_main_v66 (x4 : (⟨S3x128, .f32⟩ : BufTy).Contents (Elt F)) :
    b_main_v66 (F := F) x4 = val_main_v66 (F := F) x4 := rfl

def b_main_v67 (u0 : (⟨S1x128, .f32⟩ : BufTy).Contents (Elt F)) : (⟨S128, .f32⟩ : BufTy).Contents (Elt F) :=
  shapeCast _ u0 shapeCasts_S1x128_S128
theorem res_main_v67 (V : Valuation τ sig (Elt F)) :
    (reshape main_v66 main_v67 rfl shapeCasts_S1x128_S128 : HloOp τ sig (Elt F)).result V (no_index (Proc.devRef .tc main_v67))
      = b_main_v67 (F := F) (V (Proc.devRef .tc main_v66)) :=
  (reshape_result' _ _ _ _ V).trans rfl
theorem fold_main_v67 (x4 : (⟨S3x128, .f32⟩ : BufTy).Contents (Elt F)) :
    b_main_v67 (F := F) (val_main_v66 (F := F) x4) = val_main_v67 (F := F) x4 := rfl

def b_main_v68 (u0 : (⟨S3x128, .f32⟩ : BufTy).Contents (Elt F)) : (⟨S1x128, .f32⟩ : BufTy).Contents (Elt F) :=
  extractStridedSlice S1x128 ![1, 0] u0 slices_S3x128_S1x128_1_0
theorem res_main_v68 (V : Valuation τ sig (Elt F)) :
    (unary main_arg5 main_v68 (no_index (((extractStridedSlice S1x128 ![1, 0] · slices_S3x128_S1x128_1_0) : (⟨S3x128, .f32⟩ : BufTy).Contents (Elt F) → (⟨S1x128, .f32⟩ : BufTy).Contents (Elt F)))) : HloOp τ sig (Elt F)).result V (no_index (Proc.devRef .tc main_v68))
      = b_main_v68 (F := F) (V (Proc.devRef .tc main_arg5)) :=
  (unary_result' _ _ _ V).trans rfl
theorem fold_main_v68 (x5 : (⟨S3x128, .f32⟩ : BufTy).Contents (Elt F)) :
    b_main_v68 (F := F) x5 = val_main_v68 (F := F) x5 := rfl

def b_main_v69 (u0 : (⟨S1x128, .f32⟩ : BufTy).Contents (Elt F)) : (⟨S128, .f32⟩ : BufTy).Contents (Elt F) :=
  shapeCast _ u0 shapeCasts_S1x128_S128
theorem res_main_v69 (V : Valuation τ sig (Elt F)) :
    (reshape main_v68 main_v69 rfl shapeCasts_S1x128_S128 : HloOp τ sig (Elt F)).result V (no_index (Proc.devRef .tc main_v69))
      = b_main_v69 (F := F) (V (Proc.devRef .tc main_v68)) :=
  (reshape_result' _ _ _ _ V).trans rfl
theorem fold_main_v69 (x5 : (⟨S3x128, .f32⟩ : BufTy).Contents (Elt F)) :
    b_main_v69 (F := F) (val_main_v68 (F := F) x5) = val_main_v69 (F := F) x5 := rfl

def b_main_cst_8 : (⟨S_, .f32⟩ : BufTy).Contents (Elt F) :=
  constant S_ .f32 0x00000000#32
theorem res_main_cst_8 (V : Valuation τ sig (Elt F)) :
    (nullary main_cst_8 (no_index ((constant S_ .f32 0x00000000#32))) : HloOp τ sig (Elt F)).result V (no_index (Proc.devRef .tc main_cst_8))
      = b_main_cst_8 (F := F) :=
  (nullary_result' _ _ V).trans rfl
theorem fold_main_cst_8 :
    b_main_cst_8 (F := F) = val_main_cst_8 (F := F) := rfl

def b_main_v70 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v70 (V : Valuation τ sig (Elt F)) :
    (binary main_v65 main_cst_8 main_v70 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v70))
      = b_main_v70 (F := F) (V (Proc.devRef .tc main_v65)) (V (Proc.devRef .tc main_cst_8)) :=
  (binary_result' _ _ _ _ V).trans rfl
theorem fold_main_v70 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v70 (F := F) (val_main_v65 (F := F) x0 x1 x2 x3 x4 x5 x6 x7) (val_main_cst_8 (F := F)) = val_main_v70 (F := F) x0 x1 x2 x3 x4 x5 x6 x7 := rfl

def b_main_v71 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v71 (V : Valuation τ sig (Elt F)) :
    (unary main_v70 main_v71 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v71))
      = b_main_v71 (F := F) (V (Proc.devRef .tc main_v70)) :=
  (unary_result' _ _ _ V).trans rfl
theorem fold_main_v71 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v71 (F := F) (val_main_v70 (F := F) x0 x1 x2 x3 x4 x5 x6 x7) = val_main_v71 (F := F) x0 x1 x2 x3 x4 x5 x6 x7 := rfl

def b_main_cst_9 : (⟨S_, .f32⟩ : BufTy).Contents (Elt F) :=
  constant S_ .f32 0x43000000#32
theorem res_main_cst_9 (V : Valuation τ sig (Elt F)) :
    (nullary main_cst_9 (no_index ((constant S_ .f32 0x43000000#32))) : HloOp τ sig (Elt F)).result V (no_index (Proc.devRef .tc main_cst_9))
      = b_main_cst_9 (F := F) :=
  (nullary_result' _ _ V).trans rfl
theorem fold_main_cst_9 :
    b_main_cst_9 (F := F) = val_main_cst_9 (F := F) := rfl

def b_main_v72 (u0 : (⟨S_, .f32⟩ : BufTy).Contents (Elt F)) : (⟨S16x128x64x1, .f32⟩ : BufTy).Contents (Elt F) :=
  broadcastInDim S16x128x64x1 ![] bcast_S_S16x128x64x1 u0
theorem res_main_v72 (V : Valuation τ sig (Elt F)) :
    (unary main_cst_9 main_v72 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v72))
      = b_main_v72 (F := F) (V (Proc.devRef .tc main_cst_9)) :=
  (unary_result' _ _ _ V).trans rfl
theorem fold_main_v72 :
    b_main_v72 (F := F) (val_main_cst_9 (F := F)) = val_main_v72 (F := F) := rfl

def b_main_v73 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v73 (V : Valuation τ sig (Elt F)) :
    (binary main_v71 main_v72 main_v73 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v73))
      = b_main_v73 (F := F) (V (Proc.devRef .tc main_v71)) (V (Proc.devRef .tc main_v72)) :=
  (binary_result' _ _ _ _ V).trans rfl
theorem fold_main_v73 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v73 (F := F) (val_main_v71 (F := F) x0 x1 x2 x3 x4 x5 x6 x7) (val_main_v72 (F := F)) = val_main_v73 (F := F) x0 x1 x2 x3 x4 x5 x6 x7 := rfl

def b_main_v74 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v74 (V : Valuation τ sig (Elt F)) :
    (unary main_v73 main_v74 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v74))
      = b_main_v74 (F := F) (V (Proc.devRef .tc main_v73)) :=
  (unary_result' _ _ _ V).trans rfl
theorem fold_main_v74 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v74 (F := F) (val_main_v73 (F := F) x0 x1 x2 x3 x4 x5 x6 x7) = val_main_v74 (F := F) x0 x1 x2 x3 x4 x5 x6 x7 := rfl

def b_main_v75 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v75 (V : Valuation τ sig (Elt F)) :
    (binary main_v65 main_v74 main_v75 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v75))
      = b_main_v75 (F := F) (V (Proc.devRef .tc main_v65)) (V (Proc.devRef .tc main_v74)) :=
  (binary_result' _ _ _ _ V).trans rfl
theorem fold_main_v75 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v75 (F := F) (val_main_v65 (F := F) x0 x1 x2 x3 x4 x5 x6 x7) (val_main_v74 (F := F) x0 x1 x2 x3 x4 x5 x6 x7) = val_main_v75 (F := F) x0 x1 x2 x3 x4 x5 x6 x7 := rfl

def b_main_v76 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v76 (V : Valuation τ sig (Elt F)) :
    (binary main_v75 main_v75 main_v76 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v76))
      = b_main_v76 (F := F) (V (Proc.devRef .tc main_v75)) (V (Proc.devRef .tc main_v75)) :=
  (binary_result' _ _ _ _ V).trans rfl
theorem fold_main_v76 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v76 (F := F) (val_main_v75 (F := F) x0 x1 x2 x3 x4 x5 x6 x7) (val_main_v75 (F := F) x0 x1 x2 x3 x4 x5 x6 x7) = val_main_v76 (F := F) x0 x1 x2 x3 x4 x5 x6 x7 := rfl

def b_main_cst_10 : (⟨S_, .f32⟩ : BufTy).Contents (Elt F) :=
  constant S_ .f32 0x00000000#32
theorem res_main_cst_10 (V : Valuation τ sig (Elt F)) :
    (nullary main_cst_10 (no_index ((constant S_ .f32 0x00000000#32))) : HloOp τ sig (Elt F)).result V (no_index (Proc.devRef .tc main_cst_10))
      = b_main_cst_10 (F := F) :=
  (nullary_result' _ _ V).trans rfl
theorem fold_main_cst_10 :
    b_main_cst_10 (F := F) = val_main_cst_10 (F := F) := rfl

def b_main_v77 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v77 (V : Valuation τ sig (Elt F)) :
    (binary main_v76 main_cst_10 main_v77 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v77))
      = b_main_v77 (F := F) (V (Proc.devRef .tc main_v76)) (V (Proc.devRef .tc main_cst_10)) :=
  (binary_result' _ _ _ _ V).trans rfl
theorem fold_main_v77 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v77 (F := F) (val_main_v76 (F := F) x0 x1 x2 x3 x4 x5 x6 x7) (val_main_cst_10 (F := F)) = val_main_v77 (F := F) x0 x1 x2 x3 x4 x5 x6 x7 := rfl

def b_main_v78 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v78 (V : Valuation τ sig (Elt F)) :
    (unary main_v77 main_v78 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v78))
      = b_main_v78 (F := F) (V (Proc.devRef .tc main_v77)) :=
  (unary_result' _ _ _ V).trans rfl
theorem fold_main_v78 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v78 (F := F) (val_main_v77 (F := F) x0 x1 x2 x3 x4 x5 x6 x7) = val_main_v78 (F := F) x0 x1 x2 x3 x4 x5 x6 x7 := rfl

def b_main_cst_11 : (⟨S_, .f32⟩ : BufTy).Contents (Elt F) :=
  constant S_ .f32 0x43000000#32
theorem res_main_cst_11 (V : Valuation τ sig (Elt F)) :
    (nullary main_cst_11 (no_index ((constant S_ .f32 0x43000000#32))) : HloOp τ sig (Elt F)).result V (no_index (Proc.devRef .tc main_cst_11))
      = b_main_cst_11 (F := F) :=
  (nullary_result' _ _ V).trans rfl
theorem fold_main_cst_11 :
    b_main_cst_11 (F := F) = val_main_cst_11 (F := F) := rfl

def b_main_v79 (u0 : (⟨S_, .f32⟩ : BufTy).Contents (Elt F)) : (⟨S16x128x64x1, .f32⟩ : BufTy).Contents (Elt F) :=
  broadcastInDim S16x128x64x1 ![] bcast_S_S16x128x64x1 u0
theorem res_main_v79 (V : Valuation τ sig (Elt F)) :
    (unary main_cst_11 main_v79 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v79))
      = b_main_v79 (F := F) (V (Proc.devRef .tc main_cst_11)) :=
  (unary_result' _ _ _ V).trans rfl
theorem fold_main_v79 :
    b_main_v79 (F := F) (val_main_cst_11 (F := F)) = val_main_v79 (F := F) := rfl

def b_main_v80 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v80 (V : Valuation τ sig (Elt F)) :
    (binary main_v78 main_v79 main_v80 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v80))
      = b_main_v80 (F := F) (V (Proc.devRef .tc main_v78)) (V (Proc.devRef .tc main_v79)) :=
  (binary_result' _ _ _ _ V).trans rfl
theorem fold_main_v80 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v80 (F := F) (val_main_v78 (F := F) x0 x1 x2 x3 x4 x5 x6 x7) (val_main_v79 (F := F)) = val_main_v80 (F := F) x0 x1 x2 x3 x4 x5 x6 x7 := rfl

def b_main_v81 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v81 (V : Valuation τ sig (Elt F)) :
    (unary main_v73 main_v81 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v81))
      = b_main_v81 (F := F) (V (Proc.devRef .tc main_v73)) :=
  (unary_result' _ _ _ V).trans rfl
theorem fold_main_v81 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v81 (F := F) (val_main_v73 (F := F) x0 x1 x2 x3 x4 x5 x6 x7) = val_main_v81 (F := F) x0 x1 x2 x3 x4 x5 x6 x7 := rfl

def b_main_v82 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v82 (V : Valuation τ sig (Elt F)) :
    (binary main_v65 main_v81 main_v82 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v82))
      = b_main_v82 (F := F) (V (Proc.devRef .tc main_v65)) (V (Proc.devRef .tc main_v81)) :=
  (binary_result' _ _ _ _ V).trans rfl
theorem fold_main_v82 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v82 (F := F) (val_main_v65 (F := F) x0 x1 x2 x3 x4 x5 x6 x7) (val_main_v81 (F := F) x0 x1 x2 x3 x4 x5 x6 x7) = val_main_v82 (F := F) x0 x1 x2 x3 x4 x5 x6 x7 := rfl

def b_main_cst_12 : (⟨S_, .f32⟩ : BufTy).Contents (Elt F) :=
  constant S_ .f32 0x3727C5AC#32
theorem res_main_cst_12 (V : Valuation τ sig (Elt F)) :
    (nullary main_cst_12 (no_index ((constant S_ .f32 0x3727C5AC#32))) : HloOp τ sig (Elt F)).result V (no_index (Proc.devRef .tc main_cst_12))
      = b_main_cst_12 (F := F) :=
  (nullary_result' _ _ V).trans rfl
theorem fold_main_cst_12 :
    b_main_cst_12 (F := F) = val_main_cst_12 (F := F) := rfl

def b_main_v83 (u0 : (⟨S_, .f32⟩ : BufTy).Contents (Elt F)) : (⟨S16x128x64x1, .f32⟩ : BufTy).Contents (Elt F) :=
  broadcastInDim S16x128x64x1 ![] bcast_S_S16x128x64x1 u0
theorem res_main_v83 (V : Valuation τ sig (Elt F)) :
    (unary main_cst_12 main_v83 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v83))
      = b_main_v83 (F := F) (V (Proc.devRef .tc main_cst_12)) :=
  (unary_result' _ _ _ V).trans rfl
theorem fold_main_v83 :
    b_main_v83 (F := F) (val_main_cst_12 (F := F)) = val_main_v83 (F := F) := rfl

def b_main_v84 (u0 : (⟨S16x128x64x1, .f32⟩ : BufTy).Contents (Elt F)) (u1 : (⟨S16x128x64x1, .f32⟩ : BufTy).Contents (Elt F)) : (⟨S16x128x64x1, .f32⟩ : BufTy).Contents (Elt F) :=
  addf u0 u1
theorem res_main_v84 (V : Valuation τ sig (Elt F)) :
    (binary main_v80 main_v83 main_v84 (no_index ((addf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v84))
      = b_main_v84 (F := F) (V (Proc.devRef .tc main_v80)) (V (Proc.devRef .tc main_v83)) :=
  (binary_result' _ _ _ _ V).trans rfl
theorem fold_main_v84 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v84 (F := F) (val_main_v80 (F := F) x0 x1 x2 x3 x4 x5 x6 x7) (val_main_v83 (F := F)) = val_main_v84 (F := F) x0 x1 x2 x3 x4 x5 x6 x7 := rfl

def b_main_v85 (u0 : (⟨S16x128x64x1, .f32⟩ : BufTy).Contents (Elt F)) : (⟨S16x128x64x1, .f32⟩ : BufTy).Contents (Elt F) :=
  Host.rsqrt u0
theorem res_main_v85 (V : Valuation τ sig (Elt F)) :
    (unary main_v84 main_v85 (no_index ((Host.rsqrt : (⟨S16x128x64x1, .f32⟩ : BufTy).Contents (Elt F) → (⟨S16x128x64x1, .f32⟩ : BufTy).Contents (Elt F)))) : HloOp τ sig (Elt F)).result V (no_index (Proc.devRef .tc main_v85))
      = b_main_v85 (F := F) (V (Proc.devRef .tc main_v84)) :=
  (unary_result' _ _ _ V).trans rfl
theorem fold_main_v85 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v85 (F := F) (val_main_v84 (F := F) x0 x1 x2 x3 x4 x5 x6 x7) = val_main_v85 (F := F) x0 x1 x2 x3 x4 x5 x6 x7 := rfl

def b_main_v86 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v86 (V : Valuation τ sig (Elt F)) :
    (unary main_v85 main_v86 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v86))
      = b_main_v86 (F := F) (V (Proc.devRef .tc main_v85)) :=
  (unary_result' _ _ _ V).trans rfl
theorem fold_main_v86 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v86 (F := F) (val_main_v85 (F := F) x0 x1 x2 x3 x4 x5 x6 x7) = val_main_v86 (F := F) x0 x1 x2 x3 x4 x5 x6 x7 := rfl

def b_main_v87 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v87 (V : Valuation τ sig (Elt F)) :
    (binary main_v82 main_v86 main_v87 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v87))
      = b_main_v87 (F := F) (V (Proc.devRef .tc main_v82)) (V (Proc.devRef .tc main_v86)) :=
  (binary_result' _ _ _ _ V).trans rfl
theorem fold_main_v87 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v87 (F := F) (val_main_v82 (F := F) x0 x1 x2 x3 x4 x5 x6 x7) (val_main_v86 (F := F) x0 x1 x2 x3 x4 x5 x6 x7) = val_main_v87 (F := F) x0 x1 x2 x3 x4 x5 x6 x7 := rfl

def b_main_v88 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v88 (V : Valuation τ sig (Elt F)) :
    (unary main_v67 main_v88 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v88))
      = b_main_v88 (F := F) (V (Proc.devRef .tc main_v67)) :=
  (unary_result' _ _ _ V).trans rfl
theorem fold_main_v88 (x4 : (⟨S3x128, .f32⟩ : BufTy).Contents (Elt F)) :
    b_main_v88 (F := F) (val_main_v67 (F := F) x4) = val_main_v88 (F := F) x4 := rfl

def b_main_v89 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v89 (V : Valuation τ sig (Elt F)) :
    (unary main_v88 main_v89 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v89))
      = b_main_v89 (F := F) (V (Proc.devRef .tc main_v88)) :=
  (unary_result' _ _ _ V).trans rfl
theorem fold_main_v89 (x4 : (⟨S3x128, .f32⟩ : BufTy).Contents (Elt F)) :
    b_main_v89 (F := F) (val_main_v88 (F := F) x4) = val_main_v89 (F := F) x4 := rfl

def b_main_v90 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v90 (V : Valuation τ sig (Elt F)) :
    (binary main_v87 main_v89 main_v90 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v90))
      = b_main_v90 (F := F) (V (Proc.devRef .tc main_v87)) (V (Proc.devRef .tc main_v89)) :=
  (binary_result' _ _ _ _ V).trans rfl
theorem fold_main_v90 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v90 (F := F) (val_main_v87 (F := F) x0 x1 x2 x3 x4 x5 x6 x7) (val_main_v89 (F := F) x4) = val_main_v90 (F := F) x0 x1 x2 x3 x4 x5 x6 x7 := rfl

def b_main_v91 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v91 (V : Valuation τ sig (Elt F)) :
    (unary main_v69 main_v91 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v91))
      = b_main_v91 (F := F) (V (Proc.devRef .tc main_v69)) :=
  (unary_result' _ _ _ V).trans rfl
theorem fold_main_v91 (x5 : (⟨S3x128, .f32⟩ : BufTy).Contents (Elt F)) :
    b_main_v91 (F := F) (val_main_v69 (F := F) x5) = val_main_v91 (F := F) x5 := rfl

def b_main_v92 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v92 (V : Valuation τ sig (Elt F)) :
    (unary main_v91 main_v92 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v92))
      = b_main_v92 (F := F) (V (Proc.devRef .tc main_v91)) :=
  (unary_result' _ _ _ V).trans rfl
theorem fold_main_v92 (x5 : (⟨S3x128, .f32⟩ : BufTy).Contents (Elt F)) :
    b_main_v92 (F := F) (val_main_v91 (F := F) x5) = val_main_v92 (F := F) x5 := rfl

def b_main_v93 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v93 (V : Valuation τ sig (Elt F)) :
    (binary main_v90 main_v92 main_v93 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v93))
      = b_main_v93 (F := F) (V (Proc.devRef .tc main_v90)) (V (Proc.devRef .tc main_v92)) :=
  (binary_result' _ _ _ _ V).trans rfl
theorem fold_main_v93 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v93 (F := F) (val_main_v90 (F := F) x0 x1 x2 x3 x4 x5 x6 x7) (val_main_v92 (F := F) x5) = val_main_v93 (F := F) x0 x1 x2 x3 x4 x5 x6 x7 := rfl

def b_main_call4_cst : (⟨S_, .f32⟩ : BufTy).Contents (Elt F) :=
  constant S_ .f32 0x00000000#32
theorem res_main_call4_cst (V : Valuation τ sig (Elt F)) :
    (TRef.nullary (TRef.of (T := ⟨S_, .f32⟩) main_call4_cst) (no_index ((constant S_ .f32 0x00000000#32))) : HloOp τ sig (Elt F)).result V (no_index (Proc.devRef .tc main_call4_cst))
      = b_main_call4_cst (F := F) :=
  (nullary_result' _ _ V).trans rfl
theorem fold_main_call4_cst :
    b_main_call4_cst (F := F) = val_main_call4_cst (F := F) := rfl

def b_main_call4_v0 (u0 : (⟨S_, .f32⟩ : BufTy).Contents (Elt F)) : (⟨S16x128x64x128, .f32⟩ : BufTy).Contents (Elt F) :=
  broadcastInDim S16x128x64x128 ![] bcast_S_S16x128x64x128 u0
theorem res_main_call4_v0 (V : Valuation τ sig (Elt F)) :
    (TRef.unary (TRef.of (T := ⟨S_, .f32⟩) main_call4_cst) (TRef.of (T := ⟨S16x128x64x128, .f32⟩) main_call4_v0) (no_index ((broadcastInDim S16x128x64x128 ![] bcast_S_S16x128x64x128))) : HloOp τ sig (Elt F)).result V (no_index (Proc.devRef .tc main_call4_v0))
      = b_main_call4_v0 (F := F) (V (Proc.devRef .tc main_call4_cst)) :=
  (unary_result' _ _ _ V).trans rfl
theorem fold_main_call4_v0 :
    b_main_call4_v0 (F := F) (val_main_call4_cst (F := F)) = val_main_call4_v0 (F := F) := rfl

def b_main_v94 (u0 : (⟨S16x128x64x128, .f32⟩ : BufTy).Contents (Elt F)) (u1 : (⟨S16x128x64x128, .f32⟩ : BufTy).Contents (Elt F)) : (⟨S16x128x64x128, .f32⟩ : BufTy).Contents (Elt F) :=
  maximumf u0 u1
theorem res_main_v94 (V : Valuation τ sig (Elt F)) :
    (TRef.binary (TRef.of (T := ⟨S16x128x64x128, .f32⟩) main_v93) (TRef.of (T := ⟨S16x128x64x128, .f32⟩) main_call4_v0) (TRef.of (T := ⟨S16x128x64x128, .f32⟩) main_v94) (no_index (maximumf)) : HloOp τ sig (Elt F)).result V (no_index (Proc.devRef .tc main_v94))
      = b_main_v94 (F := F) (V (Proc.devRef .tc main_v93)) (V (Proc.devRef .tc main_call4_v0)) :=
  (binary_result' _ _ _ _ V).trans rfl
theorem fold_main_v94 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v94 (F := F) (val_main_v93 (F := F) x0 x1 x2 x3 x4 x5 x6 x7) (val_main_call4_v0 (F := F)) = val_main_v94 (F := F) x0 x1 x2 x3 x4 x5 x6 x7 := rfl

def b_main_v95 (u0 : (⟨S16x128x64, .i1⟩ : BufTy).Contents (Elt F)) : (⟨S16x128x64x1, .i1⟩ : BufTy).Contents (Elt F) :=
  broadcastInDim S16x128x64x1 ![0, 1, 2] bcast_S16x128x64_S16x128x64x1_0_1_2 u0
theorem res_main_v95 (V : Valuation τ sig (Elt F)) :
    (unary main_v4 main_v95 (no_index ((broadcastInDim S16x128x64x1 ![0, 1, 2] bcast_S16x128x64_S16x128x64x1_0_1_2 : (⟨S16x128x64, .i1⟩ : BufTy).Contents (Elt F) → (⟨S16x128x64x1, .i1⟩ : BufTy).Contents (Elt F)))) : HloOp τ sig (Elt F)).result V (no_index (Proc.devRef .tc main_v95))
      = b_main_v95 (F := F) (V (Proc.devRef .tc main_v4)) :=
  (unary_result' _ _ _ V).trans rfl
theorem fold_main_v95 (x1 : (⟨S16x128x64, .i1⟩ : BufTy).Contents (Elt F)) :
    b_main_v95 (F := F) (val_main_v4 (F := F) x1) = val_main_v95 (F := F) x1 := rfl

def b_main_cst_13 : (⟨S_, .f32⟩ : BufTy).Contents (Elt F) :=
  constant S_ .f32 0xFF800000#32
theorem res_main_cst_13 (V : Valuation τ sig (Elt F)) :
    (nullary main_cst_13 (no_index ((constant S_ .f32 0xFF800000#32))) : HloOp τ sig (Elt F)).result V (no_index (Proc.devRef .tc main_cst_13))
      = b_main_cst_13 (F := F) :=
  (nullary_result' _ _ V).trans rfl
theorem fold_main_cst_13 :
    b_main_cst_13 (F := F) = val_main_cst_13 (F := F) := rfl

def b_main_call5_v0 (u0 : (⟨S_, .f32⟩ : BufTy).Contents (Elt F)) : (⟨S_, .f32⟩ : BufTy).Contents (Elt F) :=
  id u0
theorem res_main_call5_v0 (V : Valuation τ sig (Elt F)) :
    (TRef.unary (TRef.of (T := ⟨S_, .f32⟩) main_cst_13) (TRef.of (T := ⟨S_, .f32⟩) main_call5_v0) (no_index (id)) : HloOp τ sig (Elt F)).result V (no_index (Proc.devRef .tc main_call5_v0))
      = b_main_call5_v0 (F := F) (V (Proc.devRef .tc main_cst_13)) :=
  (unary_result' _ _ _ V).trans rfl
theorem fold_main_call5_v0 :
    b_main_call5_v0 (F := F) (val_main_cst_13 (F := F)) = val_main_call5_v0 (F := F) := rfl

def b_main_call5_v1 (u0 : (⟨S16x128x64x1, .i1⟩ : BufTy).Contents (Elt F)) : (⟨S16x128x64x128, .i1⟩ : BufTy).Contents (Elt F) :=
  broadcastInDim S16x128x64x128 ![0, 1, 2, 3] bcast_S16x128x64x1_S16x128x64x128_0_1_2_3 u0
theorem res_main_call5_v1 (V : Valuation τ sig (Elt F)) :
    (TRef.unary (TRef.of (T := ⟨S16x128x64x1, .i1⟩) main_v95) (TRef.of (T := ⟨S16x128x64x128, .i1⟩) main_call5_v1) (no_index ((broadcastInDim S16x128x64x128 ![0, 1, 2, 3] bcast_S16x128x64x1_S16x128x64x128_0_1_2_3))) : HloOp τ sig (Elt F)).result V (no_index (Proc.devRef .tc main_call5_v1))
      = b_main_call5_v1 (F := F) (V (Proc.devRef .tc main_v95)) :=
  (unary_result' _ _ _ V).trans rfl
theorem fold_main_call5_v1 (x1 : (⟨S16x128x64, .i1⟩ : BufTy).Contents (Elt F)) :
    b_main_call5_v1 (F := F) (val_main_v95 (F := F) x1) = val_main_call5_v1 (F := F) x1 := rfl

def b_main_call5_v2 (u0 : (⟨S_, .f32⟩ : BufTy).Contents (Elt F)) : (⟨S16x128x64x128, .f32⟩ : BufTy).Contents (Elt F) :=
  broadcastInDim S16x128x64x128 ![] bcast_S_S16x128x64x128 u0
theorem res_main_call5_v2 (V : Valuation τ sig (Elt F)) :
    (TRef.unary (TRef.of (T := ⟨S_, .f32⟩) main_call5_v0) (TRef.of (T := ⟨S16x128x64x128, .f32⟩) main_call5_v2) (no_index ((broadcastInDim S16x128x64x128 ![] bcast_S_S16x128x64x128))) : HloOp τ sig (Elt F)).result V (no_index (Proc.devRef .tc main_call5_v2))
      = b_main_call5_v2 (F := F) (V (Proc.devRef .tc main_call5_v0)) :=
  (unary_result' _ _ _ V).trans rfl
theorem fold_main_call5_v2 :
    b_main_call5_v2 (F := F) (val_main_call5_v0 (F := F)) = val_main_call5_v2 (F := F) := rfl

def b_main_v96 (u0 : (⟨S16x128x64x128, .i1⟩ : BufTy).Contents (Elt F)) (u1 : (⟨S16x128x64x128, .f32⟩ : BufTy).Contents (Elt F)) (u2 : (⟨S16x128x64x128, .f32⟩ : BufTy).Contents (Elt F)) : (⟨S16x128x64x128, .f32⟩ : BufTy).Contents (Elt F) :=
  select u0 u1 u2
theorem res_main_v96 (V : Valuation τ sig (Elt F)) :
    (TRef.ternary (TRef.of (T := ⟨S16x128x64x128, .i1⟩) main_call5_v1) (TRef.of (T := ⟨S16x128x64x128, .f32⟩) main_call5_v2) (TRef.of (T := ⟨S16x128x64x128, .f32⟩) main_v94) (TRef.of (T := ⟨S16x128x64x128, .f32⟩) main_v96) (no_index (select)) : HloOp τ sig (Elt F)).result V (no_index (Proc.devRef .tc main_v96))
      = b_main_v96 (F := F) (V (Proc.devRef .tc main_call5_v1)) (V (Proc.devRef .tc main_call5_v2)) (V (Proc.devRef .tc main_v94)) :=
  (ternary_result' _ _ _ _ _ V).trans rfl
theorem fold_main_v96 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v96 (F := F) (val_main_call5_v1 (F := F) x1) (val_main_call5_v2 (F := F)) (val_main_v94 (F := F) x0 x1 x2 x3 x4 x5 x6 x7) = val_main_v96 (F := F) x0 x1 x2 x3 x4 x5 x6 x7 := rfl

def b_main_cst_14 : (⟨S_, .f32⟩ : BufTy).Contents (Elt F) :=
  constant S_ .f32 0xFF800000#32
theorem res_main_cst_14 (V : Valuation τ sig (Elt F)) :
    (nullary main_cst_14 (no_index ((constant S_ .f32 0xFF800000#32))) : HloOp τ sig (Elt F)).result V (no_index (Proc.devRef .tc main_cst_14))
      = b_main_cst_14 (F := F) :=
  (nullary_result' _ _ V).trans rfl
theorem fold_main_cst_14 :
    b_main_cst_14 (F := F) = val_main_cst_14 (F := F) := rfl

def b_main_v97 (u0 : (⟨S16x128x64x128, .f32⟩ : BufTy).Contents (Elt F)) (u1 : (⟨S_, .f32⟩ : BufTy).Contents (Elt F)) : (⟨S16x128x128, .f32⟩ : BufTy).Contents (Elt F) :=
  Host.reduce FloatOps.maximumf u0 u1 reducesTo_S16x128x64x128_S16x128x128_d2 h_S_
theorem res_main_v97 (V : Valuation τ sig (Elt F)) :
    (binary main_v96 main_cst_14 main_v97 (no_index (((fun x v => Host.reduce FloatOps.maximumf x v reducesTo_S16x128x64x128_S16x128x128_d2 h_S_) : (⟨S16x128x64x128, .f32⟩ : BufTy).Contents (Elt F) → (⟨S_, .f32⟩ : BufTy).Contents (Elt F) → (⟨S16x128x128, .f32⟩ : BufTy).Contents (Elt F)))) : HloOp τ sig (Elt F)).result V (no_index (Proc.devRef .tc main_v97))
      = b_main_v97 (F := F) (V (Proc.devRef .tc main_v96)) (V (Proc.devRef .tc main_cst_14)) :=
  (binary_result' _ _ _ _ V).trans rfl
theorem fold_main_v97 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v97 (F := F) (val_main_v96 (F := F) x0 x1 x2 x3 x4 x5 x6 x7) (val_main_cst_14 (F := F)) = val_main_v97 (F := F) x0 x1 x2 x3 x4 x5 x6 x7 := rfl

def b_main_v98 (u0 : (⟨S16x128x128, .f32⟩ : BufTy).Contents (Elt F)) : (⟨S16x128x1x128, .f32⟩ : BufTy).Contents (Elt F) :=
  broadcastInDim S16x128x1x128 ![0, 1, 3] bcast_S16x128x128_S16x128x1x128_0_1_3 u0
theorem res_main_v98 (V : Valuation τ sig (Elt F)) :
    (unary main_v97 main_v98 (no_index ((broadcastInDim S16x128x1x128 ![0, 1, 3] bcast_S16x128x128_S16x128x1x128_0_1_3 : (⟨S16x128x128, .f32⟩ : BufTy).Contents (Elt F) → (⟨S16x128x1x128, .f32⟩ : BufTy).Contents (Elt F)))) : HloOp τ sig (Elt F)).result V (no_index (Proc.devRef .tc main_v98))
      = b_main_v98 (F := F) (V (Proc.devRef .tc main_v97)) :=
  (unary_result' _ _ _ V).trans rfl
theorem fold_main_v98 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v98 (F := F) (val_main_v97 (F := F) x0 x1 x2 x3 x4 x5 x6 x7) = val_main_v98 (F := F) x0 x1 x2 x3 x4 x5 x6 x7 := rfl

def b_main_v99 (u0 : (⟨S16x128x1x128, .f32⟩ : BufTy).Contents (Elt F)) : (⟨S16x128x64x128, .f32⟩ : BufTy).Contents (Elt F) :=
  broadcastInDim S16x128x64x128 ![0, 1, 2, 3] bcast_S16x128x1x128_S16x128x64x128_0_1_2_3 u0
theorem res_main_v99 (V : Valuation τ sig (Elt F)) :
    (unary main_v98 main_v99 (no_index ((broadcastInDim S16x128x64x128 ![0, 1, 2, 3] bcast_S16x128x1x128_S16x128x64x128_0_1_2_3 : (⟨S16x128x1x128, .f32⟩ : BufTy).Contents (Elt F) → (⟨S16x128x64x128, .f32⟩ : BufTy).Contents (Elt F)))) : HloOp τ sig (Elt F)).result V (no_index (Proc.devRef .tc main_v99))
      = b_main_v99 (F := F) (V (Proc.devRef .tc main_v98)) :=
  (unary_result' _ _ _ V).trans rfl
theorem fold_main_v99 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v99 (F := F) (val_main_v98 (F := F) x0 x1 x2 x3 x4 x5 x6 x7) = val_main_v99 (F := F) x0 x1 x2 x3 x4 x5 x6 x7 := rfl

def b_main_v100 (u0 : (⟨S16x128x64x128, .f32⟩ : BufTy).Contents (Elt F)) (u1 : (⟨S16x128x64x128, .f32⟩ : BufTy).Contents (Elt F)) : (⟨S16x128x64x256, .f32⟩ : BufTy).Contents (Elt F) :=
  concatenate S16x128x64x256 3 [⟨S16x128x64x128, u0⟩, ⟨S16x128x64x128, u1⟩] concatenates_S16x128x64x128_S16x128x64x128_S16x128x64x256_d3
theorem res_main_v100 (V : Valuation τ sig (Elt F)) :
    (binary main_v94 main_v99 main_v100 (no_index (((fun a b => concatenate S16x128x64x256 3 [⟨S16x128x64x128, a⟩, ⟨S16x128x64x128, b⟩] concatenates_S16x128x64x128_S16x128x64x128_S16x128x64x256_d3) : (⟨S16x128x64x128, .f32⟩ : BufTy).Contents (Elt F) → (⟨S16x128x64x128, .f32⟩ : BufTy).Contents (Elt F) → (⟨S16x128x64x256, .f32⟩ : BufTy).Contents (Elt F)))) : HloOp τ sig (Elt F)).result V (no_index (Proc.devRef .tc main_v100))
      = b_main_v100 (F := F) (V (Proc.devRef .tc main_v94)) (V (Proc.devRef .tc main_v99)) :=
  (binary_result' _ _ _ _ V).trans rfl
theorem fold_main_v100 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v100 (F := F) (val_main_v94 (F := F) x0 x1 x2 x3 x4 x5 x6 x7) (val_main_v99 (F := F) x0 x1 x2 x3 x4 x5 x6 x7) = val_main_v100 (F := F) x0 x1 x2 x3 x4 x5 x6 x7 := rfl

def b_main_v101 (u0 : (⟨S3x256x128, .f32⟩ : BufTy).Contents (Elt F)) : (⟨S1x256x128, .f32⟩ : BufTy).Contents (Elt F) :=
  extractStridedSlice S1x256x128 ![1, 0, 0] u0 slices_S3x256x128_S1x256x128_1_0_0
theorem res_main_v101 (V : Valuation τ sig (Elt F)) :
    (unary main_arg6 main_v101 (no_index (((extractStridedSlice S1x256x128 ![1, 0, 0] · slices_S3x256x128_S1x256x128_1_0_0) : (⟨S3x256x128, .f32⟩ : BufTy).Contents (Elt F) → (⟨S1x256x128, .f32⟩ : BufTy).Contents (Elt F)))) : HloOp τ sig (Elt F)).result V (no_index (Proc.devRef .tc main_v101))
      = b_main_v101 (F := F) (V (Proc.devRef .tc main_arg6)) :=
  (unary_result' _ _ _ V).trans rfl
theorem fold_main_v101 (x6 : (⟨S3x256x128, .f32⟩ : BufTy).Contents (Elt F)) :
    b_main_v101 (F := F) x6 = val_main_v101 (F := F) x6 := rfl

def b_main_v102 (u0 : (⟨S1x256x128, .f32⟩ : BufTy).Contents (Elt F)) : (⟨S256x128, .f32⟩ : BufTy).Contents (Elt F) :=
  shapeCast _ u0 shapeCasts_S1x256x128_S256x128
theorem res_main_v102 (V : Valuation τ sig (Elt F)) :
    (reshape main_v101 main_v102 rfl shapeCasts_S1x256x128_S256x128 : HloOp τ sig (Elt F)).result V (no_index (Proc.devRef .tc main_v102))
      = b_main_v102 (F := F) (V (Proc.devRef .tc main_v101)) :=
  (reshape_result' _ _ _ _ V).trans rfl
theorem fold_main_v102 (x6 : (⟨S3x256x128, .f32⟩ : BufTy).Contents (Elt F)) :
    b_main_v102 (F := F) (val_main_v101 (F := F) x6) = val_main_v102 (F := F) x6 := rfl

def b_main_v103 (u0 : (⟨S16x128x64x256, .f32⟩ : BufTy).Contents (Elt F)) (u1 : (⟨S256x128, .f32⟩ : BufTy).Contents (Elt F)) : (⟨S16x128x64x128, .f32⟩ : BufTy).Contents (Elt F) :=
  Host.dotGeneral dot_S16x128x64x256_S256x128_S16x128x64x128_3_0_012_1_n_n none u0 u1
theorem res_main_v103 (V : Valuation τ sig (Elt F)) :
    (binary main_v100 main_v102 main_v103 (no_index (((fun l r => Host.dotGeneral dot_S16x128x64x256_S256x128_S16x128x64x128_3_0_012_1_n_n none l r) : (⟨S16x128x64x256, .f32⟩ : BufTy).Contents (Elt F) → (⟨S256x128, .f32⟩ : BufTy).Contents (Elt F) → (⟨S16x128x64x128, .f32⟩ : BufTy).Contents (Elt F)))) : HloOp τ sig (Elt F)).result V (no_index (Proc.devRef .tc main_v103))
      = b_main_v103 (F := F) (V (Proc.devRef .tc main_v100)) (V (Proc.devRef .tc main_v102)) :=
  (binary_result' _ _ _ _ V).trans rfl
theorem fold_main_v103 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v103 (F := F) (val_main_v100 (F := F) x0 x1 x2 x3 x4 x5 x6 x7) (val_main_v102 (F := F) x6) = val_main_v103 (F := F) x0 x1 x2 x3 x4 x5 x6 x7 := rfl

def b_main_v104 (u0 : (⟨S3x128, .f32⟩ : BufTy).Contents (Elt F)) : (⟨S1x128, .f32⟩ : BufTy).Contents (Elt F) :=
  extractStridedSlice S1x128 ![1, 0] u0 slices_S3x128_S1x128_1_0
theorem res_main_v104 (V : Valuation τ sig (Elt F)) :
    (unary main_arg7 main_v104 (no_index (((extractStridedSlice S1x128 ![1, 0] · slices_S3x128_S1x128_1_0) : (⟨S3x128, .f32⟩ : BufTy).Contents (Elt F) → (⟨S1x128, .f32⟩ : BufTy).Contents (Elt F)))) : HloOp τ sig (Elt F)).result V (no_index (Proc.devRef .tc main_v104))
      = b_main_v104 (F := F) (V (Proc.devRef .tc main_arg7)) :=
  (unary_result' _ _ _ V).trans rfl
theorem fold_main_v104 (x7 : (⟨S3x128, .f32⟩ : BufTy).Contents (Elt F)) :
    b_main_v104 (F := F) x7 = val_main_v104 (F := F) x7 := rfl

def b_main_v105 (u0 : (⟨S1x128, .f32⟩ : BufTy).Contents (Elt F)) : (⟨S128, .f32⟩ : BufTy).Contents (Elt F) :=
  shapeCast _ u0 shapeCasts_S1x128_S128
theorem res_main_v105 (V : Valuation τ sig (Elt F)) :
    (reshape main_v104 main_v105 rfl shapeCasts_S1x128_S128 : HloOp τ sig (Elt F)).result V (no_index (Proc.devRef .tc main_v105))
      = b_main_v105 (F := F) (V (Proc.devRef .tc main_v104)) :=
  (reshape_result' _ _ _ _ V).trans rfl
theorem fold_main_v105 (x7 : (⟨S3x128, .f32⟩ : BufTy).Contents (Elt F)) :
    b_main_v105 (F := F) (val_main_v104 (F := F) x7) = val_main_v105 (F := F) x7 := rfl

def b_main_v106 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v106 (V : Valuation τ sig (Elt F)) :
    (unary main_v105 main_v106 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v106))
      = b_main_v106 (F := F) (V (Proc.devRef .tc main_v105)) :=
  (unary_result' _ _ _ V).trans rfl
theorem fold_main_v106 (x7 : (⟨S3x128, .f32⟩ : BufTy).Contents (Elt F)) :
    b_main_v106 (F := F) (val_main_v105 (F := F) x7) = val_main_v106 (F := F) x7 := rfl

def b_main_v107 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v107 (V : Valuation τ sig (Elt F)) :
    (unary main_v106 main_v107 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v107))
      = b_main_v107 (F := F) (V (Proc.devRef .tc main_v106)) :=
  (unary_result' _ _ _ V).trans rfl
theorem fold_main_v107 (x7 : (⟨S3x128, .f32⟩ : BufTy).Contents (Elt F)) :
    b_main_v107 (F := F) (val_main_v106 (F := F) x7) = val_main_v107 (F := F) x7 := rfl

def b_main_v108 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v108 (V : Valuation τ sig (Elt F)) :
    (binary main_v103 main_v107 main_v108 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v108))
      = b_main_v108 (F := F) (V (Proc.devRef .tc main_v103)) (V (Proc.devRef .tc main_v107)) :=
  (binary_result' _ _ _ _ V).trans rfl
theorem fold_main_v108 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v108 (F := F) (val_main_v103 (F := F) x0 x1 x2 x3 x4 x5 x6 x7) (val_main_v107 (F := F) x7) = val_main_v108 (F := F) x0 x1 x2 x3 x4 x5 x6 x7 := rfl

def b_main_v109 (u0 : (⟨S3x128x128, .f32⟩ : BufTy).Contents (Elt F)) : (⟨S1x128x128, .f32⟩ : BufTy).Contents (Elt F) :=
  extractStridedSlice S1x128x128 ![2, 0, 0] u0 slices_S3x128x128_S1x128x128_2_0_0
theorem res_main_v109 (V : Valuation τ sig (Elt F)) :
    (unary main_arg2 main_v109 (no_index (((extractStridedSlice S1x128x128 ![2, 0, 0] · slices_S3x128x128_S1x128x128_2_0_0) : (⟨S3x128x128, .f32⟩ : BufTy).Contents (Elt F) → (⟨S1x128x128, .f32⟩ : BufTy).Contents (Elt F)))) : HloOp τ sig (Elt F)).result V (no_index (Proc.devRef .tc main_v109))
      = b_main_v109 (F := F) (V (Proc.devRef .tc main_arg2)) :=
  (unary_result' _ _ _ V).trans rfl
theorem fold_main_v109 (x2 : (⟨S3x128x128, .f32⟩ : BufTy).Contents (Elt F)) :
    b_main_v109 (F := F) x2 = val_main_v109 (F := F) x2 := rfl

def b_main_v110 (u0 : (⟨S1x128x128, .f32⟩ : BufTy).Contents (Elt F)) : (⟨S128x128, .f32⟩ : BufTy).Contents (Elt F) :=
  shapeCast _ u0 shapeCasts_S1x128x128_S128x128
theorem res_main_v110 (V : Valuation τ sig (Elt F)) :
    (reshape main_v109 main_v110 rfl shapeCasts_S1x128x128_S128x128 : HloOp τ sig (Elt F)).result V (no_index (Proc.devRef .tc main_v110))
      = b_main_v110 (F := F) (V (Proc.devRef .tc main_v109)) :=
  (reshape_result' _ _ _ _ V).trans rfl
theorem fold_main_v110 (x2 : (⟨S3x128x128, .f32⟩ : BufTy).Contents (Elt F)) :
    b_main_v110 (F := F) (val_main_v109 (F := F) x2) = val_main_v110 (F := F) x2 := rfl

def b_main_v111 (u0 : (⟨S16x128x64x128, .f32⟩ : BufTy).Contents (Elt F)) (u1 : (⟨S128x128, .f32⟩ : BufTy).Contents (Elt F)) : (⟨S16x128x64x128, .f32⟩ : BufTy).Contents (Elt F) :=
  Host.dotGeneral dot_S16x128x64x128_S128x128_S16x128x64x128_3_0_012_1_n_n none u0 u1
theorem res_main_v111 (V : Valuation τ sig (Elt F)) :
    (binary main_v108 main_v110 main_v111 (no_index (((fun l r => Host.dotGeneral dot_S16x128x64x128_S128x128_S16x128x64x128_3_0_012_1_n_n none l r) : (⟨S16x128x64x128, .f32⟩ : BufTy).Contents (Elt F) → (⟨S128x128, .f32⟩ : BufTy).Contents (Elt F) → (⟨S16x128x64x128, .f32⟩ : BufTy).Contents (Elt F)))) : HloOp τ sig (Elt F)).result V (no_index (Proc.devRef .tc main_v111))
      = b_main_v111 (F := F) (V (Proc.devRef .tc main_v108)) (V (Proc.devRef .tc main_v110)) :=
  (binary_result' _ _ _ _ V).trans rfl
theorem fold_main_v111 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v111 (F := F) (val_main_v108 (F := F) x0 x1 x2 x3 x4 x5 x6 x7) (val_main_v110 (F := F) x2) = val_main_v111 (F := F) x0 x1 x2 x3 x4 x5 x6 x7 := rfl

def b_main_v112 (u0 : (⟨S3x128, .f32⟩ : BufTy).Contents (Elt F)) : (⟨S1x128, .f32⟩ : BufTy).Contents (Elt F) :=
  extractStridedSlice S1x128 ![2, 0] u0 slices_S3x128_S1x128_2_0
theorem res_main_v112 (V : Valuation τ sig (Elt F)) :
    (unary main_arg3 main_v112 (no_index (((extractStridedSlice S1x128 ![2, 0] · slices_S3x128_S1x128_2_0) : (⟨S3x128, .f32⟩ : BufTy).Contents (Elt F) → (⟨S1x128, .f32⟩ : BufTy).Contents (Elt F)))) : HloOp τ sig (Elt F)).result V (no_index (Proc.devRef .tc main_v112))
      = b_main_v112 (F := F) (V (Proc.devRef .tc main_arg3)) :=
  (unary_result' _ _ _ V).trans rfl
theorem fold_main_v112 (x3 : (⟨S3x128, .f32⟩ : BufTy).Contents (Elt F)) :
    b_main_v112 (F := F) x3 = val_main_v112 (F := F) x3 := rfl

def b_main_v113 (u0 : (⟨S1x128, .f32⟩ : BufTy).Contents (Elt F)) : (⟨S128, .f32⟩ : BufTy).Contents (Elt F) :=
  shapeCast _ u0 shapeCasts_S1x128_S128
theorem res_main_v113 (V : Valuation τ sig (Elt F)) :
    (reshape main_v112 main_v113 rfl shapeCasts_S1x128_S128 : HloOp τ sig (Elt F)).result V (no_index (Proc.devRef .tc main_v113))
      = b_main_v113 (F := F) (V (Proc.devRef .tc main_v112)) :=
  (reshape_result' _ _ _ _ V).trans rfl
theorem fold_main_v113 (x3 : (⟨S3x128, .f32⟩ : BufTy).Contents (Elt F)) :
    b_main_v113 (F := F) (val_main_v112 (F := F) x3) = val_main_v113 (F := F) x3 := rfl

def b_main_v114 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v114 (V : Valuation τ sig (Elt F)) :
    (unary main_v113 main_v114 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v114))
      = b_main_v114 (F := F) (V (Proc.devRef .tc main_v113)) :=
  (unary_result' _ _ _ V).trans rfl
theorem fold_main_v114 (x3 : (⟨S3x128, .f32⟩ : BufTy).Contents (Elt F)) :
    b_main_v114 (F := F) (val_main_v113 (F := F) x3) = val_main_v114 (F := F) x3 := rfl

def b_main_v115 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v115 (V : Valuation τ sig (Elt F)) :
    (unary main_v114 main_v115 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v115))
      = b_main_v115 (F := F) (V (Proc.devRef .tc main_v114)) :=
  (unary_result' _ _ _ V).trans rfl
theorem fold_main_v115 (x3 : (⟨S3x128, .f32⟩ : BufTy).Contents (Elt F)) :
    b_main_v115 (F := F) (val_main_v114 (F := F) x3) = val_main_v115 (F := F) x3 := rfl

def b_main_v116 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v116 (V : Valuation τ sig (Elt F)) :
    (binary main_v111 main_v115 main_v116 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v116))
      = b_main_v116 (F := F) (V (Proc.devRef .tc main_v111)) (V (Proc.devRef .tc main_v115)) :=
  (binary_result' _ _ _ _ V).trans rfl
theorem fold_main_v116 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v116 (F := F) (val_main_v111 (F := F) x0 x1 x2 x3 x4 x5 x6 x7) (val_main_v115 (F := F) x3) = val_main_v116 (F := F) x0 x1 x2 x3 x4 x5 x6 x7 := rfl

def b_main_v117 (u0 : (⟨S3x128, .f32⟩ : BufTy).Contents (Elt F)) : (⟨S1x128, .f32⟩ : BufTy).Contents (Elt F) :=
  extractStridedSlice S1x128 ![2, 0] u0 slices_S3x128_S1x128_2_0
theorem res_main_v117 (V : Valuation τ sig (Elt F)) :
    (unary main_arg4 main_v117 (no_index (((extractStridedSlice S1x128 ![2, 0] · slices_S3x128_S1x128_2_0) : (⟨S3x128, .f32⟩ : BufTy).Contents (Elt F) → (⟨S1x128, .f32⟩ : BufTy).Contents (Elt F)))) : HloOp τ sig (Elt F)).result V (no_index (Proc.devRef .tc main_v117))
      = b_main_v117 (F := F) (V (Proc.devRef .tc main_arg4)) :=
  (unary_result' _ _ _ V).trans rfl
theorem fold_main_v117 (x4 : (⟨S3x128, .f32⟩ : BufTy).Contents (Elt F)) :
    b_main_v117 (F := F) x4 = val_main_v117 (F := F) x4 := rfl

def b_main_v118 (u0 : (⟨S1x128, .f32⟩ : BufTy).Contents (Elt F)) : (⟨S128, .f32⟩ : BufTy).Contents (Elt F) :=
  shapeCast _ u0 shapeCasts_S1x128_S128
theorem res_main_v118 (V : Valuation τ sig (Elt F)) :
    (reshape main_v117 main_v118 rfl shapeCasts_S1x128_S128 : HloOp τ sig (Elt F)).result V (no_index (Proc.devRef .tc main_v118))
      = b_main_v118 (F := F) (V (Proc.devRef .tc main_v117)) :=
  (reshape_result' _ _ _ _ V).trans rfl
theorem fold_main_v118 (x4 : (⟨S3x128, .f32⟩ : BufTy).Contents (Elt F)) :
    b_main_v118 (F := F) (val_main_v117 (F := F) x4) = val_main_v118 (F := F) x4 := rfl

def b_main_v119 (u0 : (⟨S3x128, .f32⟩ : BufTy).Contents (Elt F)) : (⟨S1x128, .f32⟩ : BufTy).Contents (Elt F) :=
  extractStridedSlice S1x128 ![2, 0] u0 slices_S3x128_S1x128_2_0
theorem res_main_v119 (V : Valuation τ sig (Elt F)) :
    (unary main_arg5 main_v119 (no_index (((extractStridedSlice S1x128 ![2, 0] · slices_S3x128_S1x128_2_0) : (⟨S3x128, .f32⟩ : BufTy).Contents (Elt F) → (⟨S1x128, .f32⟩ : BufTy).Contents (Elt F)))) : HloOp τ sig (Elt F)).result V (no_index (Proc.devRef .tc main_v119))
      = b_main_v119 (F := F) (V (Proc.devRef .tc main_arg5)) :=
  (unary_result' _ _ _ V).trans rfl
theorem fold_main_v119 (x5 : (⟨S3x128, .f32⟩ : BufTy).Contents (Elt F)) :
    b_main_v119 (F := F) x5 = val_main_v119 (F := F) x5 := rfl

def b_main_v120 (u0 : (⟨S1x128, .f32⟩ : BufTy).Contents (Elt F)) : (⟨S128, .f32⟩ : BufTy).Contents (Elt F) :=
  shapeCast _ u0 shapeCasts_S1x128_S128
theorem res_main_v120 (V : Valuation τ sig (Elt F)) :
    (reshape main_v119 main_v120 rfl shapeCasts_S1x128_S128 : HloOp τ sig (Elt F)).result V (no_index (Proc.devRef .tc main_v120))
      = b_main_v120 (F := F) (V (Proc.devRef .tc main_v119)) :=
  (reshape_result' _ _ _ _ V).trans rfl
theorem fold_main_v120 (x5 : (⟨S3x128, .f32⟩ : BufTy).Contents (Elt F)) :
    b_main_v120 (F := F) (val_main_v119 (F := F) x5) = val_main_v120 (F := F) x5 := rfl

def b_main_cst_15 : (⟨S_, .f32⟩ : BufTy).Contents (Elt F) :=
  constant S_ .f32 0x00000000#32
theorem res_main_cst_15 (V : Valuation τ sig (Elt F)) :
    (nullary main_cst_15 (no_index ((constant S_ .f32 0x00000000#32))) : HloOp τ sig (Elt F)).result V (no_index (Proc.devRef .tc main_cst_15))
      = b_main_cst_15 (F := F) :=
  (nullary_result' _ _ V).trans rfl
theorem fold_main_cst_15 :
    b_main_cst_15 (F := F) = val_main_cst_15 (F := F) := rfl

def b_main_v121 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v121 (V : Valuation τ sig (Elt F)) :
    (binary main_v116 main_cst_15 main_v121 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v121))
      = b_main_v121 (F := F) (V (Proc.devRef .tc main_v116)) (V (Proc.devRef .tc main_cst_15)) :=
  (binary_result' _ _ _ _ V).trans rfl
theorem fold_main_v121 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v121 (F := F) (val_main_v116 (F := F) x0 x1 x2 x3 x4 x5 x6 x7) (val_main_cst_15 (F := F)) = val_main_v121 (F := F) x0 x1 x2 x3 x4 x5 x6 x7 := rfl

def b_main_v122 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v122 (V : Valuation τ sig (Elt F)) :
    (unary main_v121 main_v122 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v122))
      = b_main_v122 (F := F) (V (Proc.devRef .tc main_v121)) :=
  (unary_result' _ _ _ V).trans rfl
theorem fold_main_v122 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v122 (F := F) (val_main_v121 (F := F) x0 x1 x2 x3 x4 x5 x6 x7) = val_main_v122 (F := F) x0 x1 x2 x3 x4 x5 x6 x7 := rfl

def b_main_cst_16 : (⟨S_, .f32⟩ : BufTy).Contents (Elt F) :=
  constant S_ .f32 0x43000000#32
theorem res_main_cst_16 (V : Valuation τ sig (Elt F)) :
    (nullary main_cst_16 (no_index ((constant S_ .f32 0x43000000#32))) : HloOp τ sig (Elt F)).result V (no_index (Proc.devRef .tc main_cst_16))
      = b_main_cst_16 (F := F) :=
  (nullary_result' _ _ V).trans rfl
theorem fold_main_cst_16 :
    b_main_cst_16 (F := F) = val_main_cst_16 (F := F) := rfl

def b_main_v123 (u0 : (⟨S_, .f32⟩ : BufTy).Contents (Elt F)) : (⟨S16x128x64x1, .f32⟩ : BufTy).Contents (Elt F) :=
  broadcastInDim S16x128x64x1 ![] bcast_S_S16x128x64x1 u0
theorem res_main_v123 (V : Valuation τ sig (Elt F)) :
    (unary main_cst_16 main_v123 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v123))
      = b_main_v123 (F := F) (V (Proc.devRef .tc main_cst_16)) :=
  (unary_result' _ _ _ V).trans rfl
theorem fold_main_v123 :
    b_main_v123 (F := F) (val_main_cst_16 (F := F)) = val_main_v123 (F := F) := rfl

def b_main_v124 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v124 (V : Valuation τ sig (Elt F)) :
    (binary main_v122 main_v123 main_v124 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v124))
      = b_main_v124 (F := F) (V (Proc.devRef .tc main_v122)) (V (Proc.devRef .tc main_v123)) :=
  (binary_result' _ _ _ _ V).trans rfl
theorem fold_main_v124 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v124 (F := F) (val_main_v122 (F := F) x0 x1 x2 x3 x4 x5 x6 x7) (val_main_v123 (F := F)) = val_main_v124 (F := F) x0 x1 x2 x3 x4 x5 x6 x7 := rfl

def b_main_v125 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v125 (V : Valuation τ sig (Elt F)) :
    (unary main_v124 main_v125 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v125))
      = b_main_v125 (F := F) (V (Proc.devRef .tc main_v124)) :=
  (unary_result' _ _ _ V).trans rfl
theorem fold_main_v125 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v125 (F := F) (val_main_v124 (F := F) x0 x1 x2 x3 x4 x5 x6 x7) = val_main_v125 (F := F) x0 x1 x2 x3 x4 x5 x6 x7 := rfl

def b_main_v126 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v126 (V : Valuation τ sig (Elt F)) :
    (binary main_v116 main_v125 main_v126 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v126))
      = b_main_v126 (F := F) (V (Proc.devRef .tc main_v116)) (V (Proc.devRef .tc main_v125)) :=
  (binary_result' _ _ _ _ V).trans rfl
theorem fold_main_v126 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v126 (F := F) (val_main_v116 (F := F) x0 x1 x2 x3 x4 x5 x6 x7) (val_main_v125 (F := F) x0 x1 x2 x3 x4 x5 x6 x7) = val_main_v126 (F := F) x0 x1 x2 x3 x4 x5 x6 x7 := rfl

def b_main_v127 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v127 (V : Valuation τ sig (Elt F)) :
    (binary main_v126 main_v126 main_v127 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v127))
      = b_main_v127 (F := F) (V (Proc.devRef .tc main_v126)) (V (Proc.devRef .tc main_v126)) :=
  (binary_result' _ _ _ _ V).trans rfl
theorem fold_main_v127 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v127 (F := F) (val_main_v126 (F := F) x0 x1 x2 x3 x4 x5 x6 x7) (val_main_v126 (F := F) x0 x1 x2 x3 x4 x5 x6 x7) = val_main_v127 (F := F) x0 x1 x2 x3 x4 x5 x6 x7 := rfl

def b_main_cst_17 : (⟨S_, .f32⟩ : BufTy).Contents (Elt F) :=
  constant S_ .f32 0x00000000#32
theorem res_main_cst_17 (V : Valuation τ sig (Elt F)) :
    (nullary main_cst_17 (no_index ((constant S_ .f32 0x00000000#32))) : HloOp τ sig (Elt F)).result V (no_index (Proc.devRef .tc main_cst_17))
      = b_main_cst_17 (F := F) :=
  (nullary_result' _ _ V).trans rfl
theorem fold_main_cst_17 :
    b_main_cst_17 (F := F) = val_main_cst_17 (F := F) := rfl

def b_main_v128 (u0 : (⟨S16x128x64x128, .f32⟩ : BufTy).Contents (Elt F)) (u1 : (⟨S_, .f32⟩ : BufTy).Contents (Elt F)) : (⟨S16x128x64, .f32⟩ : BufTy).Contents (Elt F) :=
  Host.reduceAdd u0 u1 reducesTo_S16x128x64x128_S16x128x64_d3 h_S_
theorem res_main_v128 (V : Valuation τ sig (Elt F)) :
    (binary main_v127 main_cst_17 main_v128 (no_index (((fun x v => Host.reduceAdd x v reducesTo_S16x128x64x128_S16x128x64_d3 h_S_) : (⟨S16x128x64x128, .f32⟩ : BufTy).Contents (Elt F) → (⟨S_, .f32⟩ : BufTy).Contents (Elt F) → (⟨S16x128x64, .f32⟩ : BufTy).Contents (Elt F)))) : HloOp τ sig (Elt F)).result V (no_index (Proc.devRef .tc main_v128))
      = b_main_v128 (F := F) (V (Proc.devRef .tc main_v127)) (V (Proc.devRef .tc main_cst_17)) :=
  (binary_result' _ _ _ _ V).trans rfl
theorem fold_main_v128 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v128 (F := F) (val_main_v127 (F := F) x0 x1 x2 x3 x4 x5 x6 x7) (val_main_cst_17 (F := F)) = val_main_v128 (F := F) x0 x1 x2 x3 x4 x5 x6 x7 := rfl

def b_main_v129 (u0 : (⟨S16x128x64, .f32⟩ : BufTy).Contents (Elt F)) : (⟨S16x128x64x1, .f32⟩ : BufTy).Contents (Elt F) :=
  broadcastInDim S16x128x64x1 ![0, 1, 2] bcast_S16x128x64_S16x128x64x1_0_1_2 u0
theorem res_main_v129 (V : Valuation τ sig (Elt F)) :
    (unary main_v128 main_v129 (no_index ((broadcastInDim S16x128x64x1 ![0, 1, 2] bcast_S16x128x64_S16x128x64x1_0_1_2 : (⟨S16x128x64, .f32⟩ : BufTy).Contents (Elt F) → (⟨S16x128x64x1, .f32⟩ : BufTy).Contents (Elt F)))) : HloOp τ sig (Elt F)).result V (no_index (Proc.devRef .tc main_v129))
      = b_main_v129 (F := F) (V (Proc.devRef .tc main_v128)) :=
  (unary_result' _ _ _ V).trans rfl
theorem fold_main_v129 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v129 (F := F) (val_main_v128 (F := F) x0 x1 x2 x3 x4 x5 x6 x7) = val_main_v129 (F := F) x0 x1 x2 x3 x4 x5 x6 x7 := rfl

def b_main_cst_18 : (⟨S_, .f32⟩ : BufTy).Contents (Elt F) :=
  constant S_ .f32 0x43000000#32
theorem res_main_cst_18 (V : Valuation τ sig (Elt F)) :
    (nullary main_cst_18 (no_index ((constant S_ .f32 0x43000000#32))) : HloOp τ sig (Elt F)).result V (no_index (Proc.devRef .tc main_cst_18))
      = b_main_cst_18 (F := F) :=
  (nullary_result' _ _ V).trans rfl
theorem fold_main_cst_18 :
    b_main_cst_18 (F := F) = val_main_cst_18 (F := F) := rfl

def b_main_v130 (u0 : (⟨S_, .f32⟩ : BufTy).Contents (Elt F)) : (⟨S16x128x64x1, .f32⟩ : BufTy).Contents (Elt F) :=
  broadcastInDim S16x128x64x1 ![] bcast_S_S16x128x64x1 u0
theorem res_main_v130 (V : Valuation τ sig (Elt F)) :
    (unary main_cst_18 main_v130 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v130))
      = b_main_v130 (F := F) (V (Proc.devRef .tc main_cst_18)) :=
  (unary_result' _ _ _ V).trans rfl
theorem fold_main_v130 :
    b_main_v130 (F := F) (val_main_cst_18 (F := F)) = val_main_v130 (F := F) := rfl

def b_main_v131 (u0 : (⟨S16x128x64x1, .f32⟩ : BufTy).Contents (Elt F)) (u1 : (⟨S16x128x64x1, .f32⟩ : BufTy).Contents (Elt F)) : (⟨S16x128x64x1, .f32⟩ : BufTy).Contents (Elt F) :=
  Host.divf u0 u1
theorem res_main_v131 (V : Valuation τ sig (Elt F)) :
    (binary main_v129 main_v130 main_v131 (no_index ((Host.divf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v131))
      = b_main_v131 (F := F) (V (Proc.devRef .tc main_v129)) (V (Proc.devRef .tc main_v130)) :=
  (binary_result' _ _ _ _ V).trans rfl
theorem fold_main_v131 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v131 (F := F) (val_main_v129 (F := F) x0 x1 x2 x3 x4 x5 x6 x7) (val_main_v130 (F := F)) = val_main_v131 (F := F) x0 x1 x2 x3 x4 x5 x6 x7 := rfl

def b_main_v132 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v132 (V : Valuation τ sig (Elt F)) :
    (unary main_v124 main_v132 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v132))
      = b_main_v132 (F := F) (V (Proc.devRef .tc main_v124)) :=
  (unary_result' _ _ _ V).trans rfl
theorem fold_main_v132 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v132 (F := F) (val_main_v124 (F := F) x0 x1 x2 x3 x4 x5 x6 x7) = val_main_v132 (F := F) x0 x1 x2 x3 x4 x5 x6 x7 := rfl

def b_main_v133 (u0 : (⟨S16x128x64x128, .f32⟩ : BufTy).Contents (Elt F)) (u1 : (⟨S16x128x64x128, .f32⟩ : BufTy).Contents (Elt F)) : (⟨S16x128x64x128, .f32⟩ : BufTy).Contents (Elt F) :=
  subf u0 u1
theorem res_main_v133 (V : Valuation τ sig (Elt F)) :
    (binary main_v116 main_v132 main_v133 (no_index ((subf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v133))
      = b_main_v133 (F := F) (V (Proc.devRef .tc main_v116)) (V (Proc.devRef .tc main_v132)) :=
  (binary_result' _ _ _ _ V).trans rfl
theorem fold_main_v133 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v133 (F := F) (val_main_v116 (F := F) x0 x1 x2 x3 x4 x5 x6 x7) (val_main_v132 (F := F) x0 x1 x2 x3 x4 x5 x6 x7) = val_main_v133 (F := F) x0 x1 x2 x3 x4 x5 x6 x7 := rfl

def b_main_cst_19 : (⟨S_, .f32⟩ : BufTy).Contents (Elt F) :=
  constant S_ .f32 0x3727C5AC#32
theorem res_main_cst_19 (V : Valuation τ sig (Elt F)) :
    (nullary main_cst_19 (no_index ((constant S_ .f32 0x3727C5AC#32))) : HloOp τ sig (Elt F)).result V (no_index (Proc.devRef .tc main_cst_19))
      = b_main_cst_19 (F := F) :=
  (nullary_result' _ _ V).trans rfl
theorem fold_main_cst_19 :
    b_main_cst_19 (F := F) = val_main_cst_19 (F := F) := rfl

def b_main_v134 (u0 : (⟨S_, .f32⟩ : BufTy).Contents (Elt F)) : (⟨S16x128x64x1, .f32⟩ : BufTy).Contents (Elt F) :=
  broadcastInDim S16x128x64x1 ![] bcast_S_S16x128x64x1 u0
theorem res_main_v134 (V : Valuation τ sig (Elt F)) :
    (unary main_cst_19 main_v134 (no_index ((broadcastInDim S16x128x64x1 ![] bcast_S_S16x128x64x1 : (⟨S_, .f32⟩ : BufTy).Contents (Elt F) → (⟨S16x128x64x1, .f32⟩ : BufTy).Contents (Elt F)))) : HloOp τ sig (Elt F)).result V (no_index (Proc.devRef .tc main_v134))
      = b_main_v134 (F := F) (V (Proc.devRef .tc main_cst_19)) :=
  (unary_result' _ _ _ V).trans rfl
theorem fold_main_v134 :
    b_main_v134 (F := F) (val_main_cst_19 (F := F)) = val_main_v134 (F := F) := rfl

def b_main_v135 (u0 : (⟨S16x128x64x1, .f32⟩ : BufTy).Contents (Elt F)) (u1 : (⟨S16x128x64x1, .f32⟩ : BufTy).Contents (Elt F)) : (⟨S16x128x64x1, .f32⟩ : BufTy).Contents (Elt F) :=
  addf u0 u1
theorem res_main_v135 (V : Valuation τ sig (Elt F)) :
    (binary main_v131 main_v134 main_v135 (no_index ((addf : (⟨S16x128x64x1, .f32⟩ : BufTy).Contents (Elt F) → (⟨S16x128x64x1, .f32⟩ : BufTy).Contents (Elt F) → (⟨S16x128x64x1, .f32⟩ : BufTy).Contents (Elt F)))) : HloOp τ sig (Elt F)).result V (no_index (Proc.devRef .tc main_v135))
      = b_main_v135 (F := F) (V (Proc.devRef .tc main_v131)) (V (Proc.devRef .tc main_v134)) :=
  (binary_result' _ _ _ _ V).trans rfl
theorem fold_main_v135 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v135 (F := F) (val_main_v131 (F := F) x0 x1 x2 x3 x4 x5 x6 x7) (val_main_v134 (F := F)) = val_main_v135 (F := F) x0 x1 x2 x3 x4 x5 x6 x7 := rfl

def b_main_v136 (u0 : (⟨S16x128x64x1, .f32⟩ : BufTy).Contents (Elt F)) : (⟨S16x128x64x1, .f32⟩ : BufTy).Contents (Elt F) :=
  Host.rsqrt u0
theorem res_main_v136 (V : Valuation τ sig (Elt F)) :
    (unary main_v135 main_v136 (no_index ((Host.rsqrt : (⟨S16x128x64x1, .f32⟩ : BufTy).Contents (Elt F) → (⟨S16x128x64x1, .f32⟩ : BufTy).Contents (Elt F)))) : HloOp τ sig (Elt F)).result V (no_index (Proc.devRef .tc main_v136))
      = b_main_v136 (F := F) (V (Proc.devRef .tc main_v135)) :=
  (unary_result' _ _ _ V).trans rfl
theorem fold_main_v136 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v136 (F := F) (val_main_v135 (F := F) x0 x1 x2 x3 x4 x5 x6 x7) = val_main_v136 (F := F) x0 x1 x2 x3 x4 x5 x6 x7 := rfl

def b_main_v137 (u0 : (⟨S16x128x64x1, .f32⟩ : BufTy).Contents (Elt F)) : (⟨S16x128x64x128, .f32⟩ : BufTy).Contents (Elt F) :=
  broadcastInDim S16x128x64x128 ![0, 1, 2, 3] bcast_S16x128x64x1_S16x128x64x128_0_1_2_3 u0
theorem res_main_v137 (V : Valuation τ sig (Elt F)) :
    (unary main_v136 main_v137 (no_index ((broadcastInDim S16x128x64x128 ![0, 1, 2, 3] bcast_S16x128x64x1_S16x128x64x128_0_1_2_3 : (⟨S16x128x64x1, .f32⟩ : BufTy).Contents (Elt F) → (⟨S16x128x64x128, .f32⟩ : BufTy).Contents (Elt F)))) : HloOp τ sig (Elt F)).result V (no_index (Proc.devRef .tc main_v137))
      = b_main_v137 (F := F) (V (Proc.devRef .tc main_v136)) :=
  (unary_result' _ _ _ V).trans rfl
theorem fold_main_v137 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v137 (F := F) (val_main_v136 (F := F) x0 x1 x2 x3 x4 x5 x6 x7) = val_main_v137 (F := F) x0 x1 x2 x3 x4 x5 x6 x7 := rfl

def b_main_v138 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v138 (V : Valuation τ sig (Elt F)) :
    (binary main_v133 main_v137 main_v138 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v138))
      = b_main_v138 (F := F) (V (Proc.devRef .tc main_v133)) (V (Proc.devRef .tc main_v137)) :=
  (binary_result' _ _ _ _ V).trans rfl
theorem fold_main_v138 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v138 (F := F) (val_main_v133 (F := F) x0 x1 x2 x3 x4 x5 x6 x7) (val_main_v137 (F := F) x0 x1 x2 x3 x4 x5 x6 x7) = val_main_v138 (F := F) x0 x1 x2 x3 x4 x5 x6 x7 := rfl

def b_main_v139 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v139 (V : Valuation τ sig (Elt F)) :
    (unary main_v118 main_v139 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v139))
      = b_main_v139 (F := F) (V (Proc.devRef .tc main_v118)) :=
  (unary_result' _ _ _ V).trans rfl
theorem fold_main_v139 (x4 : (⟨S3x128, .f32⟩ : BufTy).Contents (Elt F)) :
    b_main_v139 (F := F) (val_main_v118 (F := F) x4) = val_main_v139 (F := F) x4 := rfl

def b_main_v140 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v140 (V : Valuation τ sig (Elt F)) :
    (unary main_v139 main_v140 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v140))
      = b_main_v140 (F := F) (V (Proc.devRef .tc main_v139)) :=
  (unary_result' _ _ _ V).trans rfl
theorem fold_main_v140 (x4 : (⟨S3x128, .f32⟩ : BufTy).Contents (Elt F)) :
    b_main_v140 (F := F) (val_main_v139 (F := F) x4) = val_main_v140 (F := F) x4 := rfl

def b_main_v141 (u0 : (⟨S16x128x64x128, .f32⟩ : BufTy).Contents (Elt F)) (u1 : (⟨S16x128x64x128, .f32⟩ : BufTy).Contents (Elt F)) : (⟨S16x128x64x128, .f32⟩ : BufTy).Contents (Elt F) :=
  mulf u0 u1
theorem res_main_v141 (V : Valuation τ sig (Elt F)) :
    (binary main_v138 main_v140 main_v141 (no_index ((mulf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v141))
      = b_main_v141 (F := F) (V (Proc.devRef .tc main_v138)) (V (Proc.devRef .tc main_v140)) :=
  (binary_result' _ _ _ _ V).trans rfl
theorem fold_main_v141 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v141 (F := F) (val_main_v138 (F := F) x0 x1 x2 x3 x4 x5 x6 x7) (val_main_v140 (F := F) x4) = val_main_v141 (F := F) x0 x1 x2 x3 x4 x5 x6 x7 := rfl

def b_main_v142 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v142 (V : Valuation τ sig (Elt F)) :
    (unary main_v120 main_v142 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v142))
      = b_main_v142 (F := F) (V (Proc.devRef .tc main_v120)) :=
  (unary_result' _ _ _ V).trans rfl
theorem fold_main_v142 (x5 : (⟨S3x128, .f32⟩ : BufTy).Contents (Elt F)) :
    b_main_v142 (F := F) (val_main_v120 (F := F) x5) = val_main_v142 (F := F) x5 := rfl

def b_main_v143 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v143 (V : Valuation τ sig (Elt F)) :
    (unary main_v142 main_v143 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v143))
      = b_main_v143 (F := F) (V (Proc.devRef .tc main_v142)) :=
  (unary_result' _ _ _ V).trans rfl
theorem fold_main_v143 (x5 : (⟨S3x128, .f32⟩ : BufTy).Contents (Elt F)) :
    b_main_v143 (F := F) (val_main_v142 (F := F) x5) = val_main_v143 (F := F) x5 := rfl

def b_main_v144 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v144 (V : Valuation τ sig (Elt F)) :
    (binary main_v141 main_v143 main_v144 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v144))
      = b_main_v144 (F := F) (V (Proc.devRef .tc main_v141)) (V (Proc.devRef .tc main_v143)) :=
  (binary_result' _ _ _ _ V).trans rfl
theorem fold_main_v144 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v144 (F := F) (val_main_v141 (F := F) x0 x1 x2 x3 x4 x5 x6 x7) (val_main_v143 (F := F) x5) = val_main_v144 (F := F) x0 x1 x2 x3 x4 x5 x6 x7 := rfl

def b_main_call6_cst : (⟨S_, .f32⟩ : BufTy).Contents (Elt F) :=
  constant S_ .f32 0x00000000#32
theorem res_main_call6_cst (V : Valuation τ sig (Elt F)) :
    (TRef.nullary (TRef.of (T := ⟨S_, .f32⟩) main_call6_cst) (no_index ((constant S_ .f32 0x00000000#32))) : HloOp τ sig (Elt F)).result V (no_index (Proc.devRef .tc main_call6_cst))
      = b_main_call6_cst (F := F) :=
  (nullary_result' _ _ V).trans rfl
theorem fold_main_call6_cst :
    b_main_call6_cst (F := F) = val_main_call6_cst (F := F) := rfl

def b_main_call6_v0 (u0 : (⟨S_, .f32⟩ : BufTy).Contents (Elt F)) : (⟨S16x128x64x128, .f32⟩ : BufTy).Contents (Elt F) :=
  broadcastInDim S16x128x64x128 ![] bcast_S_S16x128x64x128 u0
theorem res_main_call6_v0 (V : Valuation τ sig (Elt F)) :
    (TRef.unary (TRef.of (T := ⟨S_, .f32⟩) main_call6_cst) (TRef.of (T := ⟨S16x128x64x128, .f32⟩) main_call6_v0) (no_index ((broadcastInDim S16x128x64x128 ![] bcast_S_S16x128x64x128))) : HloOp τ sig (Elt F)).result V (no_index (Proc.devRef .tc main_call6_v0))
      = b_main_call6_v0 (F := F) (V (Proc.devRef .tc main_call6_cst)) :=
  (unary_result' _ _ _ V).trans rfl
theorem fold_main_call6_v0 :
    b_main_call6_v0 (F := F) (val_main_call6_cst (F := F)) = val_main_call6_v0 (F := F) := rfl

def b_main_v145 (u0 : (⟨S16x128x64x128, .f32⟩ : BufTy).Contents (Elt F)) (u1 : (⟨S16x128x64x128, .f32⟩ : BufTy).Contents (Elt F)) : (⟨S16x128x64x128, .f32⟩ : BufTy).Contents (Elt F) :=
  maximumf u0 u1
theorem res_main_v145 (V : Valuation τ sig (Elt F)) :
    (TRef.binary (TRef.of (T := ⟨S16x128x64x128, .f32⟩) main_v144) (TRef.of (T := ⟨S16x128x64x128, .f32⟩) main_call6_v0) (TRef.of (T := ⟨S16x128x64x128, .f32⟩) main_v145) (no_index (maximumf)) : HloOp τ sig (Elt F)).result V (no_index (Proc.devRef .tc main_v145))
      = b_main_v145 (F := F) (V (Proc.devRef .tc main_v144)) (V (Proc.devRef .tc main_call6_v0)) :=
  (binary_result' _ _ _ _ V).trans rfl
theorem fold_main_v145 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v145 (F := F) (val_main_v144 (F := F) x0 x1 x2 x3 x4 x5 x6 x7) (val_main_call6_v0 (F := F)) = val_main_v145 (F := F) x0 x1 x2 x3 x4 x5 x6 x7 := rfl

def b_main_v146 (u0 : (⟨S16x128x64, .i1⟩ : BufTy).Contents (Elt F)) : (⟨S16x128x64x1, .i1⟩ : BufTy).Contents (Elt F) :=
  broadcastInDim S16x128x64x1 ![0, 1, 2] bcast_S16x128x64_S16x128x64x1_0_1_2 u0
theorem res_main_v146 (V : Valuation τ sig (Elt F)) :
    (unary main_v4 main_v146 (no_index ((broadcastInDim S16x128x64x1 ![0, 1, 2] bcast_S16x128x64_S16x128x64x1_0_1_2 : (⟨S16x128x64, .i1⟩ : BufTy).Contents (Elt F) → (⟨S16x128x64x1, .i1⟩ : BufTy).Contents (Elt F)))) : HloOp τ sig (Elt F)).result V (no_index (Proc.devRef .tc main_v146))
      = b_main_v146 (F := F) (V (Proc.devRef .tc main_v4)) :=
  (unary_result' _ _ _ V).trans rfl
theorem fold_main_v146 (x1 : (⟨S16x128x64, .i1⟩ : BufTy).Contents (Elt F)) :
    b_main_v146 (F := F) (val_main_v4 (F := F) x1) = val_main_v146 (F := F) x1 := rfl

def b_main_cst_20 : (⟨S_, .f32⟩ : BufTy).Contents (Elt F) :=
  constant S_ .f32 0xFF800000#32
theorem res_main_cst_20 (V : Valuation τ sig (Elt F)) :
    (nullary main_cst_20 (no_index ((constant S_ .f32 0xFF800000#32))) : HloOp τ sig (Elt F)).result V (no_index (Proc.devRef .tc main_cst_20))
      = b_main_cst_20 (F := F) :=
  (nullary_result' _ _ V).trans rfl
theorem fold_main_cst_20 :
    b_main_cst_20 (F := F) = val_main_cst_20 (F := F) := rfl

def b_main_call7_v0 (u0 : (⟨S_, .f32⟩ : BufTy).Contents (Elt F)) : (⟨S_, .f32⟩ : BufTy).Contents (Elt F) :=
  id u0
theorem res_main_call7_v0 (V : Valuation τ sig (Elt F)) :
    (TRef.unary (TRef.of (T := ⟨S_, .f32⟩) main_cst_20) (TRef.of (T := ⟨S_, .f32⟩) main_call7_v0) (no_index (id)) : HloOp τ sig (Elt F)).result V (no_index (Proc.devRef .tc main_call7_v0))
      = b_main_call7_v0 (F := F) (V (Proc.devRef .tc main_cst_20)) :=
  (unary_result' _ _ _ V).trans rfl
theorem fold_main_call7_v0 :
    b_main_call7_v0 (F := F) (val_main_cst_20 (F := F)) = val_main_call7_v0 (F := F) := rfl

def b_main_call7_v1 (u0 : (⟨S16x128x64x1, .i1⟩ : BufTy).Contents (Elt F)) : (⟨S16x128x64x128, .i1⟩ : BufTy).Contents (Elt F) :=
  broadcastInDim S16x128x64x128 ![0, 1, 2, 3] bcast_S16x128x64x1_S16x128x64x128_0_1_2_3 u0
theorem res_main_call7_v1 (V : Valuation τ sig (Elt F)) :
    (TRef.unary (TRef.of (T := ⟨S16x128x64x1, .i1⟩) main_v146) (TRef.of (T := ⟨S16x128x64x128, .i1⟩) main_call7_v1) (no_index ((broadcastInDim S16x128x64x128 ![0, 1, 2, 3] bcast_S16x128x64x1_S16x128x64x128_0_1_2_3))) : HloOp τ sig (Elt F)).result V (no_index (Proc.devRef .tc main_call7_v1))
      = b_main_call7_v1 (F := F) (V (Proc.devRef .tc main_v146)) :=
  (unary_result' _ _ _ V).trans rfl
theorem fold_main_call7_v1 (x1 : (⟨S16x128x64, .i1⟩ : BufTy).Contents (Elt F)) :
    b_main_call7_v1 (F := F) (val_main_v146 (F := F) x1) = val_main_call7_v1 (F := F) x1 := rfl

def b_main_call7_v2 (u0 : (⟨S_, .f32⟩ : BufTy).Contents (Elt F)) : (⟨S16x128x64x128, .f32⟩ : BufTy).Contents (Elt F) :=
  broadcastInDim S16x128x64x128 ![] bcast_S_S16x128x64x128 u0
theorem res_main_call7_v2 (V : Valuation τ sig (Elt F)) :
    (TRef.unary (TRef.of (T := ⟨S_, .f32⟩) main_call7_v0) (TRef.of (T := ⟨S16x128x64x128, .f32⟩) main_call7_v2) (no_index ((broadcastInDim S16x128x64x128 ![] bcast_S_S16x128x64x128))) : HloOp τ sig (Elt F)).result V (no_index (Proc.devRef .tc main_call7_v2))
      = b_main_call7_v2 (F := F) (V (Proc.devRef .tc main_call7_v0)) :=
  (unary_result' _ _ _ V).trans rfl
theorem fold_main_call7_v2 :
    b_main_call7_v2 (F := F) (val_main_call7_v0 (F := F)) = val_main_call7_v2 (F := F) := rfl

def b_main_v147 (u0 : (⟨S16x128x64x128, .i1⟩ : BufTy).Contents (Elt F)) (u1 : (⟨S16x128x64x128, .f32⟩ : BufTy).Contents (Elt F)) (u2 : (⟨S16x128x64x128, .f32⟩ : BufTy).Contents (Elt F)) : (⟨S16x128x64x128, .f32⟩ : BufTy).Contents (Elt F) :=
  select u0 u1 u2
theorem res_main_v147 (V : Valuation τ sig (Elt F)) :
    (TRef.ternary (TRef.of (T := ⟨S16x128x64x128, .i1⟩) main_call7_v1) (TRef.of (T := ⟨S16x128x64x128, .f32⟩) main_call7_v2) (TRef.of (T := ⟨S16x128x64x128, .f32⟩) main_v145) (TRef.of (T := ⟨S16x128x64x128, .f32⟩) main_v147) (no_index (select)) : HloOp τ sig (Elt F)).result V (no_index (Proc.devRef .tc main_v147))
      = b_main_v147 (F := F) (V (Proc.devRef .tc main_call7_v1)) (V (Proc.devRef .tc main_call7_v2)) (V (Proc.devRef .tc main_v145)) :=
  (ternary_result' _ _ _ _ _ V).trans rfl
theorem fold_main_v147 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v147 (F := F) (val_main_call7_v1 (F := F) x1) (val_main_call7_v2 (F := F)) (val_main_v145 (F := F) x0 x1 x2 x3 x4 x5 x6 x7) = val_main_v147 (F := F) x0 x1 x2 x3 x4 x5 x6 x7 := rfl

def b_main_cst_21 : (⟨S_, .f32⟩ : BufTy).Contents (Elt F) :=
  constant S_ .f32 0xFF800000#32
theorem res_main_cst_21 (V : Valuation τ sig (Elt F)) :
    (nullary main_cst_21 (no_index ((constant S_ .f32 0xFF800000#32))) : HloOp τ sig (Elt F)).result V (no_index (Proc.devRef .tc main_cst_21))
      = b_main_cst_21 (F := F) :=
  (nullary_result' _ _ V).trans rfl
theorem fold_main_cst_21 :
    b_main_cst_21 (F := F) = val_main_cst_21 (F := F) := rfl

def b_main_v148 (u0 : (⟨S16x128x64x128, .f32⟩ : BufTy).Contents (Elt F)) (u1 : (⟨S_, .f32⟩ : BufTy).Contents (Elt F)) : (⟨S16x128x128, .f32⟩ : BufTy).Contents (Elt F) :=
  Host.reduce FloatOps.maximumf u0 u1 reducesTo_S16x128x64x128_S16x128x128_d2 h_S_
theorem res_main_v148 (V : Valuation τ sig (Elt F)) :
    (binary main_v147 main_cst_21 main_v148 (no_index (((fun x v => Host.reduce FloatOps.maximumf x v reducesTo_S16x128x64x128_S16x128x128_d2 h_S_) : (⟨S16x128x64x128, .f32⟩ : BufTy).Contents (Elt F) → (⟨S_, .f32⟩ : BufTy).Contents (Elt F) → (⟨S16x128x128, .f32⟩ : BufTy).Contents (Elt F)))) : HloOp τ sig (Elt F)).result V (no_index (Proc.devRef .tc main_v148))
      = b_main_v148 (F := F) (V (Proc.devRef .tc main_v147)) (V (Proc.devRef .tc main_cst_21)) :=
  (binary_result' _ _ _ _ V).trans rfl
theorem fold_main_v148 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v148 (F := F) (val_main_v147 (F := F) x0 x1 x2 x3 x4 x5 x6 x7) (val_main_cst_21 (F := F)) = val_main_v148 (F := F) x0 x1 x2 x3 x4 x5 x6 x7 := rfl

def b_main_v149 (u0 : (⟨S16x128x128, .f32⟩ : BufTy).Contents (Elt F)) : (⟨S16x128x1x128, .f32⟩ : BufTy).Contents (Elt F) :=
  broadcastInDim S16x128x1x128 ![0, 1, 3] bcast_S16x128x128_S16x128x1x128_0_1_3 u0
theorem res_main_v149 (V : Valuation τ sig (Elt F)) :
    (unary main_v148 main_v149 (no_index ((broadcastInDim S16x128x1x128 ![0, 1, 3] bcast_S16x128x128_S16x128x1x128_0_1_3 : (⟨S16x128x128, .f32⟩ : BufTy).Contents (Elt F) → (⟨S16x128x1x128, .f32⟩ : BufTy).Contents (Elt F)))) : HloOp τ sig (Elt F)).result V (no_index (Proc.devRef .tc main_v149))
      = b_main_v149 (F := F) (V (Proc.devRef .tc main_v148)) :=
  (unary_result' _ _ _ V).trans rfl
theorem fold_main_v149 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v149 (F := F) (val_main_v148 (F := F) x0 x1 x2 x3 x4 x5 x6 x7) = val_main_v149 (F := F) x0 x1 x2 x3 x4 x5 x6 x7 := rfl

def b_main_v150 (u0 : (⟨S16x128x1x128, .f32⟩ : BufTy).Contents (Elt F)) : (⟨S16x128x64x128, .f32⟩ : BufTy).Contents (Elt F) :=
  broadcastInDim S16x128x64x128 ![0, 1, 2, 3] bcast_S16x128x1x128_S16x128x64x128_0_1_2_3 u0
theorem res_main_v150 (V : Valuation τ sig (Elt F)) :
    (unary main_v149 main_v150 (no_index ((broadcastInDim S16x128x64x128 ![0, 1, 2, 3] bcast_S16x128x1x128_S16x128x64x128_0_1_2_3 : (⟨S16x128x1x128, .f32⟩ : BufTy).Contents (Elt F) → (⟨S16x128x64x128, .f32⟩ : BufTy).Contents (Elt F)))) : HloOp τ sig (Elt F)).result V (no_index (Proc.devRef .tc main_v150))
      = b_main_v150 (F := F) (V (Proc.devRef .tc main_v149)) :=
  (unary_result' _ _ _ V).trans rfl
theorem fold_main_v150 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v150 (F := F) (val_main_v149 (F := F) x0 x1 x2 x3 x4 x5 x6 x7) = val_main_v150 (F := F) x0 x1 x2 x3 x4 x5 x6 x7 := rfl

def b_main_v151 (u0 : (⟨S16x128x64x128, .f32⟩ : BufTy).Contents (Elt F)) (u1 : (⟨S16x128x64x128, .f32⟩ : BufTy).Contents (Elt F)) : (⟨S16x128x64x256, .f32⟩ : BufTy).Contents (Elt F) :=
  concatenate S16x128x64x256 3 [⟨S16x128x64x128, u0⟩, ⟨S16x128x64x128, u1⟩] concatenates_S16x128x64x128_S16x128x64x128_S16x128x64x256_d3
theorem res_main_v151 (V : Valuation τ sig (Elt F)) :
    (binary main_v145 main_v150 main_v151 (no_index (((fun a b => concatenate S16x128x64x256 3 [⟨S16x128x64x128, a⟩, ⟨S16x128x64x128, b⟩] concatenates_S16x128x64x128_S16x128x64x128_S16x128x64x256_d3) : (⟨S16x128x64x128, .f32⟩ : BufTy).Contents (Elt F) → (⟨S16x128x64x128, .f32⟩ : BufTy).Contents (Elt F) → (⟨S16x128x64x256, .f32⟩ : BufTy).Contents (Elt F)))) : HloOp τ sig (Elt F)).result V (no_index (Proc.devRef .tc main_v151))
      = b_main_v151 (F := F) (V (Proc.devRef .tc main_v145)) (V (Proc.devRef .tc main_v150)) :=
  (binary_result' _ _ _ _ V).trans rfl
theorem fold_main_v151 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v151 (F := F) (val_main_v145 (F := F) x0 x1 x2 x3 x4 x5 x6 x7) (val_main_v150 (F := F) x0 x1 x2 x3 x4 x5 x6 x7) = val_main_v151 (F := F) x0 x1 x2 x3 x4 x5 x6 x7 := rfl

def b_main_v152 (u0 : (⟨S3x256x128, .f32⟩ : BufTy).Contents (Elt F)) : (⟨S1x256x128, .f32⟩ : BufTy).Contents (Elt F) :=
  extractStridedSlice S1x256x128 ![2, 0, 0] u0 slices_S3x256x128_S1x256x128_2_0_0
theorem res_main_v152 (V : Valuation τ sig (Elt F)) :
    (unary main_arg6 main_v152 (no_index (((extractStridedSlice S1x256x128 ![2, 0, 0] · slices_S3x256x128_S1x256x128_2_0_0) : (⟨S3x256x128, .f32⟩ : BufTy).Contents (Elt F) → (⟨S1x256x128, .f32⟩ : BufTy).Contents (Elt F)))) : HloOp τ sig (Elt F)).result V (no_index (Proc.devRef .tc main_v152))
      = b_main_v152 (F := F) (V (Proc.devRef .tc main_arg6)) :=
  (unary_result' _ _ _ V).trans rfl
theorem fold_main_v152 (x6 : (⟨S3x256x128, .f32⟩ : BufTy).Contents (Elt F)) :
    b_main_v152 (F := F) x6 = val_main_v152 (F := F) x6 := rfl

def b_main_v153 (u0 : (⟨S1x256x128, .f32⟩ : BufTy).Contents (Elt F)) : (⟨S256x128, .f32⟩ : BufTy).Contents (Elt F) :=
  shapeCast _ u0 shapeCasts_S1x256x128_S256x128
theorem res_main_v153 (V : Valuation τ sig (Elt F)) :
    (reshape main_v152 main_v153 rfl shapeCasts_S1x256x128_S256x128 : HloOp τ sig (Elt F)).result V (no_index (Proc.devRef .tc main_v153))
      = b_main_v153 (F := F) (V (Proc.devRef .tc main_v152)) :=
  (reshape_result' _ _ _ _ V).trans rfl
theorem fold_main_v153 (x6 : (⟨S3x256x128, .f32⟩ : BufTy).Contents (Elt F)) :
    b_main_v153 (F := F) (val_main_v152 (F := F) x6) = val_main_v153 (F := F) x6 := rfl

def b_main_v154 (u0 : (⟨S16x128x64x256, .f32⟩ : BufTy).Contents (Elt F)) (u1 : (⟨S256x128, .f32⟩ : BufTy).Contents (Elt F)) : (⟨S16x128x64x128, .f32⟩ : BufTy).Contents (Elt F) :=
  Host.dotGeneral dot_S16x128x64x256_S256x128_S16x128x64x128_3_0_012_1_n_n none u0 u1
theorem res_main_v154 (V : Valuation τ sig (Elt F)) :
    (binary main_v151 main_v153 main_v154 (no_index (((fun l r => Host.dotGeneral dot_S16x128x64x256_S256x128_S16x128x64x128_3_0_012_1_n_n none l r) : (⟨S16x128x64x256, .f32⟩ : BufTy).Contents (Elt F) → (⟨S256x128, .f32⟩ : BufTy).Contents (Elt F) → (⟨S16x128x64x128, .f32⟩ : BufTy).Contents (Elt F)))) : HloOp τ sig (Elt F)).result V (no_index (Proc.devRef .tc main_v154))
      = b_main_v154 (F := F) (V (Proc.devRef .tc main_v151)) (V (Proc.devRef .tc main_v153)) :=
  (binary_result' _ _ _ _ V).trans rfl
theorem fold_main_v154 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v154 (F := F) (val_main_v151 (F := F) x0 x1 x2 x3 x4 x5 x6 x7) (val_main_v153 (F := F) x6) = val_main_v154 (F := F) x0 x1 x2 x3 x4 x5 x6 x7 := rfl

def b_main_v155 (u0 : (⟨S3x128, .f32⟩ : BufTy).Contents (Elt F)) : (⟨S1x128, .f32⟩ : BufTy).Contents (Elt F) :=
  extractStridedSlice S1x128 ![2, 0] u0 slices_S3x128_S1x128_2_0
theorem res_main_v155 (V : Valuation τ sig (Elt F)) :
    (unary main_arg7 main_v155 (no_index (((extractStridedSlice S1x128 ![2, 0] · slices_S3x128_S1x128_2_0) : (⟨S3x128, .f32⟩ : BufTy).Contents (Elt F) → (⟨S1x128, .f32⟩ : BufTy).Contents (Elt F)))) : HloOp τ sig (Elt F)).result V (no_index (Proc.devRef .tc main_v155))
      = b_main_v155 (F := F) (V (Proc.devRef .tc main_arg7)) :=
  (unary_result' _ _ _ V).trans rfl
theorem fold_main_v155 (x7 : (⟨S3x128, .f32⟩ : BufTy).Contents (Elt F)) :
    b_main_v155 (F := F) x7 = val_main_v155 (F := F) x7 := rfl

def b_main_v156 (u0 : (⟨S1x128, .f32⟩ : BufTy).Contents (Elt F)) : (⟨S128, .f32⟩ : BufTy).Contents (Elt F) :=
  shapeCast _ u0 shapeCasts_S1x128_S128
theorem res_main_v156 (V : Valuation τ sig (Elt F)) :
    (reshape main_v155 main_v156 rfl shapeCasts_S1x128_S128 : HloOp τ sig (Elt F)).result V (no_index (Proc.devRef .tc main_v156))
      = b_main_v156 (F := F) (V (Proc.devRef .tc main_v155)) :=
  (reshape_result' _ _ _ _ V).trans rfl
theorem fold_main_v156 (x7 : (⟨S3x128, .f32⟩ : BufTy).Contents (Elt F)) :
    b_main_v156 (F := F) (val_main_v155 (F := F) x7) = val_main_v156 (F := F) x7 := rfl

def b_main_v157 (u0 : (⟨S128, .f32⟩ : BufTy).Contents (Elt F)) : (⟨S1x1x1x128, .f32⟩ : BufTy).Contents (Elt F) :=
  broadcastInDim S1x1x1x128 ![3] bcast_S128_S1x1x1x128_3 u0
theorem res_main_v157 (V : Valuation τ sig (Elt F)) :
    (unary main_v156 main_v157 (no_index ((broadcastInDim S1x1x1x128 ![3] bcast_S128_S1x1x1x128_3 : (⟨S128, .f32⟩ : BufTy).Contents (Elt F) → (⟨S1x1x1x128, .f32⟩ : BufTy).Contents (Elt F)))) : HloOp τ sig (Elt F)).result V (no_index (Proc.devRef .tc main_v157))
      = b_main_v157 (F := F) (V (Proc.devRef .tc main_v156)) :=
  (unary_result' _ _ _ V).trans rfl
theorem fold_main_v157 (x7 : (⟨S3x128, .f32⟩ : BufTy).Contents (Elt F)) :
    b_main_v157 (F := F) (val_main_v156 (F := F) x7) = val_main_v157 (F := F) x7 := rfl

def b_main_v158 (u0 : (⟨S1x1x1x128, .f32⟩ : BufTy).Contents (Elt F)) : (⟨S16x128x64x128, .f32⟩ : BufTy).Contents (Elt F) :=
  broadcastInDim S16x128x64x128 ![0, 1, 2, 3] bcast_S1x1x1x128_S16x128x64x128_0_1_2_3 u0
theorem res_main_v158 (V : Valuation τ sig (Elt F)) :
    (unary main_v157 main_v158 (no_index ((broadcastInDim S16x128x64x128 ![0, 1, 2, 3] bcast_S1x1x1x128_S16x128x64x128_0_1_2_3 : (⟨S1x1x1x128, .f32⟩ : BufTy).Contents (Elt F) → (⟨S16x128x64x128, .f32⟩ : BufTy).Contents (Elt F)))) : HloOp τ sig (Elt F)).result V (no_index (Proc.devRef .tc main_v158))
      = b_main_v158 (F := F) (V (Proc.devRef .tc main_v157)) :=
  (unary_result' _ _ _ V).trans rfl
theorem fold_main_v158 (x7 : (⟨S3x128, .f32⟩ : BufTy).Contents (Elt F)) :
    b_main_v158 (F := F) (val_main_v157 (F := F) x7) = val_main_v158 (F := F) x7 := rfl

def b_main_v159 (u0 : (⟨S16x128x64x128, .f32⟩ : BufTy).Contents (Elt F)) (u1 : (⟨S16x128x64x128, .f32⟩ : BufTy).Contents (Elt F)) : (⟨S16x128x64x128, .f32⟩ : BufTy).Contents (Elt F) :=
  addf u0 u1
theorem res_main_v159 (V : Valuation τ sig (Elt F)) :
    (binary main_v154 main_v158 main_v159 (no_index ((addf : (⟨S16x128x64x128, .f32⟩ : BufTy).Contents (Elt F) → (⟨S16x128x64x128, .f32⟩ : BufTy).Contents (Elt F) → (⟨S16x128x64x128, .f32⟩ : BufTy).Contents (Elt F)))) : HloOp τ sig (Elt F)).result V (no_index (Proc.devRef .tc main_v159))
      = b_main_v159 (F := F) (V (Proc.devRef .tc main_v154)) (V (Proc.devRef .tc main_v158)) :=
  (binary_result' _ _ _ _ V).trans rfl
theorem fold_main_v159 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v159 (F := F) (val_main_v154 (F := F) x0 x1 x2 x3 x4 x5 x6 x7) (val_main_v158 (F := F) x7) = val_main_v159 (F := F) x0 x1 x2 x3 x4 x5 x6 x7 := rfl

def b_main_v160 (u0 : (⟨S16x128x64, .i1⟩ : BufTy).Contents (Elt F)) : (⟨S16x128x64x1, .i1⟩ : BufTy).Contents (Elt F) :=
  broadcastInDim S16x128x64x1 ![0, 1, 2] bcast_S16x128x64_S16x128x64x1_0_1_2 u0
theorem res_main_v160 (V : Valuation τ sig (Elt F)) :
    (unary main_v4 main_v160 (no_index ((broadcastInDim S16x128x64x1 ![0, 1, 2] bcast_S16x128x64_S16x128x64x1_0_1_2 : (⟨S16x128x64, .i1⟩ : BufTy).Contents (Elt F) → (⟨S16x128x64x1, .i1⟩ : BufTy).Contents (Elt F)))) : HloOp τ sig (Elt F)).result V (no_index (Proc.devRef .tc main_v160))
      = b_main_v160 (F := F) (V (Proc.devRef .tc main_v4)) :=
  (unary_result' _ _ _ V).trans rfl
theorem fold_main_v160 (x1 : (⟨S16x128x64, .i1⟩ : BufTy).Contents (Elt F)) :
    b_main_v160 (F := F) (val_main_v4 (F := F) x1) = val_main_v160 (F := F) x1 := rfl

def b_main_cst_22 : (⟨S_, .f32⟩ : BufTy).Contents (Elt F) :=
  constant S_ .f32 0xFF800000#32
theorem res_main_cst_22 (V : Valuation τ sig (Elt F)) :
    (nullary main_cst_22 (no_index ((constant S_ .f32 0xFF800000#32))) : HloOp τ sig (Elt F)).result V (no_index (Proc.devRef .tc main_cst_22))
      = b_main_cst_22 (F := F) :=
  (nullary_result' _ _ V).trans rfl
theorem fold_main_cst_22 :
    b_main_cst_22 (F := F) = val_main_cst_22 (F := F) := rfl

def b_main_call8_v0 (u0 : (⟨S_, .f32⟩ : BufTy).Contents (Elt F)) : (⟨S_, .f32⟩ : BufTy).Contents (Elt F) :=
  id u0
theorem res_main_call8_v0 (V : Valuation τ sig (Elt F)) :
    (TRef.unary (TRef.of (T := ⟨S_, .f32⟩) main_cst_22) (TRef.of (T := ⟨S_, .f32⟩) main_call8_v0) (no_index (id)) : HloOp τ sig (Elt F)).result V (no_index (Proc.devRef .tc main_call8_v0))
      = b_main_call8_v0 (F := F) (V (Proc.devRef .tc main_cst_22)) :=
  (unary_result' _ _ _ V).trans rfl
theorem fold_main_call8_v0 :
    b_main_call8_v0 (F := F) (val_main_cst_22 (F := F)) = val_main_call8_v0 (F := F) := rfl

def b_main_call8_v1 (u0 : (⟨S16x128x64x1, .i1⟩ : BufTy).Contents (Elt F)) : (⟨S16x128x64x128, .i1⟩ : BufTy).Contents (Elt F) :=
  broadcastInDim S16x128x64x128 ![0, 1, 2, 3] bcast_S16x128x64x1_S16x128x64x128_0_1_2_3 u0
theorem res_main_call8_v1 (V : Valuation τ sig (Elt F)) :
    (TRef.unary (TRef.of (T := ⟨S16x128x64x1, .i1⟩) main_v160) (TRef.of (T := ⟨S16x128x64x128, .i1⟩) main_call8_v1) (no_index ((broadcastInDim S16x128x64x128 ![0, 1, 2, 3] bcast_S16x128x64x1_S16x128x64x128_0_1_2_3))) : HloOp τ sig (Elt F)).result V (no_index (Proc.devRef .tc main_call8_v1))
      = b_main_call8_v1 (F := F) (V (Proc.devRef .tc main_v160)) :=
  (unary_result' _ _ _ V).trans rfl
theorem fold_main_call8_v1 (x1 : (⟨S16x128x64, .i1⟩ : BufTy).Contents (Elt F)) :
    b_main_call8_v1 (F := F) (val_main_v160 (F := F) x1) = val_main_call8_v1 (F := F) x1 := rfl

def b_main_call8_v2 (u0 : (⟨S_, .f32⟩ : BufTy).Contents (Elt F)) : (⟨S16x128x64x128, .f32⟩ : BufTy).Contents (Elt F) :=
  broadcastInDim S16x128x64x128 ![] bcast_S_S16x128x64x128 u0
theorem res_main_call8_v2 (V : Valuation τ sig (Elt F)) :
    (TRef.unary (TRef.of (T := ⟨S_, .f32⟩) main_call8_v0) (TRef.of (T := ⟨S16x128x64x128, .f32⟩) main_call8_v2) (no_index ((broadcastInDim S16x128x64x128 ![] bcast_S_S16x128x64x128))) : HloOp τ sig (Elt F)).result V (no_index (Proc.devRef .tc main_call8_v2))
      = b_main_call8_v2 (F := F) (V (Proc.devRef .tc main_call8_v0)) :=
  (unary_result' _ _ _ V).trans rfl
theorem fold_main_call8_v2 :
    b_main_call8_v2 (F := F) (val_main_call8_v0 (F := F)) = val_main_call8_v2 (F := F) := rfl

def b_main_v161 (u0 : (⟨S16x128x64x128, .i1⟩ : BufTy).Contents (Elt F)) (u1 : (⟨S16x128x64x128, .f32⟩ : BufTy).Contents (Elt F)) (u2 : (⟨S16x128x64x128, .f32⟩ : BufTy).Contents (Elt F)) : (⟨S16x128x64x128, .f32⟩ : BufTy).Contents (Elt F) :=
  select u0 u1 u2
theorem res_main_v161 (V : Valuation τ sig (Elt F)) :
    (TRef.ternary (TRef.of (T := ⟨S16x128x64x128, .i1⟩) main_call8_v1) (TRef.of (T := ⟨S16x128x64x128, .f32⟩) main_call8_v2) (TRef.of (T := ⟨S16x128x64x128, .f32⟩) main_v159) (TRef.of (T := ⟨S16x128x64x128, .f32⟩) main_v161) (no_index (select)) : HloOp τ sig (Elt F)).result V (no_index (Proc.devRef .tc main_v161))
      = b_main_v161 (F := F) (V (Proc.devRef .tc main_call8_v1)) (V (Proc.devRef .tc main_call8_v2)) (V (Proc.devRef .tc main_v159)) :=
  (ternary_result' _ _ _ _ _ V).trans rfl
theorem fold_main_v161 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v161 (F := F) (val_main_call8_v1 (F := F) x1) (val_main_call8_v2 (F := F)) (val_main_v159 (F := F) x0 x1 x2 x3 x4 x5 x6 x7) = val_main_v161 (F := F) x0 x1 x2 x3 x4 x5 x6 x7 := rfl

def b_main_cst_23 : (⟨S_, .f32⟩ : BufTy).Contents (Elt F) :=
  constant S_ .f32 0xFF800000#32
theorem res_main_cst_23 (V : Valuation τ sig (Elt F)) :
    (nullary main_cst_23 (no_index ((constant S_ .f32 0xFF800000#32))) : HloOp τ sig (Elt F)).result V (no_index (Proc.devRef .tc main_cst_23))
      = b_main_cst_23 (F := F) :=
  (nullary_result' _ _ V).trans rfl
theorem fold_main_cst_23 :
    b_main_cst_23 (F := F) = val_main_cst_23 (F := F) := rfl

def b_main_v162 (u0 : (⟨S16x128x64x128, .f32⟩ : BufTy).Contents (Elt F)) (u1 : (⟨S_, .f32⟩ : BufTy).Contents (Elt F)) : (⟨S16x128x128, .f32⟩ : BufTy).Contents (Elt F) :=
  Host.reduce FloatOps.maximumf u0 u1 reducesTo_S16x128x64x128_S16x128x128_d2 h_S_
theorem res_main_v162 (V : Valuation τ sig (Elt F)) :
    (binary main_v161 main_cst_23 main_v162 (no_index (((fun x v => Host.reduce FloatOps.maximumf x v reducesTo_S16x128x64x128_S16x128x128_d2 h_S_) : (⟨S16x128x64x128, .f32⟩ : BufTy).Contents (Elt F) → (⟨S_, .f32⟩ : BufTy).Contents (Elt F) → (⟨S16x128x128, .f32⟩ : BufTy).Contents (Elt F)))) : HloOp τ sig (Elt F)).result V (no_index (Proc.devRef .tc main_v162))
      = b_main_v162 (F := F) (V (Proc.devRef .tc main_v161)) (V (Proc.devRef .tc main_cst_23)) :=
  (binary_result' _ _ _ _ V).trans rfl
theorem fold_main_v162 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v162 (F := F) (val_main_v161 (F := F) x0 x1 x2 x3 x4 x5 x6 x7) (val_main_cst_23 (F := F)) = val_main_v162 (F := F) x0 x1 x2 x3 x4 x5 x6 x7 := rfl

def b_main_v163 (u0 : (⟨S16x128, .i1⟩ : BufTy).Contents (Elt F)) : (⟨S16x128x1, .i1⟩ : BufTy).Contents (Elt F) :=
  broadcastInDim S16x128x1 ![0, 1] bcast_S16x128_S16x128x1_0_1 u0
theorem res_main_v163 (V : Valuation τ sig (Elt F)) :
    (unary main_v2 main_v163 (no_index ((broadcastInDim S16x128x1 ![0, 1] bcast_S16x128_S16x128x1_0_1 : (⟨S16x128, .i1⟩ : BufTy).Contents (Elt F) → (⟨S16x128x1, .i1⟩ : BufTy).Contents (Elt F)))) : HloOp τ sig (Elt F)).result V (no_index (Proc.devRef .tc main_v163))
      = b_main_v163 (F := F) (V (Proc.devRef .tc main_v2)) :=
  (unary_result' _ _ _ V).trans rfl
theorem fold_main_v163 (x1 : (⟨S16x128x64, .i1⟩ : BufTy).Contents (Elt F)) :
    b_main_v163 (F := F) (val_main_v2 (F := F) x1) = val_main_v163 (F := F) x1 := rfl

def b_main_cst_24 : (⟨S_, .f32⟩ : BufTy).Contents (Elt F) :=
  constant S_ .f32 0x00000000#32
theorem res_main_cst_24 (V : Valuation τ sig (Elt F)) :
    (nullary main_cst_24 (no_index ((constant S_ .f32 0x00000000#32))) : HloOp τ sig (Elt F)).result V (no_index (Proc.devRef .tc main_cst_24))
      = b_main_cst_24 (F := F) :=
  (nullary_result' _ _ V).trans rfl
theorem fold_main_cst_24 :
    b_main_cst_24 (F := F) = val_main_cst_24 (F := F) := rfl

def b_main_call9_v0 (u0 : (⟨S_, .f32⟩ : BufTy).Contents (Elt F)) : (⟨S_, .f32⟩ : BufTy).Contents (Elt F) :=
  id u0
theorem res_main_call9_v0 (V : Valuation τ sig (Elt F)) :
    (TRef.unary (TRef.of (T := ⟨S_, .f32⟩) main_cst_24) (TRef.of (T := ⟨S_, .f32⟩) main_call9_v0) (no_index (id)) : HloOp τ sig (Elt F)).result V (no_index (Proc.devRef .tc main_call9_v0))
      = b_main_call9_v0 (F := F) (V (Proc.devRef .tc main_cst_24)) :=
  (unary_result' _ _ _ V).trans rfl
theorem fold_main_call9_v0 :
    b_main_call9_v0 (F := F) (val_main_cst_24 (F := F)) = val_main_call9_v0 (F := F) := rfl

def b_main_call9_v1 (u0 : (⟨S16x128x1, .i1⟩ : BufTy).Contents (Elt F)) : (⟨S16x128x128, .i1⟩ : BufTy).Contents (Elt F) :=
  broadcastInDim S16x128x128 ![0, 1, 2] bcast_S16x128x1_S16x128x128_0_1_2 u0
theorem res_main_call9_v1 (V : Valuation τ sig (Elt F)) :
    (TRef.unary (TRef.of (T := ⟨S16x128x1, .i1⟩) main_v163) (TRef.of (T := ⟨S16x128x128, .i1⟩) main_call9_v1) (no_index ((broadcastInDim S16x128x128 ![0, 1, 2] bcast_S16x128x1_S16x128x128_0_1_2))) : HloOp τ sig (Elt F)).result V (no_index (Proc.devRef .tc main_call9_v1))
      = b_main_call9_v1 (F := F) (V (Proc.devRef .tc main_v163)) :=
  (unary_result' _ _ _ V).trans rfl
theorem fold_main_call9_v1 (x1 : (⟨S16x128x64, .i1⟩ : BufTy).Contents (Elt F)) :
    b_main_call9_v1 (F := F) (val_main_v163 (F := F) x1) = val_main_call9_v1 (F := F) x1 := rfl

def b_main_call9_v2 (u0 : (⟨S_, .f32⟩ : BufTy).Contents (Elt F)) : (⟨S16x128x128, .f32⟩ : BufTy).Contents (Elt F) :=
  broadcastInDim S16x128x128 ![] bcast_S_S16x128x128 u0
theorem res_main_call9_v2 (V : Valuation τ sig (Elt F)) :
    (TRef.unary (TRef.of (T := ⟨S_, .f32⟩) main_call9_v0) (TRef.of (T := ⟨S16x128x128, .f32⟩) main_call9_v2) (no_index ((broadcastInDim S16x128x128 ![] bcast_S_S16x128x128))) : HloOp τ sig (Elt F)).result V (no_index (Proc.devRef .tc main_call9_v2))
      = b_main_call9_v2 (F := F) (V (Proc.devRef .tc main_call9_v0)) :=
  (unary_result' _ _ _ V).trans rfl
theorem fold_main_call9_v2 :
    b_main_call9_v2 (F := F) (val_main_call9_v0 (F := F)) = val_main_call9_v2 (F := F) := rfl

def b_main_v164 (u0 : (⟨S16x128x128, .i1⟩ : BufTy).Contents (Elt F)) (u1 : (⟨S16x128x128, .f32⟩ : BufTy).Contents (Elt F)) (u2 : (⟨S16x128x128, .f32⟩ : BufTy).Contents (Elt F)) : (⟨S16x128x128, .f32⟩ : BufTy).Contents (Elt F) :=
  select u0 u1 u2
theorem res_main_v164 (V : Valuation τ sig (Elt F)) :
    (TRef.ternary (TRef.of (T := ⟨S16x128x128, .i1⟩) main_call9_v1) (TRef.of (T := ⟨S16x128x128, .f32⟩) main_v162) (TRef.of (T := ⟨S16x128x128, .f32⟩) main_call9_v2) (TRef.of (T := ⟨S16x128x128, .f32⟩) main_v164) (no_index (select)) : HloOp τ sig (Elt F)).result V (no_index (Proc.devRef .tc main_v164))
      = b_main_v164 (F := F) (V (Proc.devRef .tc main_call9_v1)) (V (Proc.devRef .tc main_v162)) (V (Proc.devRef .tc main_call9_v2)) :=
  (ternary_result' _ _ _ _ _ V).trans rfl
theorem fold_main_v164 (x0 : (⟨S16x128x64x128, .f32⟩ : BufTy).Contents (Elt F)) (x1 : (⟨S16x128x64, .i1⟩ : BufTy).Contents (Elt F)) (x2 : (⟨S3x128x128, .f32⟩ : BufTy).Contents (Elt F)) (x3 : (⟨S3x128, .f32⟩ : BufTy).Contents (Elt F)) (x4 : (⟨S3x128, .f32⟩ : BufTy).Contents (Elt F)) (x5 : (⟨S3x128, .f32⟩ : BufTy).Contents (Elt F)) (x6 : (⟨S3x256x128, .f32⟩ : BufTy).Contents (Elt F)) (x7 : (⟨S3x128, .f32⟩ : BufTy).Contents (Elt F)) :
    b_main_v164 (F := F) (val_main_call9_v1 (F := F) x1) (val_main_v162 (F := F) x0 x1 x2 x3 x4 x5 x6 x7) (val_main_call9_v2 (F := F)) = val_main_v164 (F := F) x0 x1 x2 x3 x4 x5 x6 x7 := rfl

/-- One `simp` pass with every row of the table. -/
macro "ref_fold_simp" : tactic =>
  `(tactic| (simp (disch := decide) only [after_cons, after_nil,
      nullary_result_ne', unary_result_ne', binary_result_ne', ternary_result_ne', reshape_result_ne',
      ↓res_main_v0, ↓res_main_c, ↓res_main_v1, ↓res_main_v2, ↓res_main_v3, ↓res_main_c_0, ↓res_main_call0_v0,
      ↓res_main_call0_v1, ↓res_main_v4, ↓res_main_v5, ↓res_main_cst, ↓res_main_call1_v0, ↓res_main_call1_v1,
      ↓res_main_call1_v2, ↓res_main_v6, ↓res_main_v7, ↓res_main_v8, ↓res_main_v9, ↓res_main_v10, ↓res_main_v11,
      ↓res_main_v12, ↓res_main_v13, ↓res_main_v14, ↓res_main_v15, ↓res_main_v16, ↓res_main_v17, ↓res_main_v18,
      ↓res_main_cst_1, ↓res_main_v19, ↓res_main_v20, ↓res_main_cst_2, ↓res_main_v21, ↓res_main_v22, ↓res_main_v23,
      ↓res_main_v24, ↓res_main_v25, ↓res_main_cst_3, ↓res_main_v26, ↓res_main_v27, ↓res_main_cst_4, ↓res_main_v28,
      ↓res_main_v29, ↓res_main_v30, ↓res_main_v31, ↓res_main_cst_5, ↓res_main_v32, ↓res_main_v33, ↓res_main_v34,
      ↓res_main_v35, ↓res_main_v36, ↓res_main_v37, ↓res_main_v38, ↓res_main_v39, ↓res_main_v40, ↓res_main_v41,
      ↓res_main_v42, ↓res_main_call2_cst, ↓res_main_call2_v0, ↓res_main_v43, ↓res_main_v44, ↓res_main_cst_6,
      ↓res_main_call3_v0, ↓res_main_call3_v1, ↓res_main_call3_v2, ↓res_main_v45, ↓res_main_cst_7, ↓res_main_v46,
      ↓res_main_v47, ↓res_main_v48, ↓res_main_v49, ↓res_main_v50, ↓res_main_v51, ↓res_main_v52, ↓res_main_v53,
      ↓res_main_v54, ↓res_main_v55, ↓res_main_v56, ↓res_main_v57, ↓res_main_v58, ↓res_main_v59, ↓res_main_v60,
      ↓res_main_v61, ↓res_main_v62, ↓res_main_v63, ↓res_main_v64, ↓res_main_v65, ↓res_main_v66, ↓res_main_v67,
      ↓res_main_v68, ↓res_main_v69, ↓res_main_cst_8, ↓res_main_v70, ↓res_main_v71, ↓res_main_cst_9, ↓res_main_v72,
      ↓res_main_v73, ↓res_main_v74, ↓res_main_v75, ↓res_main_v76, ↓res_main_cst_10, ↓res_main_v77, ↓res_main_v78,
      ↓res_main_cst_11, ↓res_main_v79, ↓res_main_v80, ↓res_main_v81, ↓res_main_v82, ↓res_main_cst_12, ↓res_main_v83,
      ↓res_main_v84, ↓res_main_v85, ↓res_main_v86, ↓res_main_v87, ↓res_main_v88, ↓res_main_v89, ↓res_main_v90,
      ↓res_main_v91, ↓res_main_v92, ↓res_main_v93, ↓res_main_call4_cst, ↓res_main_call4_v0, ↓res_main_v94,
      ↓res_main_v95, ↓res_main_cst_13, ↓res_main_call5_v0, ↓res_main_call5_v1, ↓res_main_call5_v2, ↓res_main_v96,
      ↓res_main_cst_14, ↓res_main_v97, ↓res_main_v98, ↓res_main_v99, ↓res_main_v100, ↓res_main_v101, ↓res_main_v102,
      ↓res_main_v103, ↓res_main_v104, ↓res_main_v105, ↓res_main_v106, ↓res_main_v107, ↓res_main_v108, ↓res_main_v109,
      ↓res_main_v110, ↓res_main_v111, ↓res_main_v112, ↓res_main_v113, ↓res_main_v114, ↓res_main_v115, ↓res_main_v116,
      ↓res_main_v117, ↓res_main_v118, ↓res_main_v119, ↓res_main_v120, ↓res_main_cst_15, ↓res_main_v121, ↓res_main_v122,
      ↓res_main_cst_16, ↓res_main_v123, ↓res_main_v124, ↓res_main_v125, ↓res_main_v126, ↓res_main_v127,
      ↓res_main_cst_17, ↓res_main_v128, ↓res_main_v129, ↓res_main_cst_18, ↓res_main_v130, ↓res_main_v131,
      ↓res_main_v132, ↓res_main_v133, ↓res_main_cst_19, ↓res_main_v134, ↓res_main_v135, ↓res_main_v136, ↓res_main_v137,
      ↓res_main_v138, ↓res_main_v139, ↓res_main_v140, ↓res_main_v141, ↓res_main_v142, ↓res_main_v143, ↓res_main_v144,
      ↓res_main_call6_cst, ↓res_main_call6_v0, ↓res_main_v145, ↓res_main_v146, ↓res_main_cst_20, ↓res_main_call7_v0,
      ↓res_main_call7_v1, ↓res_main_call7_v2, ↓res_main_v147, ↓res_main_cst_21, ↓res_main_v148, ↓res_main_v149,
      ↓res_main_v150, ↓res_main_v151, ↓res_main_v152, ↓res_main_v153, ↓res_main_v154, ↓res_main_v155, ↓res_main_v156,
      ↓res_main_v157, ↓res_main_v158, ↓res_main_v159, ↓res_main_v160, ↓res_main_cst_22, ↓res_main_call8_v0,
      ↓res_main_call8_v1, ↓res_main_call8_v2, ↓res_main_v161, ↓res_main_cst_23, ↓res_main_v162, ↓res_main_v163,
      ↓res_main_cst_24, ↓res_main_call9_v0, ↓res_main_call9_v1, ↓res_main_call9_v2, ↓res_main_v164,
      fold_main_v0, fold_main_c, fold_main_v1, fold_main_v2, fold_main_v3, fold_main_c_0, fold_main_call0_v0,
      fold_main_call0_v1, fold_main_v4, fold_main_v5, fold_main_cst, fold_main_call1_v0, fold_main_call1_v1,
      fold_main_call1_v2, fold_main_v6, fold_main_v7, fold_main_v8, fold_main_v9, fold_main_v10, fold_main_v11,
      fold_main_v12, fold_main_v13, fold_main_v14, fold_main_v15, fold_main_v16, fold_main_v17, fold_main_v18,
      fold_main_cst_1, fold_main_v19, fold_main_v20, fold_main_cst_2, fold_main_v21, fold_main_v22, fold_main_v23,
      fold_main_v24, fold_main_v25, fold_main_cst_3, fold_main_v26, fold_main_v27, fold_main_cst_4, fold_main_v28,
      fold_main_v29, fold_main_v30, fold_main_v31, fold_main_cst_5, fold_main_v32, fold_main_v33, fold_main_v34,
      fold_main_v35, fold_main_v36, fold_main_v37, fold_main_v38, fold_main_v39, fold_main_v40, fold_main_v41,
      fold_main_v42, fold_main_call2_cst, fold_main_call2_v0, fold_main_v43, fold_main_v44, fold_main_cst_6,
      fold_main_call3_v0, fold_main_call3_v1, fold_main_call3_v2, fold_main_v45, fold_main_cst_7, fold_main_v46,
      fold_main_v47, fold_main_v48, fold_main_v49, fold_main_v50, fold_main_v51, fold_main_v52, fold_main_v53,
      fold_main_v54, fold_main_v55, fold_main_v56, fold_main_v57, fold_main_v58, fold_main_v59, fold_main_v60,
      fold_main_v61, fold_main_v62, fold_main_v63, fold_main_v64, fold_main_v65, fold_main_v66, fold_main_v67,
      fold_main_v68, fold_main_v69, fold_main_cst_8, fold_main_v70, fold_main_v71, fold_main_cst_9, fold_main_v72,
      fold_main_v73, fold_main_v74, fold_main_v75, fold_main_v76, fold_main_cst_10, fold_main_v77, fold_main_v78,
      fold_main_cst_11, fold_main_v79, fold_main_v80, fold_main_v81, fold_main_v82, fold_main_cst_12, fold_main_v83,
      fold_main_v84, fold_main_v85, fold_main_v86, fold_main_v87, fold_main_v88, fold_main_v89, fold_main_v90,
      fold_main_v91, fold_main_v92, fold_main_v93, fold_main_call4_cst, fold_main_call4_v0, fold_main_v94,
      fold_main_v95, fold_main_cst_13, fold_main_call5_v0, fold_main_call5_v1, fold_main_call5_v2, fold_main_v96,
      fold_main_cst_14, fold_main_v97, fold_main_v98, fold_main_v99, fold_main_v100, fold_main_v101, fold_main_v102,
      fold_main_v103, fold_main_v104, fold_main_v105, fold_main_v106, fold_main_v107, fold_main_v108, fold_main_v109,
      fold_main_v110, fold_main_v111, fold_main_v112, fold_main_v113, fold_main_v114, fold_main_v115, fold_main_v116,
      fold_main_v117, fold_main_v118, fold_main_v119, fold_main_v120, fold_main_cst_15, fold_main_v121, fold_main_v122,
      fold_main_cst_16, fold_main_v123, fold_main_v124, fold_main_v125, fold_main_v126, fold_main_v127,
      fold_main_cst_17, fold_main_v128, fold_main_v129, fold_main_cst_18, fold_main_v130, fold_main_v131,
      fold_main_v132, fold_main_v133, fold_main_cst_19, fold_main_v134, fold_main_v135, fold_main_v136, fold_main_v137,
      fold_main_v138, fold_main_v139, fold_main_v140, fold_main_v141, fold_main_v142, fold_main_v143, fold_main_v144,
      fold_main_call6_cst, fold_main_call6_v0, fold_main_v145, fold_main_v146, fold_main_cst_20, fold_main_call7_v0,
      fold_main_call7_v1, fold_main_call7_v2, fold_main_v147, fold_main_cst_21, fold_main_v148, fold_main_v149,
      fold_main_v150, fold_main_v151, fold_main_v152, fold_main_v153, fold_main_v154, fold_main_v155, fold_main_v156,
      fold_main_v157, fold_main_v158, fold_main_v159, fold_main_v160, fold_main_cst_22, fold_main_call8_v0,
      fold_main_call8_v1, fold_main_call8_v2, fold_main_v161, fold_main_cst_23, fold_main_v162, fold_main_v163,
      fold_main_cst_24, fold_main_call9_v0, fold_main_call9_v1, fold_main_call9_v2, fold_main_v164]))

end Cert.ReferenceIdeal.RefFold

end
-- ==== Proof.RefRunF.lean ====
/-
  The reference's run read back at the stage functions. The program is a list of operations, each writing one buffer of
  its own from the contents of its operands' buffers. Folding the list from any contents V: the buffer an operation
  writes then holds its stage's defining term of the operands' buffers, every other buffer is as it was, and the
  defining term at the operands' stage values is the stage value; so the last buffer holds the last stage's value of V at
  the argument buffers, and the argument buffers, which no operation writes, hold what they held. From any memory with
  zero counters every weakly fair execution ends with each buffer at that fold of its launch contents.
-/
import proofs.«143936_j68195490726566_2_alg».proof.Proof.RefFold

noncomputable section

namespace Cert.ReferenceIdeal.RefRunF

open Cert.ReferenceIdeal Cert.ReferenceIdeal.Gen Cert.ReferenceIdeal.ReadP Idealize.ShloMosaic Idealize.ShloMosaic.TcCoe Idealize.SL.Sem Idealize.ShloMosaic.StableHlo

set_option maxRecDepth 16384 in
set_option maxHeartbeats 4000000 in
/-- After the whole list, from any contents `V`, the result buffer holds the last stage's value of `V` at the argument buffers. -/
theorem after_ops (V : Valuation τ sig (Elt Ideal)) :
    after (Cert.ReferenceIdeal.OpsP.ops (F := Ideal)) V (Proc.devRef .tc main_v164)
      = val_main_v164 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  ref_fold_simp

set_option maxRecDepth 16384 in
set_option maxHeartbeats 4000000 in
/-- On every device, from any memory with zero counters: every weakly fair execution of @main terminates with the result
    buffer at the last stage's value of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v164) = Cert.ReferenceIdeal.ReadP.val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v164).trans (after_ops (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq Cert.ReferenceIdeal.OpsP.scopedRefs_eq Cert.ReferenceIdeal.OpsP.scopedSems_eq defs main (fun _ => Cert.ReferenceIdeal.OpsP.ops)
      Cert.ReferenceIdeal.OpsP.main_eq (fun _ => Cert.ReferenceIdeal.OpsP.ops_sub) m ρ)

end Cert.ReferenceIdeal.RefRunF

end
-- ==== Proof.lean ====
/-
  The certificate's claims. Both idealized programs compute, for each of the 16 × 128 polylines (64 points of 128
  features, some points marked valid), the network of Proof/Net.lean: three layers of an affine map, a row
  normalisation, gain / offset / ramp, a maximum over the polyline's unmasked points joined to every row, and a
  second affine map; then a masked maximum over the points, zero for a polyline with no valid point. The kernel
  computes it block by block of 64 polylines, through the matrix unit and lane reductions, masking with an additive
  `⊥` and multiplying by a 0/1 indicator (Proof/KFinal.lean); the reference computes it on the whole arrays with
  selections (Proof/RefValue.lean). On the extended reals `x + ⊥ = ⊥`, `x · 0 = 0` and `x · 1 = x` hold for every
  `x`, so the additive mask and the indicator product are the selections, and the two programs, from memories that
  agree on the arguments, both end at `Cert.Net.G` of the arguments. No step uses that the inputs are finite.
  The frames of the two kernel programs are their generated frame certificates; the reference's frame is its run
  (Proof/RefRunF.lean: the host operations' results folded, one operation at a time, into the stage functions the
  value proof reads) with the result dropped. The idealization rewrote no operation, so the preservation claim is `True`.
-/
import proofs.«143936_j68195490726566_2_alg».proof.Defs
import proofs.«143936_j68195490726566_2_alg».proof.Proof.Gen.Kernel
import proofs.«143936_j68195490726566_2_alg».proof.Proof.Gen.Kernel.Frame
import proofs.«143936_j68195490726566_2_alg».proof.Proof.Gen.KernelIdeal
import proofs.«143936_j68195490726566_2_alg».proof.Proof.Gen.KernelIdeal.Frame
import proofs.«143936_j68195490726566_2_alg».proof.Proof.Gen.ReferenceIdeal
import proofs.«143936_j68195490726566_2_alg».proof.Proof.Gen.Pre_finite_inputs
import proofs.«143936_j68195490726566_2_alg».proof.Proof.KFinal
import proofs.«143936_j68195490726566_2_alg».proof.Proof.RefValue
import proofs.«143936_j68195490726566_2_alg».proof.Proof.RefRunF
import Idealize.ShloMosaic.Adequacy
import Idealize.ShloMosaic.Init

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRunF.run m ρ)

theorem preserves : Cert.preserves_Kernel_KernelIdeal := trivial

/-- Both runs end at the specification's result array of the arguments, which the two memories agree on. -/
theorem algebraic : Cert.algebraic_KernelIdeal_ReferenceIdeal := by
  intro m ρ m' ρ' _ hagree
  refine ⟨fun c => Cert.KernelIdeal.KV.Gm m c, Cert.KernelIdeal.KV.run m ρ, ?_⟩
  refine (θ_run Cert.ReferenceIdeal.defs _ _).mono (fun _ h c => ⟨(h c).1.trans ?_, (h c).2⟩)
    (Cert.ReferenceIdeal.RefRunF.run m' ρ')
  obtain ⟨h0, h1, h2, h3, h4, h5, h6, h7⟩ := hagree c
  rw [Cert.ReferenceIdeal.RefValue.ref_value, h0, h1, h2, h3, h4, h5, h6, h7]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
